-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x32 : Shape := ⟨3, ![4096, 32, 32]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S_ : Shape := ⟨0, ![]⟩

class Facts : Prop where
  bcast_S_S4096x32x32 : S_.BroadcastsInDim S4096x32x32 (![] : Fin 0 → Fin S4096x32x32.rank)
  reducesTo_S4096x32x32_S_d0_1_2 : S4096x32x32.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S2048x1024 .f32) (main_v50 : FVec F S2048x1024 .f32) : IVec S_ 1 :=
  let main_v51 : IVec S2048x1024 1 := cmpf .olt main_v49 main_v50
  let main_c_19 : IVec S_ 1 := constantI S_ 1 1#1
  let main_v52 : IVec S_ 1 := (fun x v => Host.reduce IntOp.andi x v reducesTo_S2048x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S2048 .f32) (main_arg8 : FVec F S2048x2048 .f32) (main_arg9 : FVec F S2048 .f32) (main_arg10 : FVec F S2048x1024 .f32) (main_arg11 : FVec F S1024 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x1024 .f32 := Host.absf main_arg10
  let main_cst_18 : FVec F S_ .f32 := constant S_ .f32 0x7F800000#32
  let main_v50 : FVec F S2048x1024 .f32 := broadcastInDim S2048x1024 ![] bcast_S_S2048x1024 main_cst_18
  fn_part3 (F := F) main_arg11 main_v48 main_v49 main_v50

def fn_part1 {F : FTy → Type} [FloatOps F] (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x1024 .f32) (main_arg11 : FVec F S1024 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x32x32 .f32) (main_arg1 : FVec F S4096x32x32 .f32) (main_arg2 : FVec F S2048x2048 .f32) (main_arg3 : FVec F S2048 .f32) (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x1024 .f32) (main_arg11 : FVec F S1024 .f32) : IVec S_ 1 :=
  let main_v0 : FVec F S4096x32x32 .f32 := Host.absf main_arg0
  let main_cst : FVec F S_ .f32 := constant S_ .f32 0x7F800000#32
  let main_v1 : FVec F S4096x32x32 .f32 := broadcastInDim S4096x32x32 ![] bcast_S_S4096x32x32 main_cst
  let main_v2 : IVec S4096x32x32 1 := cmpf .olt main_v0 main_v1
  let main_c : IVec S_ 1 := constantI S_ 1 1#1
  let main_v3 : IVec S_ 1 := (fun x v => Host.reduce IntOp.andi x v reducesTo_S4096x32x32_S_d0_1_2 h_S_) main_v2 main_c
  let main_v4 : FVec F S4096x32x32 .f32 := Host.absf main_arg1
  let main_cst_0 : FVec F S_ .f32 := constant S_ .f32 0x7F800000#32
  let main_v5 : FVec F S4096x32x32 .f32 := broadcastInDim S4096x32x32 ![] bcast_S_S4096x32x32 main_cst_0
  let main_v6 : IVec S4096x32x32 1 := cmpf .olt main_v4 main_v5
  let main_c_1 : IVec S_ 1 := constantI S_ 1 1#1
  let main_v7 : IVec S_ 1 := (fun x v => Host.reduce IntOp.andi x v reducesTo_S4096x32x32_S_d0_1_2 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_v13 main_v16
-- ==== Kernel.lean ====
abbrev S4096x32x32 : Shape := ⟨3, ![4096, 32, 32]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S4096x32x32x1 : Shape := ⟨4, ![4096, 32, 32, 1]⟩
abbrev S4096x32x32x2 : Shape := ⟨4, ![4096, 32, 32, 2]⟩
abbrev S4096x2048 : Shape := ⟨2, ![4096, 2048]⟩
abbrev S1x2048 : Shape := ⟨2, ![1, 2048]⟩
abbrev S1x1024 : Shape := ⟨2, ![1, 1024]⟩
abbrev S4096x1024 : Shape := ⟨2, ![4096, 1024]⟩
abbrev S128x2048 : Shape := ⟨2, ![128, 2048]⟩
abbrev S128x1024 : Shape := ⟨2, ![128, 1024]⟩
abbrev S128x32x32 : Shape := ⟨3, ![128, 32, 32]⟩
abbrev S128x32 : Shape := ⟨2, ![128, 32]⟩
abbrev S128x1x32 : Shape := ⟨3, ![128, 1, 32]⟩
abbrev S128x32x1 : Shape := ⟨3, ![128, 32, 1]⟩

abbrev nBuf : Space → Nat
  | .hbm => 30
  | .vmem => 18
  | .smem => 0
  | _ => 0

abbrev bufTy : (tb : Table) → Fin (tcTables nBuf tb) → BufTy
  | .hbm, ⟨0, _⟩ => ⟨S4096x32x32, .f32⟩
  | .hbm, ⟨1, _⟩ => ⟨S4096x32x32, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x1024, .f32⟩
  | .hbm, ⟨11, _⟩ => ⟨S1024, .f32⟩
  | .hbm, ⟨12, _⟩ => ⟨S4096x32x32x1, .f32⟩
  | .hbm, ⟨13, _⟩ => ⟨S4096x32x32x1, .f32⟩
  | .hbm, ⟨14, _⟩ => ⟨S4096x32x32x2, .f32⟩
  | .hbm, ⟨15, _⟩ => ⟨S4096x2048, .f32⟩
  | .hbm, ⟨16, _⟩ => ⟨S4096x2048, .bf16⟩
  | .hbm, ⟨17, _⟩ => ⟨S2048x2048, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .hbm, ⟨21, _⟩ => ⟨S2048x1024, .bf16⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x1024, .f32⟩
  | .hbm, ⟨27, _⟩ => ⟨S4096x1024, .f32⟩
  | .hbm, ⟨28, _⟩ => ⟨S4096x32x32, .f32⟩
  | .hbm, ⟨29, _⟩ => ⟨S4096x32x32, .f32⟩
  | .local _ .vmem, ⟨0, _⟩ => ⟨S128x2048, .bf16⟩
  | .local _ .vmem, ⟨1, _⟩ => ⟨S128x2048, .bf16⟩
  | .local _ .vmem, ⟨2, _⟩ => ⟨S2048x2048, .bf16⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S2048x2048, .bf16⟩
  | .local _ .vmem, ⟨9, _⟩ => ⟨S1x2048, .f32⟩
  | .local _ .vmem, ⟨10, _⟩ => ⟨S2048x1024, .bf16⟩
  | .local _ .vmem, ⟨11, _⟩ => ⟨S1x1024, .f32⟩
  | .local _ .vmem, ⟨12, _⟩ => ⟨S128x1024, .f32⟩
  | .local _ .vmem, ⟨13, _⟩ => ⟨S128x1024, .f32⟩
  | .local _ .vmem, ⟨14, _⟩ => ⟨S128x32x32, .f32⟩
  | .local _ .vmem, ⟨15, _⟩ => ⟨S128x32x32, .f32⟩
  | .local _ .vmem, ⟨16, _⟩ => ⟨S128x32x32, .f32⟩
  | .local _ .vmem, ⟨17, _⟩ => ⟨S128x32x32, .f32⟩
  | _, _ => ⟨S4096x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc1_sem0_0 : DmaSem sig := 14
abbrev cc1_sem0_1 : DmaSem sig := 15
abbrev cc1_sem1_0 : DmaSem sig := 16
abbrev cc1_sem1_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x32x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x32x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  bcast_S4096x32x32_S4096x32x32x1_0_1_2 : S4096x32x32.BroadcastsInDim S4096x32x32x1 (![0, 1, 2] : Fin 3 → Fin S4096x32x32x1.rank)
  concatenates_S4096x32x32x1_S4096x32x32x1_S4096x32x32x2_d3 : Shape.Concatenates [S4096x32x32x1, S4096x32x32x1] S4096x32x32x2 3
  shapeCasts_S4096x32x32x2_S4096x2048 : S4096x32x32x2.ShapeCasts S4096x2048
  bitsLt_bf16_f32 : FTy.bits .bf16 < FTy.bits .f32
  shapeCasts_S2048_S1x2048 : S2048.ShapeCasts S1x2048
  shapeCasts_S1024_S1x1024 : S1024.ShapeCasts S1x1024
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  shapeCasts_S4096x1024_S4096x32x32 : S4096x1024.ShapeCasts S4096x32x32
  inb_S128x32x32_S128x32x32_0_0_0 : ∀ a, (![0, 0, 0] : Fin 3 → Nat) a + S128x32x32.size a ≤ S128x32x32.size a
  h_S128x32x32 : 0 < S128x32x32.numel
  shapeCasts_S128x32x32_S128x32x32 : S128x32x32.ShapeCasts S128x32x32
  reduces_S128x32x32_S128x32 : S128x32x32.Reduces [1] S128x32
  shapeCasts_S128x32_S128x1x32 : S128x32.ShapeCasts S128x1x32
  broadcasts_S128x1x32_S128x32x32 : S128x1x32.Broadcasts S128x32x32
  reduces_S128x32x32_S128x32_2 : S128x32x32.Reduces [2] S128x32
  shapeCasts_S128x32_S128x32x1 : S128x32.ShapeCasts S128x32x1
  broadcasts_S128x32x1_S128x32x32 : S128x32x1.Broadcasts S128x32x32
  dot_S128x2048_S2048x2048_S128x2048_1_0_0_1_n_n_wf : DotDims.WF S128x2048 S2048x2048 S128x2048 [1] [0] [0] [1] [] []
  dot_S128x2048_S2048x1024_S128x1024_1_0_0_1_n_n_wf : DotDims.WF S128x2048 S2048x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .bf16 = 32 ∨ (Rect.block (s := S4096x2048) S128x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .bf16 = 32 ∨ (Rect.block (s := S2048x2048) S2048x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x1024.size a ≤ S2048x1024.size a
  hwx0_9 : ∀ i : grid0.Coords, EltTy.bits .bf16 = 32 ∨ (Rect.block (s := S2048x1024) S2048x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S4096x1024.size a
  hwx0_11 : ∀ i : grid0.Coords, EltTy.bits .f32 = 32 ∨ (Rect.block (s := S4096x1024) S128x1024.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x32x32.size a ≤ S4096x32x32.size a
  hwx1_0 : ∀ i : grid1.Coords, EltTy.bits .f32 = 32 ∨ (Rect.block (s := S4096x32x32) S128x32x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x32x32.size a ≤ S4096x32x32.size a
  hwx1_1 : ∀ i : grid1.Coords, EltTy.bits .f32 = 32 ∨ (Rect.block (s := S4096x32x32) S128x32x32.size (cc1_transform_1 i) (hinb1_1 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.ofSpec (Memref.whole main_v4) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S2048x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S128x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v16) S128x32x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S128x32x32.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S4096x32x32 : Shape := ⟨3, ![4096, 32, 32]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S4096x32x32x1 : Shape := ⟨4, ![4096, 32, 32, 1]⟩
abbrev S4096x32x32x2 : Shape := ⟨4, ![4096, 32, 32, 2]⟩
abbrev S4096x2048 : Shape := ⟨2, ![4096, 2048]⟩
abbrev S1x2048 : Shape := ⟨2, ![1, 2048]⟩
abbrev S_ : Shape := ⟨0, ![]⟩
abbrev S4096x1024 : Shape := ⟨2, ![4096, 1024]⟩
abbrev S1x1024 : Shape := ⟨2, ![1, 1024]⟩
abbrev S4096x32 : Shape := ⟨2, ![4096, 32]⟩
abbrev S4096x1x32 : Shape := ⟨3, ![4096, 1, 32]⟩
abbrev S4096x32x1 : Shape := ⟨3, ![4096, 32, 1]⟩

abbrev nBuf : Space → Nat
  | .hbm => 263
  | .vmem => 0
  | .smem => 0
  | _ => 0

abbrev hbmTy0_0 (i : Nat) : BufTy := match i % 128 with
  | 0 => ⟨S4096x32x32, .f32⟩
  | 1 => ⟨S4096x32x32, .f32⟩
  | 2 => ⟨S2048x2048, .f32⟩
  | 3 => ⟨S2048, .f32⟩
  | 4 => ⟨S2048x2048, .f32⟩
  | 5 => ⟨S2048, .f32⟩
  | 6 => ⟨S2048x2048, .f32⟩
  | 7 => ⟨S2048, .f32⟩
  | 8 => ⟨S2048x2048, .f32⟩
  | 9 => ⟨S2048, .f32⟩
  | 10 => ⟨S2048x1024, .f32⟩
  | 11 => ⟨S1024, .f32⟩
  | 12 => ⟨S4096x32x32x1, .f32⟩
  | 13 => ⟨S4096x32x32x1, .f32⟩
  | 14 => ⟨S4096x32x32x2, .f32⟩
  | 15 => ⟨S4096x2048, .f32⟩
  | 16 => ⟨S4096x2048, .f32⟩
  | 17 => ⟨S1x2048, .f32⟩
  | 18 => ⟨S4096x2048, .f32⟩
  | 19 => ⟨S4096x2048, .f32⟩
  | 20 => ⟨S_, .f32⟩
  | 21 => ⟨S_, .f32⟩
  | 22 => ⟨S4096x2048, .f32⟩
  | 23 => ⟨S4096x2048, .i1⟩
  | 24 => ⟨S_, .f32⟩
  | 25 => ⟨S4096x2048, .f32⟩
  | 26 => ⟨S4096x2048, .f32⟩
  | 27 => ⟨S4096x2048, .f32⟩
  | 28 => ⟨S4096x2048, .f32⟩
  | 29 => ⟨S1x2048, .f32⟩
  | 30 => ⟨S4096x2048, .f32⟩
  | 31 => ⟨S4096x2048, .f32⟩
  | 32 => ⟨S_, .f32⟩
  | 33 => ⟨S_, .f32⟩
  | 34 => ⟨S4096x2048, .f32⟩
  | 35 => ⟨S4096x2048, .i1⟩
  | 36 => ⟨S_, .f32⟩
  | 37 => ⟨S4096x2048, .f32⟩
  | 38 => ⟨S4096x2048, .f32⟩
  | 39 => ⟨S4096x2048, .f32⟩
  | 40 => ⟨S4096x2048, .f32⟩
  | 41 => ⟨S1x2048, .f32⟩
  | 42 => ⟨S4096x2048, .f32⟩
  | 43 => ⟨S4096x2048, .f32⟩
  | 44 => ⟨S_, .f32⟩
  | 45 => ⟨S_, .f32⟩
  | 46 => ⟨S4096x2048, .f32⟩
  | 47 => ⟨S4096x2048, .i1⟩
  | 48 => ⟨S_, .f32⟩
  | 49 => ⟨S4096x2048, .f32⟩
  | 50 => ⟨S4096x2048, .f32⟩
  | 51 => ⟨S4096x2048, .f32⟩
  | 52 => ⟨S4096x2048, .f32⟩
  | 53 => ⟨S1x2048, .f32⟩
  | 54 => ⟨S4096x2048, .f32⟩
  | 55 => ⟨S4096x2048, .f32⟩
  | 56 => ⟨S_, .f32⟩
  | 57 => ⟨S_, .f32⟩
  | 58 => ⟨S4096x2048, .f32⟩
  | 59 => ⟨S4096x2048, .i1⟩
  | 60 => ⟨S_, .f32⟩
  | 61 => ⟨S4096x2048, .f32⟩
  | 62 => ⟨S4096x2048, .f32⟩
  | 63 => ⟨S4096x2048, .f32⟩
  | 64 => ⟨S4096x1024, .f32⟩
  | 65 => ⟨S1x1024, .f32⟩
  | 66 => ⟨S4096x1024, .f32⟩
  | 67 => ⟨S4096x1024, .f32⟩
  | 68 => ⟨S4096x32x32, .f32⟩
  | 69 => ⟨S_, .f32⟩
  | 70 => ⟨S4096x32x32, .f32⟩
  | 71 => ⟨S4096x32x32, .f32⟩
  | 72 => ⟨S4096x32x32, .f32⟩
  | 73 => ⟨S4096x32x32, .f32⟩
  | 74 => ⟨S4096x32x32, .i1⟩
  | 75 => ⟨S4096x32x32, .f32⟩
  | 76 => ⟨S4096x32x32, .f32⟩
  | 77 => ⟨S4096x32x32, .f32⟩
  | 78 => ⟨S4096x32x32, .f32⟩
  | 79 => ⟨S4096x32x32, .f32⟩
  | 80 => ⟨S4096x32x32, .f32⟩
  | 81 => ⟨S4096x32x32, .f32⟩
  | 82 => ⟨S4096x32x32, .f32⟩
  | 83 => ⟨S4096x32x32, .f32⟩
  | 84 => ⟨S_, .f32⟩
  | 85 => ⟨S4096x32, .f32⟩
  | 86 => ⟨S4096x1x32, .f32⟩
  | 87 => ⟨S_, .f32⟩
  | 88 => ⟨S4096x1x32, .f32⟩
  | 89 => ⟨S4096x1x32, .f32⟩
  | 90 => ⟨S4096x32x32, .f32⟩
  | 91 => ⟨S4096x32x32, .f32⟩
  | 92 => ⟨S4096x32x32, .f32⟩
  | 93 => ⟨S_, .f32⟩
  | 94 => ⟨S4096x32, .f32⟩
  | 95 => ⟨S4096x32x1, .f32⟩
  | 96 => ⟨S_, .f32⟩
  | 97 => ⟨S4096x32x1, .f32⟩
  | 98 => ⟨S4096x32x1, .f32⟩
  | 99 => ⟨S4096x32x32, .f32⟩
  | 100 => ⟨S4096x32x32, .f32⟩
  | 101 => ⟨S4096x32x32, .f32⟩
  | 102 => ⟨S_, .f32⟩
  | 103 => ⟨S4096x32, .f32⟩
  | 104 => ⟨S4096x1x32, .f32⟩
  | 105 => ⟨S_, .f32⟩
  | 106 => ⟨S4096x1x32, .f32⟩
  | 107 => ⟨S4096x1x32, .f32⟩
  | 108 => ⟨S4096x32x32, .f32⟩
  | 109 => ⟨S4096x32x32, .f32⟩
  | 110 => ⟨S4096x32x32, .f32⟩
  | 111 => ⟨S_, .f32⟩
  | 112 => ⟨S4096x32, .f32⟩
  | 113 => ⟨S4096x32x1, .f32⟩
  | 114 => ⟨S_, .f32⟩
  | 115 => ⟨S4096x32x1, .f32⟩
  | 116 => ⟨S4096x32x1, .f32⟩
  | 117 => ⟨S4096x32x32, .f32⟩
  | 118 => ⟨S4096x32x32, .f32⟩
  | 119 => ⟨S4096x32x32, .f32⟩
  | 120 => ⟨S_, .f32⟩
  | 121 => ⟨S4096x32, .f32⟩
  | 122 => ⟨S4096x1x32, .f32⟩
  | 123 => ⟨S_, .f32⟩
  | 124 => ⟨S4096x1x32, .f32⟩
  | 125 => ⟨S4096x1x32, .f32⟩
  | 126 => ⟨S4096x32x32, .f32⟩
  | 127 => ⟨S4096x32x32, .f32⟩
  | _ => ⟨S4096x32x32, .f32⟩

abbrev hbmTy0_1 (i : Nat) : BufTy := match i % 128 with
  | 0 => ⟨S4096x32x32, .f32⟩
  | 1 => ⟨S_, .f32⟩
  | 2 => ⟨S4096x32, .f32⟩
  | 3 => ⟨S4096x32x1, .f32⟩
  | 4 => ⟨S_, .f32⟩
  | 5 => ⟨S4096x32x1, .f32⟩
  | 6 => ⟨S4096x32x1, .f32⟩
  | 7 => ⟨S4096x32x32, .f32⟩
  | 8 => ⟨S4096x32x32, .f32⟩
  | 9 => ⟨S4096x32x32, .f32⟩
  | 10 => ⟨S_, .f32⟩
  | 11 => ⟨S4096x32, .f32⟩
  | 12 => ⟨S4096x1x32, .f32⟩
  | 13 => ⟨S_, .f32⟩
  | 14 => ⟨S4096x1x32, .f32⟩
  | 15 => ⟨S4096x1x32, .f32⟩
  | 16 => ⟨S4096x32x32, .f32⟩
  | 17 => ⟨S4096x32x32, .f32⟩
  | 18 => ⟨S4096x32x32, .f32⟩
  | 19 => ⟨S_, .f32⟩
  | 20 => ⟨S4096x32, .f32⟩
  | 21 => ⟨S4096x32x1, .f32⟩
  | 22 => ⟨S_, .f32⟩
  | 23 => ⟨S4096x32x1, .f32⟩
  | 24 => ⟨S4096x32x1, .f32⟩
  | 25 => ⟨S4096x32x32, .f32⟩
  | 26 => ⟨S4096x32x32, .f32⟩
  | 27 => ⟨S4096x32x32, .f32⟩
  | 28 => ⟨S_, .f32⟩
  | 29 => ⟨S4096x32, .f32⟩
  | 30 => ⟨S4096x1x32, .f32⟩
  | 31 => ⟨S_, .f32⟩
  | 32 => ⟨S4096x1x32, .f32⟩
  | 33 => ⟨S4096x1x32, .f32⟩
  | 34 => ⟨S4096x32x32, .f32⟩
  | 35 => ⟨S4096x32x32, .f32⟩
  | 36 => ⟨S4096x32x32, .f32⟩
  | 37 => ⟨S_, .f32⟩
  | 38 => ⟨S4096x32, .f32⟩
  | 39 => ⟨S4096x32x1, .f32⟩
  | 40 => ⟨S_, .f32⟩
  | 41 => ⟨S4096x32x1, .f32⟩
  | 42 => ⟨S4096x32x1, .f32⟩
  | 43 => ⟨S4096x32x32, .f32⟩
  | 44 => ⟨S4096x32x32, .f32⟩
  | 45 => ⟨S4096x32x32, .f32⟩
  | 46 => ⟨S_, .f32⟩
  | 47 => ⟨S4096x32, .f32⟩
  | 48 => ⟨S4096x1x32, .f32⟩
  | 49 => ⟨S_, .f32⟩
  | 50 => ⟨S4096x1x32, .f32⟩
  | 51 => ⟨S4096x1x32, .f32⟩
  | 52 => ⟨S4096x32x32, .f32⟩
  | 53 => ⟨S4096x32x32, .f32⟩
  | 54 => ⟨S4096x32x32, .f32⟩
  | 55 => ⟨S_, .f32⟩
  | 56 => ⟨S4096x32, .f32⟩
  | 57 => ⟨S4096x32x1, .f32⟩
  | 58 => ⟨S_, .f32⟩
  | 59 => ⟨S4096x32x1, .f32⟩
  | 60 => ⟨S4096x32x1, .f32⟩
  | 61 => ⟨S4096x32x32, .f32⟩
  | 62 => ⟨S4096x32x32, .f32⟩
  | 63 => ⟨S4096x32x32, .f32⟩
  | 64 => ⟨S_, .f32⟩
  | 65 => ⟨S4096x32, .f32⟩
  | 66 => ⟨S4096x1x32, .f32⟩
  | 67 => ⟨S_, .f32⟩
  | 68 => ⟨S4096x1x32, .f32⟩
  | 69 => ⟨S4096x1x32, .f32⟩
  | 70 => ⟨S4096x32x32, .f32⟩
  | 71 => ⟨S4096x32x32, .f32⟩
  | 72 => ⟨S4096x32x32, .f32⟩
  | 73 => ⟨S_, .f32⟩
  | 74 => ⟨S4096x32, .f32⟩
  | 75 => ⟨S4096x32x1, .f32⟩
  | 76 => ⟨S_, .f32⟩
  | 77 => ⟨S4096x32x1, .f32⟩
  | 78 => ⟨S4096x32x1, .f32⟩
  | 79 => ⟨S4096x32x32, .f32⟩
  | 80 => ⟨S4096x32x32, .f32⟩
  | 81 => ⟨S4096x32x32, .f32⟩
  | 82 => ⟨S_, .f32⟩
  | 83 => ⟨S4096x32, .f32⟩
  | 84 => ⟨S4096x1x32, .f32⟩
  | 85 => ⟨S_, .f32⟩
  | 86 => ⟨S4096x1x32, .f32⟩
  | 87 => ⟨S4096x1x32, .f32⟩
  | 88 => ⟨S4096x32x32, .f32⟩
  | 89 => ⟨S4096x32x32, .f32⟩
  | 90 => ⟨S4096x32x32, .f32⟩
  | 91 => ⟨S_, .f32⟩
  | 92 => ⟨S4096x32, .f32⟩
  | 93 => ⟨S4096x32x1, .f32⟩
  | 94 => ⟨S_, .f32⟩
  | 95 => ⟨S4096x32x1, .f32⟩
  | 96 => ⟨S4096x32x1, .f32⟩
  | 97 => ⟨S4096x32x32, .f32⟩
  | 98 => ⟨S4096x32x32, .f32⟩
  | 99 => ⟨S4096x32x32, .f32⟩
  | 100 => ⟨S_, .f32⟩
  | 101 => ⟨S4096x32, .f32⟩
  | 102 => ⟨S4096x1x32, .f32⟩
  | 103 => ⟨S_, .f32⟩
  | 104 => ⟨S4096x1x32, .f32⟩
  | 105 => ⟨S4096x1x32, .f32⟩
  | 106 => ⟨S4096x32x32, .f32⟩
  | 107 => ⟨S4096x32x32, .f32⟩
  | 108 => ⟨S4096x32x32, .f32⟩
  | 109 => ⟨S_, .f32⟩
  | 110 => ⟨S4096x32, .f32⟩
  | 111 => ⟨S4096x32x1, .f32⟩
  | 112 => ⟨S_, .f32⟩
  | 113 => ⟨S4096x32x1, .f32⟩
  | 114 => ⟨S4096x32x1, .f32⟩
  | 115 => ⟨S4096x32x32, .f32⟩
  | 116 => ⟨S4096x32x32, .f32⟩
  | 117 => ⟨S4096x32x32, .f32⟩
  | 118 => ⟨S_, .f32⟩
  | 119 => ⟨S4096x32, .f32⟩
  | 120 => ⟨S4096x1x32, .f32⟩
  | 121 => ⟨S_, .f32⟩
  | 122 => ⟨S4096x1x32, .f32⟩
  | 123 => ⟨S4096x1x32, .f32⟩
  | 124 => ⟨S4096x32x32, .f32⟩
  | 125 => ⟨S4096x32x32, .f32⟩
  | 126 => ⟨S4096x32x32, .f32⟩
  | 127 => ⟨S_, .f32⟩
  | _ => ⟨S4096x32x32, .f32⟩

abbrev hbmTy0_2 (i : Nat) : BufTy := match i % 128 with
  | 0 => ⟨S4096x32, .f32⟩
  | 1 => ⟨S4096x32x1, .f32⟩
  | 2 => ⟨S_, .f32⟩
  | 3 => ⟨S4096x32x1, .f32⟩
  | 4 => ⟨S4096x32x1, .f32⟩
  | 5 => ⟨S4096x32x32, .f32⟩
  | 6 => ⟨S4096x32x32, .f32⟩
  | _ => ⟨S4096x32x32, .f32⟩

abbrev hbmTy (i : Nat) : BufTy := match i / 128 with
  | 0 => hbmTy0_0 i
  | 1 => hbmTy0_1 i
  | 2 => hbmTy0_2 i
  | _ => ⟨S4096x32x32, .f32⟩

abbrev bufTy : (tb : Table) → Fin (tcTables nBuf tb) → BufTy
  | .hbm, ⟨i, _⟩ => hbmTy i
  | _, _ => ⟨S4096x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_1 : Ref sig .tc := ⟨.hbm, 44, rfl⟩
abbrev main_call2_cst : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_2 : Ref sig .tc := ⟨.hbm, 56, rfl⟩
abbrev main_call3_cst : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_call4_cst : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_v6 : Ref sig .tc := ⟨.hbm, 76, rfl⟩
abbrev main_call4_v7 : Ref sig .tc := ⟨.hbm, 77, rfl⟩
abbrev main_call4_v8 : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_v29 : Ref sig .tc := ⟨.hbm, 82, rfl⟩
abbrev main_v30 : Ref sig .tc := ⟨.hbm, 83, rfl⟩
abbrev main_cst_3 : Ref sig .tc := ⟨.hbm, 84, rfl⟩
abbrev main_v31 : Ref sig .tc := ⟨.hbm, 85, rfl⟩
abbrev main_v32 : Ref sig .tc := ⟨.hbm, 86, rfl⟩
abbrev main_cst_4 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_cst_5 : Ref sig .tc := ⟨.hbm, 93, rfl⟩
abbrev main_v38 : Ref sig .tc := ⟨.hbm, 94, rfl⟩
abbrev main_v39 : Ref sig .tc := ⟨.hbm, 95, rfl⟩
abbrev main_cst_6 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_cst_7 : Ref sig .tc := ⟨.hbm, 102, rfl⟩
abbrev main_v45 : Ref sig .tc := ⟨.hbm, 103, rfl⟩
abbrev main_v46 : Ref sig .tc := ⟨.hbm, 104, rfl⟩
abbrev main_cst_8 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_cst_9 : Ref sig .tc := ⟨.hbm, 111, rfl⟩
abbrev main_v52 : Ref sig .tc := ⟨.hbm, 112, rfl⟩
abbrev main_v53 : Ref sig .tc := ⟨.hbm, 113, rfl⟩
abbrev main_cst_10 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst_11 : Ref sig .tc := ⟨.hbm, 120, rfl⟩
abbrev main_v59 : Ref sig .tc := ⟨.hbm, 121, rfl⟩
abbrev main_v60 : Ref sig .tc := ⟨.hbm, 122, rfl⟩
abbrev main_cst_12 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_cst_13 : Ref sig .tc := ⟨.hbm, 129, rfl⟩
abbrev main_v66 : Ref sig .tc := ⟨.hbm, 130, rfl⟩
abbrev main_v67 : Ref sig .tc := ⟨.hbm, 131, rfl⟩
abbrev main_cst_14 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_cst_15 : Ref sig .tc := ⟨.hbm, 138, rfl⟩
abbrev main_v73 : Ref sig .tc := ⟨.hbm, 139, rfl⟩
abbrev main_v74 : Ref sig .tc := ⟨.hbm, 140, rfl⟩
abbrev main_cst_16 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_cst_17 : Ref sig .tc := ⟨.hbm, 147, rfl⟩
abbrev main_v80 : Ref sig .tc := ⟨.hbm, 148, rfl⟩
abbrev main_v81 : Ref sig .tc := ⟨.hbm, 149, rfl⟩
abbrev main_cst_18 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_cst_19 : Ref sig .tc := ⟨.hbm, 156, rfl⟩
abbrev main_v87 : Ref sig .tc := ⟨.hbm, 157, rfl⟩
abbrev main_v88 : Ref sig .tc := ⟨.hbm, 158, rfl⟩
abbrev main_cst_20 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_21 : Ref sig .tc := ⟨.hbm, 165, rfl⟩
abbrev main_v94 : Ref sig .tc := ⟨.hbm, 166, rfl⟩
abbrev main_v95 : Ref sig .tc := ⟨.hbm, 167, rfl⟩
abbrev main_cst_22 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_cst_23 : Ref sig .tc := ⟨.hbm, 174, rfl⟩
abbrev main_v101 : Ref sig .tc := ⟨.hbm, 175, rfl⟩
abbrev main_v102 : Ref sig .tc := ⟨.hbm, 176, rfl⟩
abbrev main_cst_24 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_cst_25 : Ref sig .tc := ⟨.hbm, 183, rfl⟩
abbrev main_v108 : Ref sig .tc := ⟨.hbm, 184, rfl⟩
abbrev main_v109 : Ref sig .tc := ⟨.hbm, 185, rfl⟩
abbrev main_cst_26 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_cst_27 : Ref sig .tc := ⟨.hbm, 192, rfl⟩
abbrev main_v115 : Ref sig .tc := ⟨.hbm, 193, rfl⟩
abbrev main_v116 : Ref sig .tc := ⟨.hbm, 194, rfl⟩
abbrev main_cst_28 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_cst_29 : Ref sig .tc := ⟨.hbm, 201, rfl⟩
abbrev main_v122 : Ref sig .tc := ⟨.hbm, 202, rfl⟩
abbrev main_v123 : Ref sig .tc := ⟨.hbm, 203, rfl⟩
abbrev main_cst_30 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_cst_31 : Ref sig .tc := ⟨.hbm, 210, rfl⟩
abbrev main_v129 : Ref sig .tc := ⟨.hbm, 211, rfl⟩
abbrev main_v130 : Ref sig .tc := ⟨.hbm, 212, rfl⟩
abbrev main_cst_32 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_33 : Ref sig .tc := ⟨.hbm, 219, rfl⟩
abbrev main_v136 : Ref sig .tc := ⟨.hbm, 220, rfl⟩
abbrev main_v137 : Ref sig .tc := ⟨.hbm, 221, rfl⟩
abbrev main_cst_34 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_cst_35 : Ref sig .tc := ⟨.hbm, 228, rfl⟩
abbrev main_v143 : Ref sig .tc := ⟨.hbm, 229, rfl⟩
abbrev main_v144 : Ref sig .tc := ⟨.hbm, 230, rfl⟩
abbrev main_cst_36 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_cst_37 : Ref sig .tc := ⟨.hbm, 237, rfl⟩
abbrev main_v150 : Ref sig .tc := ⟨.hbm, 238, rfl⟩
abbrev main_v151 : Ref sig .tc := ⟨.hbm, 239, rfl⟩
abbrev main_cst_38 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_cst_39 : Ref sig .tc := ⟨.hbm, 246, rfl⟩
abbrev main_v157 : Ref sig .tc := ⟨.hbm, 247, rfl⟩
abbrev main_v158 : Ref sig .tc := ⟨.hbm, 248, rfl⟩
abbrev main_cst_40 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_cst_41 : Ref sig .tc := ⟨.hbm, 255, rfl⟩
abbrev main_v164 : Ref sig .tc := ⟨.hbm, 256, rfl⟩
abbrev main_v165 : Ref sig .tc := ⟨.hbm, 257, rfl⟩
abbrev main_cst_42 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩

abbrev nD : Nat := 1
abbrev τ : Topo := Topo.v7x

variable {F : FTy → Type} [FloatOps F]

class Facts₀ : Prop where
  bcast_S4096x32x32_S4096x32x32x1_0_1_2 : S4096x32x32.BroadcastsInDim S4096x32x32x1 (![0, 1, 2] : Fin 3 → Fin S4096x32x32x1.rank)
  concatenates_S4096x32x32x1_S4096x32x32x1_S4096x32x32x2_d3 : Shape.Concatenates [S4096x32x32x1, S4096x32x32x1] S4096x32x32x2 3
  shapeCasts_S4096x32x32x2_S4096x2048 : S4096x32x32x2.ShapeCasts S4096x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  shapeCasts_S4096x1024_S4096x32x32 : S4096x1024.ShapeCasts S4096x32x32
  bcast_S_S4096x32x32 : S_.BroadcastsInDim S4096x32x32 (![] : Fin 0 → Fin S4096x32x32.rank)
  reducesTo_S4096x32x32_S4096x32_d1 : S4096x32x32.ReducesTo [1] S4096x32
  h_S_ : 0 < S_.numel
  bcast_S4096x32_S4096x1x32_0_2 : S4096x32.BroadcastsInDim S4096x1x32 (![0, 2] : Fin 2 → Fin S4096x1x32.rank)
  bcast_S_S4096x1x32 : S_.BroadcastsInDim S4096x1x32 (![] : Fin 0 → Fin S4096x1x32.rank)
  bcast_S4096x1x32_S4096x32x32_0_1_2 : S4096x1x32.BroadcastsInDim S4096x32x32 (![0, 1, 2] : Fin 3 → Fin S4096x32x32.rank)
  reducesTo_S4096x32x32_S4096x32_d2 : S4096x32x32.ReducesTo [2] S4096x32
  bcast_S4096x32_S4096x32x1_0_1 : S4096x32.BroadcastsInDim S4096x32x1 (![0, 1] : Fin 2 → Fin S4096x32x1.rank)
  bcast_S_S4096x32x1 : S_.BroadcastsInDim S4096x32x1 (![] : Fin 0 → Fin S4096x32x1.rank)
  bcast_S4096x32x1_S4096x32x32_0_1_2 : S4096x32x1.BroadcastsInDim S4096x32x32 (![0, 1, 2] : Fin 3 → Fin S4096x32x32.rank)
  dot_S4096x2048_S2048x2048_S4096x2048_1_0_0_1_n_n_wf : DotDims.WF S4096x2048 S2048x2048 S4096x2048 [1] [0] [0] [1] [] []
  dot_S4096x2048_S2048x1024_S4096x1024_1_0_0_1_n_n_wf : DotDims.WF S4096x2048 S2048x1024 S4096x1024 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf

class Facts : Prop extends Facts₀ where

variable [Facts]
-- ==== Proof.KRun.lean ====
/-
  The idealized kernel's run with its result named. The program is two pipelined regions joined by host operations:
  stacking and flattening the inputs, the perceptron on blocks of 128 rows, a reshape to [4096, 32, 32], and ten
  Sinkhorn steps on blocks of 128 matrices. Every execution ends with the result buffer at the contents the last
  region's write-backs leave (the fold `W4` of the buffer contents through the four segments), the arguments as launched.
-/
import proofs.«133769_j86741159510411_2_alg».proof.Proof.Gen.KernelIdeal.Frame
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates without a fault; the result buffer then holds the
    contents the second region's write-backs leave, and each argument what it was launched with. -/
theorem run_result : θ_run defs (onTc (τ := τ) (main (F := F))) ⟨m, fun _ => 0, ρ⟩ (fun r => ∀ c : Dev nD,
      r.2.mem ((c.tc : Thread nD τ).loc main_v17) = W4 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v17 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Run

end
-- ==== Proof.Spec.lean ====
/-
  The mathematics both programs compute, on ONE batch row, over the extended reals.

  A row of the stacked input is a vector `x : Fin 2048 → EReal`. Four hidden layers each send a vector `h` to
  `leaky (∑ t, h t * W t j + b j)`; the last layer is affine into 1024 entries followed by softplus, written as the two
  programs write it: `max z 0 + log1p (exp (-|z - 0|))`, with `|y| = max y (-y)`. The 1024 entries are read as a
  32 × 32 matrix (entry `(i, j)` at flat position `32 i + j`), and ten Sinkhorn steps follow: a step divides every entry
  by `max (its column's sum of absolute values) ε` and then every entry of the result by `max (its row's sum of absolute
  values) ε`. The three float words the programs share (zero, the slope, ε) stay as their words: they are the same on
  both sides and are never evaluated.
-/
import Idealize.ShloMosaic.PureOps.Ideal
import Idealize.ShloMosaic.Lib.ValueIdx

noncomputable section

namespace Cert.Spec

open Idealize.ShloMosaic

/-- The zero word, the leaky slope's word and the Sinkhorn floor's word, as extended reals. -/
def zeroW : EReal := Ideal.ofBits .f32 0x00000000#32
def slopeW : EReal := Ideal.ofBits .f32 0x3C23D70A#32
def epsW : EReal := Ideal.ofBits .f32 0x322BCC77#32

/-- `|y|` as both programs read it on the extended reals. -/
def abs' (y : EReal) : EReal := max y (-y)

/-- LeakyReLU: `x` where `0 ≤ x`, else `slope · x`. -/
def leaky (x : EReal) : EReal := Scalar.select (Ideal.cmp .oge x zeroW) x (slopeW * x)

/-- One affine map at output `j`: the row times column `j` of the weights, plus the bias. -/
def affine {n : Nat} (W : Fin 2048 → Fin n → EReal) (b : Fin n → EReal) (h : Fin 2048 → EReal) (j : Fin n) : EReal :=
  (∑ t : Fin 2048, h t * W t j) + b j

/-- One hidden layer on a row. -/
def hidden (W : Fin 2048 → Fin 2048 → EReal) (b : Fin 2048 → EReal) (h : Fin 2048 → EReal) : Fin 2048 → EReal :=
  fun j => leaky (affine W b h j)

/-- Softplus in the programs' stable form. -/
def softplus (z : EReal) : EReal := max z zeroW + Ideal.log1p (Ideal.exp (-(abs' (z - zeroW))))

/-- The five layers' weights and biases as functions of their coordinates. -/
structure Params where
  W1 : Fin 2048 → Fin 2048 → EReal
  b1 : Fin 2048 → EReal
  W2 : Fin 2048 → Fin 2048 → EReal
  b2 : Fin 2048 → EReal
  W3 : Fin 2048 → Fin 2048 → EReal
  b3 : Fin 2048 → EReal
  W4 : Fin 2048 → Fin 2048 → EReal
  b4 : Fin 2048 → EReal
  W5 : Fin 2048 → Fin 1024 → EReal
  b5 : Fin 1024 → EReal

/-- The parameters read off ten arrays: weights [2048, n] at `(t, j)`, biases as vectors at `j`. -/
def paramsOf (W1 : (⟨2, ![2048, 2048]⟩ : Shape).Idx → EReal) (b1 : (⟨1, ![2048]⟩ : Shape).Idx → EReal)
    (W2 : (⟨2, ![2048, 2048]⟩ : Shape).Idx → EReal) (b2 : (⟨1, ![2048]⟩ : Shape).Idx → EReal)
    (W3 : (⟨2, ![2048, 2048]⟩ : Shape).Idx → EReal) (b3 : (⟨1, ![2048]⟩ : Shape).Idx → EReal)
    (W4 : (⟨2, ![2048, 2048]⟩ : Shape).Idx → EReal) (b4 : (⟨1, ![2048]⟩ : Shape).Idx → EReal)
    (W5 : (⟨2, ![2048, 1024]⟩ : Shape).Idx → EReal) (b5 : (⟨1, ![1024]⟩ : Shape).Idx → EReal) : Params where
  W1 := fun t j => W1 (ValueIdx.ix2 t j)
  b1 := fun j => b1 (ValueIdx.ix1 j)
  W2 := fun t j => W2 (ValueIdx.ix2 t j)
  b2 := fun j => b2 (ValueIdx.ix1 j)
  W3 := fun t j => W3 (ValueIdx.ix2 t j)
  b3 := fun j => b3 (ValueIdx.ix1 j)
  W4 := fun t j => W4 (ValueIdx.ix2 t j)
  b4 := fun j => b4 (ValueIdx.ix1 j)
  W5 := fun t j => W5 (ValueIdx.ix2 t j)
  b5 := fun j => b5 (ValueIdx.ix1 j)

/-- The same with each bias held as a one-row matrix [1, n], read at `(0, j)`. -/
def paramsOfRows (W1 : (⟨2, ![2048, 2048]⟩ : Shape).Idx → EReal) (b1 : (⟨2, ![1, 2048]⟩ : Shape).Idx → EReal)
    (W2 : (⟨2, ![2048, 2048]⟩ : Shape).Idx → EReal) (b2 : (⟨2, ![1, 2048]⟩ : Shape).Idx → EReal)
    (W3 : (⟨2, ![2048, 2048]⟩ : Shape).Idx → EReal) (b3 : (⟨2, ![1, 2048]⟩ : Shape).Idx → EReal)
    (W4 : (⟨2, ![2048, 2048]⟩ : Shape).Idx → EReal) (b4 : (⟨2, ![1, 2048]⟩ : Shape).Idx → EReal)
    (W5 : (⟨2, ![2048, 1024]⟩ : Shape).Idx → EReal) (b5 : (⟨2, ![1, 1024]⟩ : Shape).Idx → EReal) : Params where
  W1 := fun t j => W1 (ValueIdx.ix2 t j)
  b1 := fun j => b1 (ValueIdx.ix2 (0 : Fin 1) j)
  W2 := fun t j => W2 (ValueIdx.ix2 t j)
  b2 := fun j => b2 (ValueIdx.ix2 (0 : Fin 1) j)
  W3 := fun t j => W3 (ValueIdx.ix2 t j)
  b3 := fun j => b3 (ValueIdx.ix2 (0 : Fin 1) j)
  W4 := fun t j => W4 (ValueIdx.ix2 t j)
  b4 := fun j => b4 (ValueIdx.ix2 (0 : Fin 1) j)
  W5 := fun t j => W5 (ValueIdx.ix2 t j)
  b5 := fun j => b5 (ValueIdx.ix2 (0 : Fin 1) j)

/-- The fourth hidden layer's output on a row. -/
def hid4 (P : Params) (x : Fin 2048 → EReal) : Fin 2048 → EReal :=
  hidden P.W4 P.b4 (hidden P.W3 P.b3 (hidden P.W2 P.b2 (hidden P.W1 P.b1 x)))

/-- The last layer before softplus. -/
def preRow (P : Params) (x : Fin 2048 → EReal) (j : Fin 1024) : EReal := affine P.W5 P.b5 (hid4 P x) j

/-- The whole perceptron on a row. -/
def mlpRow (P : Params) (x : Fin 2048 → EReal) (j : Fin 1024) : EReal := softplus (preRow P x j)

/-- A 32 × 32 matrix. -/
abbrev Mat := Fin 32 → Fin 32 → EReal

/-- Divide each entry by `max (∑ over its column of |·|) ε`. -/
def colNorm (M : Mat) : Mat := fun i j => Ideal.div (M i j) (max (∑ i' : Fin 32, abs' (M i' j)) epsW)

/-- Divide each entry by `max (∑ over its row of |·|) ε`. -/
def rowNorm (M : Mat) : Mat := fun i j => Ideal.div (M i j) (max (∑ j' : Fin 32, abs' (M i j')) epsW)

/-- One Sinkhorn step: columns, then rows. -/
def sinkStep (M : Mat) : Mat := rowNorm (colNorm M)

/-- Ten steps. -/
def sink (M : Mat) : Mat := sinkStep^[10] M

/-- Flat position of matrix entry `(i, j)`. -/
def flat (i j : Fin 32) : Fin 1024 := ⟨32 * i.val + j.val, by omega⟩

/-- The result at batch row `B`, entry `(i, j)`, from the stacked input's rows `X`. -/
def G (P : Params) (X : Fin 4096 → Fin 2048 → EReal) (B : Fin 4096) (i j : Fin 32) : EReal :=
  sink (fun i j => mlpRow P (X B) (flat i j)) i j

end Cert.Spec

end
-- ==== Proof.KArr.lean ====
/-
  From blocks to whole arrays, for both regions of the idealized kernel, at the extended reals.

  Region 1 (ten Sinkhorn steps): block `t` of the [4096, 32, 32] array is the matrices `128 t … 128 t + 127`, and a
  matrix's steps read only that matrix, so every block is the restriction of ONE function of the whole array,
  `sinkAll`. Region 0 (the perceptron): block `t` of the [4096, 1024] output is rows `128 t … 128 t + 127`, a row of the
  output reads only the same row of the input and the whole weight arrays, so every block is the restriction of
  `mlpAll`. In both regions the blocks tile the array: row `r` lies in block `r / 128`.
-/
import proofs.«133769_j86741159510411_2_alg».proof.Proof.Gen.KernelIdeal.Frame
import proofs.«133769_j86741159510411_2_alg».proof.Proof.Spec
import Idealize.ShloMosaic.Lib.Pipeline.Value
import Idealize.ShloMosaic.Lib.ValueIdx
import Idealize.ShloMosaic.PureOps.Ideal

set_option maxRecDepth 16384

noncomputable section

namespace Cert.KernelIdeal.Arr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Region 1 -/

/-- Ten Sinkhorn steps applied to every matrix of a [4096, 32, 32] array. -/
def sinkAll (R : S4096x32x32.Idx → EReal) : S4096x32x32.Idx → EReal :=
  fun idx => Cert.Spec.sink (fun i j => R (ix3 (idx 0 : Fin 4096) i j)) (idx 1 : Fin 32) (idx 2 : Fin 32)

/-- The printed index maps over the grid: both windows of region 1 sit at block `(t, 0, 0)`. -/
theorem idx_facts1 : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

/-- Row `128 t + b` of the batch axis. -/
def rowOf (t : Fin cfg1.N) (b : Fin 128) : Fin 4096 := ⟨128 * t.val + b.val, by have h := t.isLt; have h32 : cfg1.N = 32 := N_1; have := b.isLt; omega⟩

/-- Entry `(b, i, j)` of either window's block at point `t` sits at `(128 t + b, i, j)` of its array. -/
theorem emb1_in (t : Fin cfg1.N) (b : Fin 128) (i j : Fin 32) :
    ((cfg1.win 0).blk t).view.emb (ix3 b i j) = ix3 (rowOf t b) i j := by
  obtain ⟨e0, e1, e2, -, -, -⟩ := idx_facts1 t
  funext a; apply Fin.ext
  match a with
  | ⟨0, _⟩ => show win1_0.index t (0 : Fin 3) * 128 + 1 * b.val = 128 * t.val + b.val; omega
  | ⟨1, _⟩ => show win1_0.index t (1 : Fin 3) * 32 + 1 * i.val = i.val; omega
  | ⟨2, _⟩ => show win1_0.index t (2 : Fin 3) * 32 + 1 * j.val = j.val; omega

theorem emb1_out (t : Fin cfg1.N) (b : Fin 128) (i j : Fin 32) :
    ((cfg1.win 1).blk t).view.emb (ix3 b i j) = ix3 (rowOf t b) i j := by
  obtain ⟨-, -, -, e0, e1, e2⟩ := idx_facts1 t
  funext a; apply Fin.ext
  match a with
  | ⟨0, _⟩ => show win1_1.index t (0 : Fin 3) * 128 + 1 * b.val = 128 * t.val + b.val; omega
  | ⟨1, _⟩ => show win1_1.index t (1 : Fin 3) * 32 + 1 * i.val = i.val; omega
  | ⟨2, _⟩ => show win1_1.index t (2 : Fin 3) * 32 + 1 * j.val = j.val; omega

/-- What the Sinkhorn body leaves at an index of its output block: ten steps on that index's matrix. -/
def Body1 : Prop := ∀ (x0 : Vec Ideal S128x32x32 .f32) (b : Fin 128) (i j : Fin 32),
    out1_1 (F := Ideal) x0 (ix3 b i j) = Cert.Spec.sink (fun i j => x0 (ix3 b i j)) i j

/-- WHAT POINT `t` WRITES BACK is block `t` of `sinkAll` of the input array as the region finds it. -/
theorem flushed1_eq (hb : Body1) (c : Dev nD) (t : Fin cfg1.N) :
    (dat1 V c).flushed 1 t = ((cfg1.win 1).blk t).view.read (Elt Ideal) (sinkAll (V c main_v16)) := by
  show (cfg1.win 1).cut (grid1.coords t) ((dat1 V c).after 1 t) = _
  rw [after1_1]
  funext y
  obtain ⟨b, i, j, rfl⟩ : ∃ (b : Fin 128) (i j : Fin 32), y = ix3 b i j := ⟨y 0, y 1, y 2, eq_ix3 y⟩
  show out1_1 (iblk1 V c 0 t) (ix3 b i j) = sinkAll (V c main_v16) (((cfg1.win 1).blk t).view.emb (ix3 b i j))
  rw [hb, emb1_out]
  show _ = Cert.Spec.sink (fun i' j' => V c main_v16 (ix3 (rowOf t b) i' j')) i j
  refine congrArg (fun M => Cert.Spec.sink M i j) ?_
  funext i' j'
  show V c main_v16 (((cfg1.win 0).blk t).view.emb (ix3 b i' j')) = _
  rw [emb1_in]

/-- An index of the array is in point `t`'s block iff each coordinate is in the block's range on its axis. -/
theorem mem_blk1 (t : Fin cfg1.N) (idx : S4096x32x32.Idx) :
    idx ∈ ((cfg1.win 1).blk t).view.set ↔ ∀ a : Fin 3, win1_1.index t a * S128x32x32.size a ≤ (idx a).val ∧ (idx a).val < win1_1.index t a * S128x32x32.size a + S128x32x32.size a := by
  show idx ∈ ((View.whole main_v17).slice (win1_1.rect t)).set ↔ _
  rw [View.set_slice_whole, Rect.mem_set_unit]
  exact Iff.rfl

/-- The output's blocks tile the array: matrix `B` lies in block `B / 128`. -/
theorem cover1 (idx : S4096x32x32.Idx) :
    ∃ t : Fin cfg1.N, (cfg1.win 1).flush t = true ∧ idx ∈ ((cfg1.win 1).blk t).view.set := by
  have h32 : cfg1.N = 32 := N_1
  have h0 : (idx 0).val < 4096 := (idx 0).isLt
  have h1 : (idx 1).val < 32 := (idx 1).isLt
  have h2 : (idx 2).val < 32 := (idx 2).isLt
  refine ⟨⟨(idx 0).val / 128, by omega⟩, flush1_1 _, ?_⟩
  rw [mem_blk1]
  obtain ⟨-, -, -, e0, e1, e2⟩ := idx_facts1 ⟨(idx 0).val / 128, by omega⟩
  intro a
  match a with
  | ⟨0, _⟩ => show win1_1.index _ (0 : Fin 3) * 128 ≤ (idx 0).val ∧ (idx 0).val < win1_1.index _ (0 : Fin 3) * 128 + 128; rw [e0]; show (idx 0).val / 128 * 128 ≤ _ ∧ _ < (idx 0).val / 128 * 128 + 128; omega
  | ⟨1, _⟩ => show win1_1.index _ (1 : Fin 3) * 32 ≤ (idx 1).val ∧ (idx 1).val < win1_1.index _ (1 : Fin 3) * 32 + 32; rw [e1]; omega
  | ⟨2, _⟩ => show win1_1.index _ (2 : Fin 3) * 32 ≤ (idx 2).val ∧ (idx 2).val < win1_1.index _ (2 : Fin 3) * 32 + 32; rw [e2]; omega

/-- THE ARRAY region 1 leaves: ten Sinkhorn steps on every matrix of the array it was entered with. -/
theorem final1 (hb : Body1) (c : Dev nD) : (dat1 V c).arrAt 1 cfg1.N = sinkAll (V c main_v16) :=
  (dat1 V c).arrAt_eq_of_cover 1 (sinkAll (V c main_v16)) (fun t _ => flushed1_eq V hb c t) cover1

/-! ## Region 0 -/

/-- The perceptron applied to every row of a [4096, 2048] array. -/
def mlpAll (P : Cert.Spec.Params) (X : S4096x2048.Idx → EReal) : S4096x1024.Idx → EReal :=
  fun idx => Cert.Spec.mlpRow P (fun k => X (ix2 (idx 0 : Fin 4096) k)) (idx 1 : Fin 1024)

/-- The printed index maps over the grid: the input and output windows sit at block `(t, 0)`. -/
theorem idx_facts0 : ∀ t : Fin cfg0.N, win0_0.index t (0 : Fin 2) = t.val ∧ win0_0.index t (1 : Fin 2) = 0
    ∧ win0_11.index t (0 : Fin 2) = t.val ∧ win0_11.index t (1 : Fin 2) = 0 :=
  (by decide +kernel : ∀ t : Fin grid0.N, _)

/-! Each weight or bias window's block is its whole array at every point: its index map is constantly `(0, 0)`. -/

theorem idx0_1 : ∀ t : Fin cfg0.N, win0_1.index t (0 : Fin 2) = 0 ∧ win0_1.index t (1 : Fin 2) = 0 :=
  (by decide +kernel : ∀ t : Fin grid0.N, _)

theorem blk0_1 (c : Dev nD) (t : Fin cfg0.N) : iblk0 V c 1 t = V c main_v5 := by
  funext y
  show V c main_v5 (((cfg0.win 1).blk t).view.emb y) = V c main_v5 y
  refine congrArg _ ?_
  obtain ⟨e0, e1⟩ := idx0_1 t
  funext a; apply Fin.ext
  match a with
  | ⟨0, _⟩ => show win0_1.index t (0 : Fin 2) * 2048 + 1 * (y 0).val = (y 0).val; omega
  | ⟨1, _⟩ => show win0_1.index t (1 : Fin 2) * 2048 + 1 * (y 1).val = (y 1).val; omega

theorem idx0_2 : ∀ t : Fin cfg0.N, win0_2.index t (0 : Fin 2) = 0 ∧ win0_2.index t (1 : Fin 2) = 0 :=
  (by decide +kernel : ∀ t : Fin grid0.N, _)

theorem blk0_2 (c : Dev nD) (t : Fin cfg0.N) : iblk0 V c 2 t = V c main_v10 := by
  funext y
  show V c main_v10 (((cfg0.win 2).blk t).view.emb y) = V c main_v10 y
  refine congrArg _ ?_
  obtain ⟨e0, e1⟩ := idx0_2 t
  funext a; apply Fin.ext
  match a with
  | ⟨0, _⟩ => show win0_2.index t (0 : Fin 2) * 1 + 1 * (y 0).val = (y 0).val; omega
  | ⟨1, _⟩ => show win0_2.index t (1 : Fin 2) * 2048 + 1 * (y 1).val = (y 1).val; omega

theorem idx0_3 : ∀ t : Fin cfg0.N, win0_3.index t (0 : Fin 2) = 0 ∧ win0_3.index t (1 : Fin 2) = 0 :=
  (by decide +kernel : ∀ t : Fin grid0.N, _)

theorem blk0_3 (c : Dev nD) (t : Fin cfg0.N) : iblk0 V c 3 t = V c main_v6 := by
  funext y
  show V c main_v6 (((cfg0.win 3).blk t).view.emb y) = V c main_v6 y
  refine congrArg _ ?_
  obtain ⟨e0, e1⟩ := idx0_3 t
  funext a; apply Fin.ext
  match a with
  | ⟨0, _⟩ => show win0_3.index t (0 : Fin 2) * 2048 + 1 * (y 0).val = (y 0).val; omega
  | ⟨1, _⟩ => show win0_3.index t (1 : Fin 2) * 2048 + 1 * (y 1).val = (y 1).val; omega

theorem idx0_4 : ∀ t : Fin cfg0.N, win0_4.index t (0 : Fin 2) = 0 ∧ win0_4.index t (1 : Fin 2) = 0 :=
  (by decide +kernel : ∀ t : Fin grid0.N, _)

theorem blk0_4 (c : Dev nD) (t : Fin cfg0.N) : iblk0 V c 4 t = V c main_v11 := by
  funext y
  show V c main_v11 (((cfg0.win 4).blk t).view.emb y) = V c main_v11 y
  refine congrArg _ ?_
  obtain ⟨e0, e1⟩ := idx0_4 t
  funext a; apply Fin.ext
  match a with
  | ⟨0, _⟩ => show win0_4.index t (0 : Fin 2) * 1 + 1 * (y 0).val = (y 0).val; omega
  | ⟨1, _⟩ => show win0_4.index t (1 : Fin 2) * 2048 + 1 * (y 1).val = (y 1).val; omega

theorem idx0_5 : ∀ t : Fin cfg0.N, win0_5.index t (0 : Fin 2) = 0 ∧ win0_5.index t (1 : Fin 2) = 0 :=
  (by decide +kernel : ∀ t : Fin grid0.N, _)

theorem blk0_5 (c : Dev nD) (t : Fin cfg0.N) : iblk0 V c 5 t = V c main_v7 := by
  funext y
  show V c main_v7 (((cfg0.win 5).blk t).view.emb y) = V c main_v7 y
  refine congrArg _ ?_
  obtain ⟨e0, e1⟩ := idx0_5 t
  funext a; apply Fin.ext
  match a with
  | ⟨0, _⟩ => show win0_5.index t (0 : Fin 2) * 2048 + 1 * (y 0).val = (y 0).val; omega
  | ⟨1, _⟩ => show win0_5.index t (1 : Fin 2) * 2048 + 1 * (y 1).val = (y 1).val; omega

theorem idx0_6 : ∀ t : Fin cfg0.N, win0_6.index t (0 : Fin 2) = 0 ∧ win0_6.index t (1 : Fin 2) = 0 :=
  (by decide +kernel : ∀ t : Fin grid0.N, _)

theorem blk0_6 (c : Dev nD) (t : Fin cfg0.N) : iblk0 V c 6 t = V c main_v12 := by
  funext y
  show V c main_v12 (((cfg0.win 6).blk t).view.emb y) = V c main_v12 y
  refine congrArg _ ?_
  obtain ⟨e0, e1⟩ := idx0_6 t
  funext a; apply Fin.ext
  match a with
  | ⟨0, _⟩ => show win0_6.index t (0 : Fin 2) * 1 + 1 * (y 0).val = (y 0).val; omega
  | ⟨1, _⟩ => show win0_6.index t (1 : Fin 2) * 2048 + 1 * (y 1).val = (y 1).val; omega

theorem idx0_7 : ∀ t : Fin cfg0.N, win0_7.index t (0 : Fin 2) = 0 ∧ win0_7.index t (1 : Fin 2) = 0 :=
  (by decide +kernel : ∀ t : Fin grid0.N, _)

theorem blk0_7 (c : Dev nD) (t : Fin cfg0.N) : iblk0 V c 7 t = V c main_v8 := by
  funext y
  show V c main_v8 (((cfg0.win 7).blk t).view.emb y) = V c main_v8 y
  refine congrArg _ ?_
  obtain ⟨e0, e1⟩ := idx0_7 t
  funext a; apply Fin.ext
  match a with
  | ⟨0, _⟩ => show win0_7.index t (0 : Fin 2) * 2048 + 1 * (y 0).val = (y 0).val; omega
  | ⟨1, _⟩ => show win0_7.index t (1 : Fin 2) * 2048 + 1 * (y 1).val = (y 1).val; omega

theorem idx0_8 : ∀ t : Fin cfg0.N, win0_8.index t (0 : Fin 2) = 0 ∧ win0_8.index t (1 : Fin 2) = 0 :=
  (by decide +kernel : ∀ t : Fin grid0.N, _)

theorem blk0_8 (c : Dev nD) (t : Fin cfg0.N) : iblk0 V c 8 t = V c main_v13 := by
  funext y
  show V c main_v13 (((cfg0.win 8).blk t).view.emb y) = V c main_v13 y
  refine congrArg _ ?_
  obtain ⟨e0, e1⟩ := idx0_8 t
  funext a; apply Fin.ext
  match a with
  | ⟨0, _⟩ => show win0_8.index t (0 : Fin 2) * 1 + 1 * (y 0).val = (y 0).val; omega
  | ⟨1, _⟩ => show win0_8.index t (1 : Fin 2) * 2048 + 1 * (y 1).val = (y 1).val; omega

theorem idx0_9 : ∀ t : Fin cfg0.N, win0_9.index t (0 : Fin 2) = 0 ∧ win0_9.index t (1 : Fin 2) = 0 :=
  (by decide +kernel : ∀ t : Fin grid0.N, _)

theorem blk0_9 (c : Dev nD) (t : Fin cfg0.N) : iblk0 V c 9 t = V c main_v9 := by
  funext y
  show V c main_v9 (((cfg0.win 9).blk t).view.emb y) = V c main_v9 y
  refine congrArg _ ?_
  obtain ⟨e0, e1⟩ := idx0_9 t
  funext a; apply Fin.ext
  match a with
  | ⟨0, _⟩ => show win0_9.index t (0 : Fin 2) * 2048 + 1 * (y 0).val = (y 0).val; omega
  | ⟨1, _⟩ => show win0_9.index t (1 : Fin 2) * 1024 + 1 * (y 1).val = (y 1).val; omega

theorem idx0_10 : ∀ t : Fin cfg0.N, win0_10.index t (0 : Fin 2) = 0 ∧ win0_10.index t (1 : Fin 2) = 0 :=
  (by decide +kernel : ∀ t : Fin grid0.N, _)

theorem blk0_10 (c : Dev nD) (t : Fin cfg0.N) : iblk0 V c 10 t = V c main_v14 := by
  funext y
  show V c main_v14 (((cfg0.win 10).blk t).view.emb y) = V c main_v14 y
  refine congrArg _ ?_
  obtain ⟨e0, e1⟩ := idx0_10 t
  funext a; apply Fin.ext
  match a with
  | ⟨0, _⟩ => show win0_10.index t (0 : Fin 2) * 1 + 1 * (y 0).val = (y 0).val; omega
  | ⟨1, _⟩ => show win0_10.index t (1 : Fin 2) * 1024 + 1 * (y 1).val = (y 1).val; omega

/-- Row `128 t + r`. -/
def rowOf0 (t : Fin cfg0.N) (r : Fin 128) : Fin 4096 := ⟨128 * t.val + r.val, by have h := t.isLt; have h32 : cfg0.N = 32 := N_0; have := r.isLt; omega⟩

theorem emb0_in (t : Fin cfg0.N) (r : Fin 128) (k : Fin 2048) :
    ((cfg0.win 0).blk t).view.emb (ix2 r k) = ix2 (rowOf0 t r) k := by
  obtain ⟨e0, e1, -, -⟩ := idx_facts0 t
  funext a; apply Fin.ext
  match a with
  | ⟨0, _⟩ => show win0_0.index t (0 : Fin 2) * 128 + 1 * r.val = 128 * t.val + r.val; omega
  | ⟨1, _⟩ => show win0_0.index t (1 : Fin 2) * 2048 + 1 * k.val = k.val; omega

theorem emb0_out (t : Fin cfg0.N) (r : Fin 128) (j : Fin 1024) :
    ((cfg0.win 11).blk t).view.emb (ix2 r j) = ix2 (rowOf0 t r) j := by
  obtain ⟨-, -, e0, e1⟩ := idx_facts0 t
  funext a; apply Fin.ext
  match a with
  | ⟨0, _⟩ => show win0_11.index t (0 : Fin 2) * 128 + 1 * r.val = 128 * t.val + r.val; omega
  | ⟨1, _⟩ => show win0_11.index t (1 : Fin 2) * 1024 + 1 * j.val = j.val; omega

/-- What the perceptron body leaves at an index of its output block: the five layers on that index's row. -/
def Body0 : Prop := ∀ (x0 : Vec Ideal S128x2048 .bf16) (x1 : Vec Ideal S2048x2048 .bf16) (x2 : Vec Ideal S1x2048 .f32) (x3 : Vec Ideal S2048x2048 .bf16) (x4 : Vec Ideal S1x2048 .f32) (x5 : Vec Ideal S2048x2048 .bf16) (x6 : Vec Ideal S1x2048 .f32) (x7 : Vec Ideal S2048x2048 .bf16) (x8 : Vec Ideal S1x2048 .f32) (x9 : Vec Ideal S2048x1024 .bf16) (x10 : Vec Ideal S1x1024 .f32) (r : Fin 128) (j : Fin 1024),
    out0_11 (F := Ideal) x0 x1 x2 x3 x4 x5 x6 x7 x8 x9 x10 (ix2 r j)
      = Cert.Spec.mlpRow (Cert.Spec.paramsOfRows x1 x2 x3 x4 x5 x6 x7 x8 x9 x10) (fun k => x0 (ix2 r k)) j

/-- The layers' parameters as region 0 finds them: the weight arrays, and the biases as one-row matrices. -/
abbrev kParams (c : Dev nD) : Cert.Spec.Params := (Cert.Spec.paramsOfRows (V c main_v5) (V c main_v10) (V c main_v6) (V c main_v11) (V c main_v7) (V c main_v12) (V c main_v8) (V c main_v13) (V c main_v9) (V c main_v14))

/-- WHAT POINT `t` WRITES BACK is block `t` of `mlpAll` of the arrays as the region finds them. -/
theorem flushed0_eq (hb : Body0) (c : Dev nD) (t : Fin cfg0.N) :
    (dat0 V c).flushed 11 t = ((cfg0.win 11).blk t).view.read (Elt Ideal) (mlpAll (kParams V c) (V c main_v4)) := by
  show (cfg0.win 11).cut (grid0.coords t) ((dat0 V c).after 11 t) = _
  rw [after0_11]
  funext y
  obtain ⟨r, j, rfl⟩ : ∃ (r : Fin 128) (j : Fin 1024), y = ix2 r j := ⟨y 0, y 1, eq_ix2 y⟩
  show out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 r j)
    = mlpAll (kParams V c) (V c main_v4) (((cfg0.win 11).blk t).view.emb (ix2 r j))
  rw [hb, emb0_out, blk0_1, blk0_2, blk0_3, blk0_4, blk0_5, blk0_6, blk0_7, blk0_8, blk0_9, blk0_10]
  show _ = Cert.Spec.mlpRow (kParams V c) (fun k => V c main_v4 (ix2 (rowOf0 t r) k)) j
  refine congrArg (fun x => Cert.Spec.mlpRow (kParams V c) x j) ?_
  funext k
  show V c main_v4 (((cfg0.win 0).blk t).view.emb (ix2 r k)) = _
  rw [emb0_in]

theorem mem_blk0 (t : Fin cfg0.N) (idx : S4096x1024.Idx) :
    idx ∈ ((cfg0.win 11).blk t).view.set ↔ ∀ a : Fin 2, win0_11.index t a * S128x1024.size a ≤ (idx a).val ∧ (idx a).val < win0_11.index t a * S128x1024.size a + S128x1024.size a := by
  show idx ∈ ((View.whole main_v15).slice (win0_11.rect t)).set ↔ _
  rw [View.set_slice_whole, Rect.mem_set_unit]
  exact Iff.rfl

/-- The output's blocks tile the array: row `B` lies in block `B / 128`. -/
theorem cover0 (idx : S4096x1024.Idx) :
    ∃ t : Fin cfg0.N, (cfg0.win 11).flush t = true ∧ idx ∈ ((cfg0.win 11).blk t).view.set := by
  have h32 : cfg0.N = 32 := N_0
  have h0 : (idx 0).val < 4096 := (idx 0).isLt
  have h1 : (idx 1).val < 1024 := (idx 1).isLt
  refine ⟨⟨(idx 0).val / 128, by omega⟩, flush0_11 _, ?_⟩
  rw [mem_blk0]
  obtain ⟨-, -, e0, e1⟩ := idx_facts0 ⟨(idx 0).val / 128, by omega⟩
  intro a
  match a with
  | ⟨0, _⟩ => show win0_11.index _ (0 : Fin 2) * 128 ≤ (idx 0).val ∧ (idx 0).val < win0_11.index _ (0 : Fin 2) * 128 + 128; rw [e0]; show (idx 0).val / 128 * 128 ≤ _ ∧ _ < (idx 0).val / 128 * 128 + 128; omega
  | ⟨1, _⟩ => show win0_11.index _ (1 : Fin 2) * 1024 ≤ (idx 1).val ∧ (idx 1).val < win0_11.index _ (1 : Fin 2) * 1024 + 1024; rw [e1]; omega

/-- THE ARRAY region 0 leaves: the perceptron on every row of the input array it was entered with. -/
theorem final0 (hb : Body0) (c : Dev nD) : (dat0 V c).arrAt 11 cfg0.N = mlpAll (kParams V c) (V c main_v4) :=
  (dat0 V c).arrAt_eq_of_cover 11 (mlpAll (kParams V c) (V c main_v4)) (fun t _ => flushed0_eq V hb c t) cover0

end Cert.KernelIdeal.Arr

end
-- ==== Proof.KVal.lean ====
/-
  The idealized kernel's result as one function of its arguments. The buffers region 0 is entered with are the host
  operations' values of the arguments (the stacked input; each weight array under a change of float format, which is
  the identity on the extended reals; each bias as a one-row matrix); region 0 leaves the perceptron of every row;
  the reshape to [4096, 32, 32] reads row `B`'s entry `32 i + j` at `(B, i, j)`; region 1 leaves ten Sinkhorn steps on
  every matrix. Chained, the result at `(B, i, j)` is the specification's `G`.
-/
import proofs.«133769_j86741159510411_2_alg».proof.Proof.KArr
import Idealize.ShloMosaic.Lib.StableHlo.Run

set_option maxRecDepth 16384

noncomputable section

namespace Cert.KernelIdeal.Val

open Cert.KernelIdeal Cert.KernelIdeal.Gen Cert.KernelIdeal.Arr
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The stacked input as the kernel's host operations build it: `p` and `q` side by side on a new last axis, flattened
    to rows of 2048, under a change of float format. -/
def xK (p q : FVec Ideal S4096x32x32 .f32) : FVec Ideal S4096x2048 .bf16 :=
  truncf .bf16 (shapeCast S4096x2048
    (concatenate S4096x32x32x2 3
      [⟨S4096x32x32x1, broadcastInDim S4096x32x32x1 ![0, 1, 2] bcast_S4096x32x32_S4096x32x32x1_0_1_2 p⟩,
       ⟨S4096x32x32x1, broadcastInDim S4096x32x32x1 ![0, 1, 2] bcast_S4096x32x32_S4096x32x32x1_0_1_2 q⟩]
      concatenates_S4096x32x32x1_S4096x32x32x1_S4096x32x32x2_d3)
    shapeCasts_S4096x32x32x2_S4096x2048) bitsLt_bf16_f32

/-! ## The buffers region 0 is entered with -/

theorem V1_main_v4 (c : Dev nD) : V1 m ρ c main_v4 = xK (m ((c : Thread nD τ).loc main_arg0)) (m ((c : Thread nD τ).loc main_arg1)) := by
  show StableHlo.after hostOps0 (W0 m ρ c) (Proc.devRef .tc main_v4) = _
  after_results
  rfl

theorem V1_main_v5 (c : Dev nD) : V1 m ρ c main_v5 = (truncf .bf16 (m ((c : Thread nD τ).loc main_arg2)) bitsLt_bf16_f32 : FVec Ideal S2048x2048 .bf16) := by
  show StableHlo.after hostOps0 (W0 m ρ c) (Proc.devRef .tc main_v5) = _
  after_results

theorem V1_main_v6 (c : Dev nD) : V1 m ρ c main_v6 = (truncf .bf16 (m ((c : Thread nD τ).loc main_arg4)) bitsLt_bf16_f32 : FVec Ideal S2048x2048 .bf16) := by
  show StableHlo.after hostOps0 (W0 m ρ c) (Proc.devRef .tc main_v6) = _
  after_results

theorem V1_main_v7 (c : Dev nD) : V1 m ρ c main_v7 = (truncf .bf16 (m ((c : Thread nD τ).loc main_arg6)) bitsLt_bf16_f32 : FVec Ideal S2048x2048 .bf16) := by
  show StableHlo.after hostOps0 (W0 m ρ c) (Proc.devRef .tc main_v7) = _
  after_results

theorem V1_main_v8 (c : Dev nD) : V1 m ρ c main_v8 = (truncf .bf16 (m ((c : Thread nD τ).loc main_arg8)) bitsLt_bf16_f32 : FVec Ideal S2048x2048 .bf16) := by
  show StableHlo.after hostOps0 (W0 m ρ c) (Proc.devRef .tc main_v8) = _
  after_results

theorem V1_main_v9 (c : Dev nD) : V1 m ρ c main_v9 = (truncf .bf16 (m ((c : Thread nD τ).loc main_arg10)) bitsLt_bf16_f32 : FVec Ideal S2048x1024 .bf16) := by
  show StableHlo.after hostOps0 (W0 m ρ c) (Proc.devRef .tc main_v9) = _
  after_results

theorem V1_main_v10 (c : Dev nD) : V1 m ρ c main_v10 = (shapeCast S1x2048 (m ((c : Thread nD τ).loc main_arg3)) shapeCasts_S2048_S1x2048 : FVec Ideal S1x2048 .f32) := by
  show StableHlo.after hostOps0 (W0 m ρ c) (Proc.devRef .tc main_v10) = _
  after_results
  rfl

theorem V1_main_v11 (c : Dev nD) : V1 m ρ c main_v11 = (shapeCast S1x2048 (m ((c : Thread nD τ).loc main_arg5)) shapeCasts_S2048_S1x2048 : FVec Ideal S1x2048 .f32) := by
  show StableHlo.after hostOps0 (W0 m ρ c) (Proc.devRef .tc main_v11) = _
  after_results
  rfl

theorem V1_main_v12 (c : Dev nD) : V1 m ρ c main_v12 = (shapeCast S1x2048 (m ((c : Thread nD τ).loc main_arg7)) shapeCasts_S2048_S1x2048 : FVec Ideal S1x2048 .f32) := by
  show StableHlo.after hostOps0 (W0 m ρ c) (Proc.devRef .tc main_v12) = _
  after_results
  rfl

theorem V1_main_v13 (c : Dev nD) : V1 m ρ c main_v13 = (shapeCast S1x2048 (m ((c : Thread nD τ).loc main_arg9)) shapeCasts_S2048_S1x2048 : FVec Ideal S1x2048 .f32) := by
  show StableHlo.after hostOps0 (W0 m ρ c) (Proc.devRef .tc main_v13) = _
  after_results
  rfl

theorem V1_main_v14 (c : Dev nD) : V1 m ρ c main_v14 = (shapeCast S1x1024 (m ((c : Thread nD τ).loc main_arg11)) shapeCasts_S1024_S1x1024 : FVec Ideal S1x1024 .f32) := by
  show StableHlo.after hostOps0 (W0 m ρ c) (Proc.devRef .tc main_v14) = _
  after_results
  rfl

/-- A vector viewed as a one-row matrix, read at `(0, j)`. -/
theorem row_apply {n : Nat} (b : (⟨1, ![n]⟩ : Shape).Idx → EReal) (h : (⟨1, ![n]⟩ : Shape).ShapeCasts ⟨2, ![1, n]⟩) (j : Fin n) :
    shapeCast (⟨2, ![1, n]⟩ : Shape) b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The parameters region 0 finds are the arguments': a weight under a change of format is the weight, a bias's row
    `(0, j)` is the bias at `j`. -/
theorem kParams_eq (c : Dev nD) : kParams (V1 m ρ) c = Cert.Spec.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show Cert.Spec.paramsOfRows (V1 m ρ c main_v5) (V1 m ρ c main_v10) (V1 m ρ c main_v6) (V1 m ρ c main_v11) (V1 m ρ c main_v7) (V1 m ρ c main_v12) (V1 m ρ c main_v8) (V1 m ρ c main_v13) (V1 m ρ c main_v9) (V1 m ρ c main_v14) = _
  rw [V1_main_v5, V1_main_v10, V1_main_v6, V1_main_v11, V1_main_v7, V1_main_v12, V1_main_v8, V1_main_v13, V1_main_v9, V1_main_v14]
  unfold Cert.Spec.paramsOfRows Cert.Spec.paramsOf
  congr 1 <;> funext j <;> exact row_apply _ _ j

/-! ## The result -/

/-- The specification's function on whole arrays: `G` at every index of the [4096, 32, 32] result. -/
def gAll (P : Cert.Spec.Params) (X : S4096x2048.Idx → EReal) : S4096x32x32.Idx → EReal :=
  fun idx => Cert.Spec.G P (fun B k => X (ix2 B k)) (idx 0 : Fin 4096) (idx 1 : Fin 32) (idx 2 : Fin 32)

/-- THE RESULT BUFFER after the run: the specification's function of the argument arrays. -/
theorem result_eq (hb0 : Body0) (hb1 : Body1) (c : Dev nD) :
    W4 m ρ c (Proc.devRef .tc main_v17)
      = gAll (Cert.Spec.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (xK (m ((c : Thread nD τ).loc main_arg0)) (m ((c : Thread nD τ).loc main_arg1))) := by
  have h1 : W4 m ρ c (Proc.devRef .tc main_v17) = sinkAll (V3 m ρ c main_v16) :=
    (W4_arr m ρ c 1).trans (final1 (V3 m ρ) hb1 c)
  have h2 : V3 m ρ c main_v16 = shapeCast S4096x32x32 (W2 m ρ c (Proc.devRef .tc main_v15)) shapeCasts_S4096x1024_S4096x32x32 := by
    show StableHlo.after hostOps1 (W2 m ρ c) (Proc.devRef .tc main_v16) = _
    after_results
    rfl
  have h3 : W2 m ρ c (Proc.devRef .tc main_v15) = mlpAll (kParams (V1 m ρ) c) (V1 m ρ c main_v4) :=
    (W2_arr m ρ c 11).trans (final0 (V1 m ρ) hb0 c)
  rw [h1, h2, h3, kParams_eq, V1_main_v4]
  generalize Cert.Spec.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = P
  generalize xK (m ((c : Thread nD τ).loc main_arg0)) (m ((c : Thread nD τ).loc main_arg1)) = X
  funext idx
  obtain ⟨B, i, j, rfl⟩ : ∃ (B : Fin 4096) (i j : Fin 32), idx = ix3 B i j := ⟨idx 0, idx 1, idx 2, eq_ix3 idx⟩
  show Cert.Spec.sink (fun i' j' => shapeCast S4096x32x32 (mlpAll P X) shapeCasts_S4096x1024_S4096x32x32 (ix3 B i' j')) i j
    = Cert.Spec.sink (fun i' j' => Cert.Spec.mlpRow P (fun k => X (ix2 B k)) (Cert.Spec.flat i' j')) i j
  refine congrArg (fun M => Cert.Spec.sink M i j) ?_
  funext i' j'
  rw [shapeCast_apply (mlpAll P X) shapeCasts_S4096x1024_S4096x32x32 (ix3 B i' j') (ix2 B (Cert.Spec.flat i' j')) (by
    rw [Shape.rowMajor_val_two, Shape.rowMajor_val_three]
    show B.val * 1024 + (32 * i'.val + j'.val) = (B.val * 32 + i'.val) * 32 + j'.val
    omega)]
  rfl

end Cert.KernelIdeal.Val

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.KSink.lean ====
/-
  The second region's body read at an index, over the extended reals.

  The body holds a block of 128 matrices, 32 × 32 each, and applies ten times the same step: divide every entry
  by the larger of its column's sum of absolute values and ε, then every entry of the result by the larger of its
  row's sum of absolute values and ε. The printed payloads cut the sixty operations of the ten steps at places that
  fall inside a step; composed, they are the step iterated ten times on the block. One step read at entry
  (b, i, j) sees only matrix b of the block, and there it is the specification's step on that matrix.
-/
import proofs.«133769_j86741159510411_2_alg».proof.Proof.Spec
import proofs.«133769_j86741159510411_2_alg».proof.Proof.Gen.KernelIdeal.Frame
import proofs.«133769_j86741159510411_2_alg».proof.Proof.LibPlainMatmul

noncomputable section

namespace Cert.KernelIdeal.Body

open Cert.KernelIdeal Idealize.ShloMosaic Idealize.ShloMosaic.ValueIdx
open scoped BigOperators

/-! ## One step on a block -/

/-- Every entry divided by the larger of its column's sum of absolute values and ε, on a whole block. -/
def colV (r : FVec Ideal S128x32x32 .f32) : FVec Ideal S128x32x32 .f32 :=
  divf r (broadcastTo S128x32x32
    (maximumf
      (shapeCast S128x1x32
        (multiReduction .add [1] S128x32 (absf r) 0x00000000#32 Gen.reduces_S128x32x32_S128x32 (.inl rfl) rfl)
        Gen.shapeCasts_S128x32_S128x1x32)
      (broadcast S128x1x32 (Scalar.ofBits .f32 0x322BCC77#32)))
    Gen.broadcasts_S128x1x32_S128x32x32)

/-- Every entry divided by the larger of its row's sum of absolute values and ε, on a whole block. -/
def rowV (r : FVec Ideal S128x32x32 .f32) : FVec Ideal S128x32x32 .f32 :=
  divf r (broadcastTo S128x32x32
    (maximumf
      (shapeCast S128x32x1
        (multiReduction .add [2] S128x32 (absf r) 0x00000000#32 Gen.reduces_S128x32x32_S128x32_2 (.inl rfl) rfl)
        Gen.shapeCasts_S128x32_S128x32x1)
      (broadcast S128x32x1 (Scalar.ofBits .f32 0x322BCC77#32)))
    Gen.broadcasts_S128x32x1_S128x32x32)

/-- One step on a block: columns, then rows. -/
def stepV (r : FVec Ideal S128x32x32 .f32) : FVec Ideal S128x32x32 .f32 := rowV (colV r)

/-! ## The payloads are the step, composed -/

theorem k1_pay2_eq (v0 : Vec Ideal S128x32x32 .f32) :
    Gen.k1_pay2 (F := Ideal) v0 = colV (stepV (stepV (shapeCast S128x32x32 v0 Gen.shapeCasts_S128x32x32_S128x32x32))) := rfl

/-- The partial row sums the first part hands on are those of its own last block. -/
theorem k1_pay5_eq (v0 : Vec Ideal S128x32x32 .f32) :
    Gen.k1_pay5 (F := Ideal) (Gen.k1_pay2 v0) (Gen.k1_pay3 v0) Gen.k1_pay4
      = stepV (stepV (stepV (rowV (Gen.k1_pay2 (F := Ideal) v0)))) := rfl

theorem k1_pay6_eq (v85 : FVec Ideal S128x32x32 .f32) :
    Gen.k1_pay6 (F := Ideal) v85 = stepV (stepV (stepV v85)) := rfl

theorem k1_pay1_eq (v85 : FVec Ideal S128x32x32 .f32) :
    Gen.k1_pay1 (F := Ideal) (Gen.k1_pay6 v85) (Gen.k1_pay7 v85) = stepV (Gen.k1_pay6 (F := Ideal) v85) := rfl

theorem offsets_zero3 : (![0, 0, 0] : Fin 3 → Nat) = fun _ => 0 := funext fun a => by fin_cases a <;> rfl

/-- What the body leaves in its output block is ten steps on its input block. -/
theorem out1_1_eq (x0 : Vec Ideal S128x32x32 .f32) :
    Gen.out1_1 (F := Ideal) x0 = stepV^[10] x0 := by
  unfold Gen.out1_1
  rw [View.canon_unit_zero offsets_zero3, View.ld_unit_zero offsets_zero3]
  rw [k1_pay1_eq, k1_pay6_eq, k1_pay5_eq, k1_pay2_eq, shapeCast_self]
  rfl

/-! ## Two layout facts: a trailing unit axis added, and a broadcast along it -/

section Layout
variable {α : Type}

/-- An [a, b] array cast to [a, b, 1] reads, at (p, q, z), the operand at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) :=
  shapeCast_apply x h _ _ (by
    have hz : z.val = 0 := by omega
    rw [Shape.rowMajor_val_three, Shape.rowMajor_val_two]
    show p.val * b + q.val = (p.val * b + q.val) * 1 + z.val
    rw [hz, Nat.mul_one, Nat.add_zero])

/-- An [a, b, 1] array broadcast to [a, b, c] reads, at (p, q, s), the operand at (p, q, 0). -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (s : Fin c) :
    broadcastTo ⟨3, ![a, b, c]⟩ x h (ix3 p q s) = x (ix3 p q (0 : Fin 1)) := by
  refine broadcastTo_apply x h (ix3 p q s) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Layout

/-! ## One step at an entry -/

/-- The column reduction's inserted index: entry (b, j) of the sums with row k put back is (b, k, j). -/
theorem lift_col (b : Fin 128) (j k : Fin 32) :
    Gen.reduces_S128x32x32_S128x32.lift (ix2 b j) k = ix3 b k j :=
  funext fun a => Fin.ext (by
    match a with
    | ⟨0, _⟩ => rfl
    | ⟨1, _⟩ => rfl
    | ⟨2, _⟩ => rfl)

/-- The row reduction's inserted index: entry (b, i) of the sums with column k put back is (b, i, k). -/
theorem lift_row (b : Fin 128) (i k : Fin 32) :
    Gen.reduces_S128x32x32_S128x32_2.lift (ix2 b i) k = ix3 b i k :=
  funext fun a => Fin.ext (by
    match a with
    | ⟨0, _⟩ => rfl
    | ⟨1, _⟩ => rfl
    | ⟨2, _⟩ => rfl)

/-- The column normalisation at entry (b, i, j) is the specification's on matrix b. -/
theorem colV_apply (r : FVec Ideal S128x32x32 .f32) (b : Fin 128) (i j : Fin 32) :
    colV r (ix3 b i j) = Spec.colNorm (fun i j => r (ix3 b i j)) i j := by
  unfold colV Spec.colNorm
  rw [divf_apply]
  refine congrArg (Ideal.div (r (ix3 b i j))) ?_
  refine (LibPlainMatmul.broadcastTo_a1c_abc_apply _ _ b i j).trans ?_
  rw [maximumf_apply]
  refine congrArg (fun s => max s Spec.epsW) ?_
  refine (LibPlainMatmul.shapeCast_ac_a1c_apply _ _ b (0 : Fin 1) j).trans ?_
  refine (Ideal.multiReduction_add_single (absf r) 0x00000000#32 Gen.reduces_S128x32x32_S128x32 (.inl rfl) rfl (ix2 b j)).trans ?_
  refine Finset.sum_congr rfl fun k _ => ?_
  exact congrArg (fun y => Spec.abs' (r y)) (lift_col b j k)

/-- The row normalisation at entry (b, i, j) is the specification's on matrix b. -/
theorem rowV_apply (r : FVec Ideal S128x32x32 .f32) (b : Fin 128) (i j : Fin 32) :
    rowV r (ix3 b i j) = Spec.rowNorm (fun i j => r (ix3 b i j)) i j := by
  unfold rowV Spec.rowNorm
  rw [divf_apply]
  refine congrArg (Ideal.div (r (ix3 b i j))) ?_
  refine (broadcastTo_ab1_abc_apply _ _ b i j).trans ?_
  rw [maximumf_apply]
  refine congrArg (fun s => max s Spec.epsW) ?_
  refine (shapeCast_ab_ab1_apply _ _ b i (0 : Fin 1)).trans ?_
  refine (Ideal.multiReduction_add_single (absf r) 0x00000000#32 Gen.reduces_S128x32x32_S128x32_2 (.inl rfl) rfl (ix2 b i)).trans ?_
  refine Finset.sum_congr rfl fun k _ => ?_
  exact congrArg (fun y => Spec.abs' (r y)) (lift_row b i k)

/-- One step at entry (b, i, j) is the specification's step on matrix b. -/
theorem stepV_apply (r : FVec Ideal S128x32x32 .f32) (b : Fin 128) (i j : Fin 32) :
    stepV r (ix3 b i j) = Spec.sinkStep (fun i j => r (ix3 b i j)) i j := by
  unfold stepV Spec.sinkStep
  rw [rowV_apply]
  exact congrArg (fun M => Spec.rowNorm M i j) (funext fun i' => funext fun j' => colV_apply r b i' j')

/-- Any number of steps, likewise. -/
theorem iter_apply (n : ℕ) (r : FVec Ideal S128x32x32 .f32) (b : Fin 128) (i j : Fin 32) :
    stepV^[n] r (ix3 b i j) = Spec.sinkStep^[n] (fun i j => r (ix3 b i j)) i j := by
  induction n generalizing i j with
  | zero => rfl
  | succ n ih =>
    rw [Function.iterate_succ_apply', Function.iterate_succ_apply', stepV_apply]
    exact congrArg (fun M => Spec.sinkStep M i j) (funext fun i' => funext fun j' => ih i' j')

/-- The second region's output block at (b, i, j): ten Sinkhorn steps on matrix b of its input block. -/
theorem out1_1_apply (x0 : Vec Ideal S128x32x32 .f32) (b : Fin 128) (i j : Fin 32) :
    Cert.KernelIdeal.Gen.out1_1 (F := Ideal) x0 (ix3 b i j) = Cert.Spec.sink (fun i j => x0 (ix3 b i j)) i j := by
  rw [out1_1_eq]
  exact iter_apply 10 x0 b i j

end Cert.KernelIdeal.Body

end
-- ==== Proof.KMlp.lean ====
/-
  The first region's body read at an index, over the extended reals.

  The body holds 128 rows of the stacked input and sends each through five layers: four times "row times weight
  matrix, plus bias, then LeakyReLU", then "row times the last weight matrix, plus bias, then softplus". Over the
  extended reals a change of float format is the identity and a product into the zero accumulator is the plain sum of
  products, so every layer read at (r, j) sees only row r of its input block, and there it is the specification's
  layer on that row. The softplus is printed behind a guard "z − 0 differs from itself", which never holds.
-/
import proofs.«133769_j86741159510411_2_alg».proof.Proof.Spec
import proofs.«133769_j86741159510411_2_alg».proof.Proof.Gen.KernelIdeal.Frame
import proofs.«133769_j86741159510411_2_alg».proof.Proof.LibPlainMatmul

noncomputable section

namespace Cert.KernelIdeal.Body

open Cert.KernelIdeal Idealize.ShloMosaic Idealize.ShloMosaic.ValueIdx
open scoped BigOperators

/-! ## The layers on a block -/

/-- Rows times a square weight matrix, plus the bias row, on a block of 128 rows. -/
def affV (x : FVec Ideal S128x2048 .bf16) (W : Vec Ideal S2048x2048 .bf16) (b : Vec Ideal S1x2048 .f32) :
    FVec Ideal S128x2048 .f32 :=
  addf
    (matmul dot_S128x2048_S2048x2048_S128x2048_1_0_0_1_n_n none x
      (shapeCast S2048x2048 W Gen.shapeCasts_S2048x2048_S2048x2048 : FVec Ideal S2048x2048 .bf16) (constant S128x2048 .f32 0x00000000#32))
    (broadcastTo S128x2048 (shapeCast S1x2048 b Gen.shapeCasts_S1x2048_S1x2048 : FVec Ideal S1x2048 .f32)
      Gen.broadcasts_S1x2048_S128x2048)

/-- Rows times the last weight matrix, plus its bias row. -/
def affV5 (x : FVec Ideal S128x2048 .bf16) (W : Vec Ideal S2048x1024 .bf16) (b : Vec Ideal S1x1024 .f32) :
    FVec Ideal S128x1024 .f32 :=
  addf
    (matmul dot_S128x2048_S2048x1024_S128x1024_1_0_0_1_n_n none x
      (shapeCast S2048x1024 W Gen.shapeCasts_S2048x1024_S2048x1024 : FVec Ideal S2048x1024 .bf16) (constant S128x1024 .f32 0x00000000#32))
    (broadcastTo S128x1024 (shapeCast S1x1024 b Gen.shapeCasts_S1x1024_S1x1024 : FVec Ideal S1x1024 .f32)
      Gen.broadcasts_S1x1024_S128x1024)

/-- LeakyReLU on a block, then the narrowing of the format. -/
def leakyV (a : FVec Ideal S128x2048 .f32) : FVec Ideal S128x2048 .bf16 :=
  truncf .bf16
    (select (cmpf .oge a (broadcast S128x2048 (Scalar.ofBits .f32 0x00000000#32))) a
      (mulf (broadcast S128x2048 (Scalar.ofBits .f32 0x3C23D70A#32)) a))
    Gen.bitsLt_bf16_f32

/-- The softplus on a block, as printed: behind the guard "z − 0 differs from itself". -/
def softplusV (z : FVec Ideal S128x1024 .f32) : FVec Ideal S128x1024 .f32 :=
  select
    (cmpf .one (subf z (broadcast S128x1024 (Scalar.ofBits .f32 0x00000000#32)))
      (subf z (broadcast S128x1024 (Scalar.ofBits .f32 0x00000000#32))))
    (addf z (broadcast S128x1024 (Scalar.ofBits .f32 0x00000000#32)))
    (addf (maximumf z (broadcast S128x1024 (Scalar.ofBits .f32 0x00000000#32)))
      (log1p (exp (subf (broadcast S128x1024 (Scalar.ofBits .f32 0x00000000#32))
        (absf (subf z (broadcast S128x1024 (Scalar.ofBits .f32 0x00000000#32))))))))

/-! ## The payloads are the layers, composed -/

theorem k0_pay2_eq (v0 : Vec Ideal S128x2048 .bf16) (v2 : Vec Ideal S2048x2048 .bf16) (v5 : Vec Ideal S1x2048 .f32)
    (v15 : Vec Ideal S2048x2048 .bf16) (v18 : Vec Ideal S1x2048 .f32) (v28 : Vec Ideal S2048x2048 .bf16)
    (v31 : Vec Ideal S1x2048 .f32) :
    Gen.k0_pay2 (F := Ideal) v0 v2 v5 v15 v18 v28 v31
      = affV (leakyV (affV (leakyV (affV (shapeCast S128x2048 v0 Gen.shapeCasts_S128x2048_S128x2048) v2 v5)) v15 v18))
          v28 v31 := rfl

theorem k0_pay1_eq (v34 : FVec Ideal S128x2048 .f32) (v41 : Vec Ideal S2048x2048 .bf16) (v44 : Vec Ideal S1x2048 .f32)
    (v54 : Vec Ideal S2048x1024 .bf16) (v57 : Vec Ideal S1x1024 .f32) :
    Gen.k0_pay1 (F := Ideal) v34 (Scalar.ofBits .f32 0x3C23D70A#32) Gen.k0_pay3 v41 v44 v54 v57
      = softplusV (affV5 (leakyV (affV (leakyV v34) v41 v44)) v54 v57) := rfl

/-! ## The layers at an entry -/

/-- The affine map at (r, j): row r of the input times column j of the weights, plus the bias at j. -/
theorem affV_apply (x : FVec Ideal S128x2048 .bf16) (W : Vec Ideal S2048x2048 .bf16) (b : Vec Ideal S1x2048 .f32)
    (r : Fin 128) (j : Fin 2048) :
    affV x W b (ix2 r j)
      = Spec.affine (fun t j => W (ix2 t j)) (fun j => b (ix2 (0 : Fin 1) j)) (fun t => x (ix2 r t)) j := by
  unfold affV Spec.affine
  rw [addf_apply, shapeCast_self, shapeCast_self]
  refine congrArg₂ (· + ·) ?_ ?_
  · exact LibPlainMatmul.matmul_zero_plain Gen.dot_S128x2048_S2048x2048_S128x2048_1_0_0_1_n_n_wf x W r j
  · exact broadcastTo_1b_ab_apply b _ r j

/-- The last affine map at (r, j), likewise. -/
theorem affV5_apply (x : FVec Ideal S128x2048 .bf16) (W : Vec Ideal S2048x1024 .bf16) (b : Vec Ideal S1x1024 .f32)
    (r : Fin 128) (j : Fin 1024) :
    affV5 x W b (ix2 r j)
      = Spec.affine (fun t j => W (ix2 t j)) (fun j => b (ix2 (0 : Fin 1) j)) (fun t => x (ix2 r t)) j := by
  unfold affV5 Spec.affine
  rw [addf_apply, shapeCast_self, shapeCast_self]
  refine congrArg₂ (· + ·) ?_ ?_
  · exact LibPlainMatmul.matmul_zero_plain Gen.dot_S128x2048_S2048x1024_S128x1024_1_0_0_1_n_n_wf x W r j
  · exact broadcastTo_1b_ab_apply b _ r j

/-- LeakyReLU at an entry is the specification's, the narrowing being the identity. -/
theorem leakyV_apply (a : FVec Ideal S128x2048 .f32) (i : S128x2048.Idx) : leakyV a i = Spec.leaky (a i) := rfl

/-- A hidden layer at (r, j) is the specification's hidden layer on row r. -/
theorem hidV_apply (x : FVec Ideal S128x2048 .bf16) (W : Vec Ideal S2048x2048 .bf16) (b : Vec Ideal S1x2048 .f32)
    (r : Fin 128) (j : Fin 2048) :
    leakyV (affV x W b) (ix2 r j)
      = Spec.hidden (fun t j => W (ix2 t j)) (fun j => b (ix2 (0 : Fin 1) j)) (fun t => x (ix2 r t)) j := by
  rw [leakyV_apply, affV_apply]
  rfl

/-- Row r of a hidden layer's output block is the specification's hidden layer on row r of its input block. -/
theorem hidV_row (x : FVec Ideal S128x2048 .bf16) (W : Vec Ideal S2048x2048 .bf16) (b : Vec Ideal S1x2048 .f32)
    (r : Fin 128) :
    (fun t => leakyV (affV x W b) (ix2 r t))
      = Spec.hidden (fun t j => W (ix2 t j)) (fun j => b (ix2 (0 : Fin 1) j)) (fun t => x (ix2 r t)) :=
  funext fun t => hidV_apply x W b r t

/-- The guard of the printed softplus never holds: nothing differs from itself. -/
theorem cmp_one_self (v : EReal) : Ideal.cmp .one v v = 0#1 := by
  simp [Ideal.cmp]

/-- The printed softplus at an entry is the specification's. -/
theorem softplusV_apply (z : FVec Ideal S128x1024 .f32) (i : S128x1024.Idx) :
    softplusV z i = Spec.softplus (z i) := by
  unfold softplusV Spec.softplus
  rw [select_apply, cmpf_apply]
  refine (congrArg (fun c => Scalar.select c _ _) (cmp_one_self _)).trans ?_
  rw [select_zero]
  show max (z i) (Ideal.ofBits .f32 0x00000000#32)
      + Ideal.log1p (Ideal.exp (Ideal.ofBits .f32 0x00000000#32 - Spec.abs' (z i - Ideal.ofBits .f32 0x00000000#32)))
    = max (z i) Spec.zeroW + Ideal.log1p (Ideal.exp (-(Spec.abs' (z i - Spec.zeroW))))
  unfold Spec.zeroW
  rw [Ideal.ofBits_zero_f32, zero_sub]

/-! ## The block the body leaves -/

theorem offsets_zero2 : (![0, 0] : Fin 2 → Nat) = fun _ => 0 := funext fun a => by fin_cases a <;> rfl

/-- What the body leaves in its output block: the five layers on its input block. -/
theorem out0_11_eq (x0 : Vec Ideal S128x2048 .bf16) (x1 : Vec Ideal S2048x2048 .bf16) (x2 : Vec Ideal S1x2048 .f32)
    (x3 : Vec Ideal S2048x2048 .bf16) (x4 : Vec Ideal S1x2048 .f32) (x5 : Vec Ideal S2048x2048 .bf16)
    (x6 : Vec Ideal S1x2048 .f32) (x7 : Vec Ideal S2048x2048 .bf16) (x8 : Vec Ideal S1x2048 .f32)
    (x9 : Vec Ideal S2048x1024 .bf16) (x10 : Vec Ideal S1x1024 .f32) :
    Gen.out0_11 (F := Ideal) x0 x1 x2 x3 x4 x5 x6 x7 x8 x9 x10
      = softplusV (affV5 (leakyV (affV (leakyV (affV (leakyV (affV (leakyV (affV x0 x1 x2)) x3 x4)) x5 x6)) x7 x8))
          x9 x10) := by
  unfold Gen.out0_11
  rw [View.canon_unit_zero offsets_zero2]
  simp only [View.ld_unit_zero (S := S128x2048) offsets_zero2, View.ld_unit_zero (S := S2048x2048) offsets_zero2,
    View.ld_unit_zero (S := S1x2048) offsets_zero2, View.ld_unit_zero (S := S2048x1024) offsets_zero2,
    View.ld_unit_zero (S := S1x1024) offsets_zero2]
  rw [k0_pay1_eq, k0_pay2_eq, shapeCast_self]

/-- The first region's output block at (r, j): the perceptron on row r of its input block, at entry j. -/
theorem out0_11_apply (x0 : Vec Ideal S128x2048 .bf16) (x1 : Vec Ideal S2048x2048 .bf16) (x2 : Vec Ideal S1x2048 .f32) (x3 : Vec Ideal S2048x2048 .bf16) (x4 : Vec Ideal S1x2048 .f32) (x5 : Vec Ideal S2048x2048 .bf16) (x6 : Vec Ideal S1x2048 .f32) (x7 : Vec Ideal S2048x2048 .bf16) (x8 : Vec Ideal S1x2048 .f32) (x9 : Vec Ideal S2048x1024 .bf16) (x10 : Vec Ideal S1x1024 .f32) (r : Fin 128) (j : Fin 1024) :
    Cert.KernelIdeal.Gen.out0_11 (F := Ideal) x0 x1 x2 x3 x4 x5 x6 x7 x8 x9 x10 (ix2 r j)
      = Cert.Spec.mlpRow (Cert.Spec.paramsOfRows x1 x2 x3 x4 x5 x6 x7 x8 x9 x10) (fun k => x0 (ix2 r k)) j := by
  rw [out0_11_eq, softplusV_apply, affV5_apply, hidV_row, hidV_row, hidV_row, hidV_row]
  rfl

end Cert.KernelIdeal.Body

end
-- ==== Proof.RefRunOps.lean ====
/-
  The operations of the reference's @main as literal lists, one per stretch of the program: the stacked input, the four
  hidden layers, the last affine layer with its reshape, softplus, and the ten Sinkhorn steps. At a call the callee's
  operations stand in line over that call's record of buffers.
-/
import proofs.«133769_j86741159510411_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

abbrev c0 : List (HloOp τ sig (Elt F)) :=
  [ StableHlo.unary main_arg0 main_v0 (broadcastInDim S4096x32x32x1 ![0, 1, 2] bcast_S4096x32x32_S4096x32x32x1_0_1_2 : (⟨S4096x32x32, .f32⟩ : BufTy).Contents (Elt F) → (⟨S4096x32x32x1, .f32⟩ : BufTy).Contents (Elt F)),
    StableHlo.unary main_arg1 main_v1 (broadcastInDim S4096x32x32x1 ![0, 1, 2] bcast_S4096x32x32_S4096x32x32x1_0_1_2 : (⟨S4096x32x32, .f32⟩ : BufTy).Contents (Elt F) → (⟨S4096x32x32x1, .f32⟩ : BufTy).Contents (Elt F)),
    StableHlo.binary main_v0 main_v1 main_v2 ((fun a b => concatenate S4096x32x32x2 3 [⟨S4096x32x32x1, a⟩, ⟨S4096x32x32x1, b⟩] concatenates_S4096x32x32x1_S4096x32x32x1_S4096x32x32x2_d3) : (⟨S4096x32x32x1, .f32⟩ : BufTy).Contents (Elt F) → (⟨S4096x32x32x1, .f32⟩ : BufTy).Contents (Elt F) → (⟨S4096x32x32x2, .f32⟩ : BufTy).Contents (Elt F)),
    StableHlo.reshape main_v2 main_v3 rfl shapeCasts_S4096x32x32x2_S4096x2048 ]

abbrev c1 : List (HloOp τ sig (Elt F)) :=
  [ StableHlo.binary main_v3 main_arg2 main_v4 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    StableHlo.unary main_arg3 main_v5 (broadcastInDim S1x2048 ![1] bcast_S2048_S1x2048_1 : (⟨S2048, .f32⟩ : BufTy).Contents (Elt F) → (⟨S1x2048, .f32⟩ : BufTy).Contents (Elt F)),
    StableHlo.unary main_v5 main_v6 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v4 main_v6 main_v7 (addf : (⟨S4096x2048, .f32⟩ : BufTy).Contents (Elt F) → (⟨S4096x2048, .f32⟩ : BufTy).Contents (Elt F) → (⟨S4096x2048, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S4096x2048 ![] bcast_S_S4096x2048),
    StableHlo.TRef.binary (.of main_v7) main_call0.v0 main_call0.v1 (cmpf .oge),
    StableHlo.TRef.unary (.of main_cst) main_call0.v2 id,
    StableHlo.TRef.unary main_call0.v2 main_call0.v3 (broadcastInDim S4096x2048 ![] bcast_S_S4096x2048),
    StableHlo.TRef.binary main_call0.v3 (.of main_v7) main_call0.v4 mulf,
    StableHlo.TRef.ternary main_call0.v1 (.of main_v7) main_call0.v4 main_call0.call0.v0 select ]

abbrev c2 : List (HloOp τ sig (Elt F)) :=
  [ StableHlo.binary main_v8 main_arg4 main_v9 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    StableHlo.unary main_arg5 main_v10 (broadcastInDim S1x2048 ![1] bcast_S2048_S1x2048_1 : (⟨S2048, .f32⟩ : BufTy).Contents (Elt F) → (⟨S1x2048, .f32⟩ : BufTy).Contents (Elt F)),
    StableHlo.unary main_v10 main_v11 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v9 main_v11 main_v12 (addf : (⟨S4096x2048, .f32⟩ : BufTy).Contents (Elt F) → (⟨S4096x2048, .f32⟩ : BufTy).Contents (Elt F) → (⟨S4096x2048, .f32⟩ : BufTy).Contents (Elt F)),
    StableHlo.nullary main_cst_0 (constant S_ .f32 0x3C23D70A#32),
    StableHlo.TRef.nullary main_call1.cst (constant S_ .f32 0x00000000#32),
    StableHlo.TRef.unary main_call1.cst main_call1.v0 (broadcastInDim S4096x2048 ![] bcast_S_S4096x2048),
    StableHlo.TRef.binary (.of main_v12) main_call1.v0 main_call1.v1 (cmpf .oge),
    StableHlo.TRef.unary (.of main_cst_0) main_call1.v2 id,
    StableHlo.TRef.unary main_call1.v2 main_call1.v3 (broadcastInDim S4096x2048 ![] bcast_S_S4096x2048),
    StableHlo.TRef.binary main_call1.v3 (.of main_v12) main_call1.v4 mulf,
    StableHlo.TRef.ternary main_call1.v1 (.of main_v12) main_call1.v4 main_call1.call0.v0 select ]

abbrev c3 : List (HloOp τ sig (Elt F)) :=
  [ StableHlo.binary main_v13 main_arg6 main_v14 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    StableHlo.unary main_arg7 main_v15 (broadcastInDim S1x2048 ![1] bcast_S2048_S1x2048_1 : (⟨S2048, .f32⟩ : BufTy).Contents (Elt F) → (⟨S1x2048, .f32⟩ : BufTy).Contents (Elt F)),
    StableHlo.unary main_v15 main_v16 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v14 main_v16 main_v17 (addf : (⟨S4096x2048, .f32⟩ : BufTy).Contents (Elt F) → (⟨S4096x2048, .f32⟩ : BufTy).Contents (Elt F) → (⟨S4096x2048, .f32⟩ : BufTy).Contents (Elt F)),
    StableHlo.nullary main_cst_1 (constant S_ .f32 0x3C23D70A#32),
    StableHlo.TRef.nullary main_call2.cst (constant S_ .f32 0x00000000#32),
    StableHlo.TRef.unary main_call2.cst main_call2.v0 (broadcastInDim S4096x2048 ![] bcast_S_S4096x2048),
    StableHlo.TRef.binary (.of main_v17) main_call2.v0 main_call2.v1 (cmpf .oge),
    StableHlo.TRef.unary (.of main_cst_1) main_call2.v2 id,
    StableHlo.TRef.unary main_call2.v2 main_call2.v3 (broadcastInDim S4096x2048 ![] bcast_S_S4096x2048),
    StableHlo.TRef.binary main_call2.v3 (.of main_v17) main_call2.v4 mulf,
    StableHlo.TRef.ternary main_call2.v1 (.of main_v17) main_call2.v4 main_call2.call0.v0 select ]

abbrev c4 : List (HloOp τ sig (Elt F)) :=
  [ StableHlo.binary main_v18 main_arg8 main_v19 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    StableHlo.unary main_arg9 main_v20 (broadcastInDim S1x2048 ![1] bcast_S2048_S1x2048_1 : (⟨S2048, .f32⟩ : BufTy).Contents (Elt F) → (⟨S1x2048, .f32⟩ : BufTy).Contents (Elt F)),
    StableHlo.unary main_v20 main_v21 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v19 main_v21 main_v22 (addf : (⟨S4096x2048, .f32⟩ : BufTy).Contents (Elt F) → (⟨S4096x2048, .f32⟩ : BufTy).Contents (Elt F) → (⟨S4096x2048, .f32⟩ : BufTy).Contents (Elt F)),
    StableHlo.nullary main_cst_2 (constant S_ .f32 0x3C23D70A#32),
    StableHlo.TRef.nullary main_call3.cst (constant S_ .f32 0x00000000#32),
    StableHlo.TRef.unary main_call3.cst main_call3.v0 (broadcastInDim S4096x2048 ![] bcast_S_S4096x2048),
    StableHlo.TRef.binary (.of main_v22) main_call3.v0 main_call3.v1 (cmpf .oge),
    StableHlo.TRef.unary (.of main_cst_2) main_call3.v2 id,
    StableHlo.TRef.unary main_call3.v2 main_call3.v3 (broadcastInDim S4096x2048 ![] bcast_S_S4096x2048),
    StableHlo.TRef.binary main_call3.v3 (.of main_v22) main_call3.v4 mulf,
    StableHlo.TRef.ternary main_call3.v1 (.of main_v22) main_call3.v4 main_call3.call0.v0 select ]

abbrev c5 : List (HloOp τ sig (Elt F)) :=
  [ StableHlo.binary main_v23 main_arg10 main_v24 ((fun l r => Host.dotGeneral dot_S4096x2048_S2048x1024_S4096x1024_1_0_0_1_n_n none l r) : (⟨S4096x2048, .f32⟩ : BufTy).Contents (Elt F) → (⟨S2048x1024, .f32⟩ : BufTy).Contents (Elt F) → (⟨S4096x1024, .f32⟩ : BufTy).Contents (Elt F)),
    StableHlo.unary main_arg11 main_v25 (broadcastInDim S1x1024 ![1] bcast_S1024_S1x1024_1 : (⟨S1024, .f32⟩ : BufTy).Contents (Elt F) → (⟨S1x1024, .f32⟩ : BufTy).Contents (Elt F)),
    StableHlo.unary main_v25 main_v26 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v24 main_v26 main_v27 (addf : (⟨S4096x1024, .f32⟩ : BufTy).Contents (Elt F) → (⟨S4096x1024, .f32⟩ : BufTy).Contents (Elt F) → (⟨S4096x1024, .f32⟩ : BufTy).Contents (Elt F)),
    StableHlo.reshape main_v27 main_v28 rfl shapeCasts_S4096x1024_S4096x32x32 ]

abbrev c6 : List (HloOp τ sig (Elt F)) :=
  [ StableHlo.TRef.nullary main_call4.cst (constant S_ .f32 0x00000000#32),
    StableHlo.TRef.unary main_call4.cst main_call4.v0 (broadcastInDim S4096x32x32 ![] bcast_S_S4096x32x32),
    StableHlo.TRef.binary (.of main_v28) main_call4.v0 main_call4.v1 maximumf,
    StableHlo.TRef.unary main_call4.cst main_call4.v2 (broadcastInDim S4096x32x32 ![] bcast_S_S4096x32x32),
    StableHlo.TRef.binary (.of main_v28) main_call4.v2 main_call4.v3 subf,
    StableHlo.TRef.binary main_call4.v3 main_call4.v3 main_call4.v4 (cmpf .une),
    StableHlo.TRef.unary main_call4.cst main_call4.v5 (broadcastInDim S4096x32x32 ![] bcast_S_S4096x32x32),
    StableHlo.TRef.binary (.of main_v28) main_call4.v5 main_call4.v6 addf,
    StableHlo.TRef.unary main_call4.v3 main_call4.v7 Host.absf,
    StableHlo.TRef.unary main_call4.v7 main_call4.v8 Host.negf,
    StableHlo.TRef.unary main_call4.v8 main_call4.v9 Host.exp,
    StableHlo.TRef.unary main_call4.v9 main_call4.v10 Host.log1p,
    StableHlo.TRef.binary main_call4.v1 main_call4.v10 main_call4.v11 addf,
    StableHlo.TRef.ternary main_call4.v4 main_call4.v6 main_call4.v11 main_call4.v12 select ]

abbrev s0 : List (HloOp τ sig (Elt F)) :=
  [ StableHlo.unary main_v29 main_v30 (Host.absf : (⟨S4096x32x32, .f32⟩ : BufTy).Contents (Elt F) → (⟨S4096x32x32, .f32⟩ : BufTy).Contents (Elt F)),
    StableHlo.nullary main_cst_3 (constant S_ .f32 0x00000000#32),
    StableHlo.binary main_v30 main_cst_3 main_v31 ((fun x v => Host.reduceAdd x v reducesTo_S4096x32x32_S4096x32_d1 h_S_) : (⟨S4096x32x32, .f32⟩ : BufTy).Contents (Elt F) → (⟨S_, .f32⟩ : BufTy).Contents (Elt F) → (⟨S4096x32, .f32⟩ : BufTy).Contents (Elt F)),
    StableHlo.unary main_v31 main_v32 (broadcastInDim S4096x1x32 ![0, 2] bcast_S4096x32_S4096x1x32_0_2 : (⟨S4096x32, .f32⟩ : BufTy).Contents (Elt F) → (⟨S4096x1x32, .f32⟩ : BufTy).Contents (Elt F)),
    StableHlo.nullary main_cst_4 (constant S_ .f32 0x322BCC77#32),
    StableHlo.unary main_cst_4 main_v33 (broadcastInDim S4096x1x32 ![] bcast_S_S4096x1x32 : (⟨S_, .f32⟩ : BufTy).Contents (Elt F) → (⟨S4096x1x32, .f32⟩ : BufTy).Contents (Elt F)),
    StableHlo.binary main_v32 main_v33 main_v34 (maximumf : (⟨S4096x1x32, .f32⟩ : BufTy).Contents (Elt F) → (⟨S4096x1x32, .f32⟩ : BufTy).Contents (Elt F) → (⟨S4096x1x32, .f32⟩ : BufTy).Contents (Elt F)),
    StableHlo.unary main_v34 main_v35 (broadcastInDim S4096x32x32 ![0, 1, 2] bcast_S4096x1x32_S4096x32x32_0_1_2 : (⟨S4096x1x32, .f32⟩ : BufTy).Contents (Elt F) → (⟨S4096x32x32, .f32⟩ : BufTy).Contents (Elt F)),
    StableHlo.binary main_v29 main_v35 main_v36 (Host.divf : (⟨S4096x32x32, .f32⟩ : BufTy).Contents (Elt F) → (⟨S4096x32x32, .f32⟩ : BufTy).Contents (Elt F) → (⟨S4096x32x32, .f32⟩ : BufTy).Contents (Elt F)),
    StableHlo.unary main_v36 main_v37 (Host.absf : (⟨S4096x32x32, .f32⟩ : BufTy).Contents (Elt F) → (⟨S4096x32x32, .f32⟩ : BufTy).Contents (Elt F)),
    StableHlo.nullary main_cst_5 (constant S_ .f32 0x00000000#32),
    StableHlo.binary main_v37 main_cst_5 main_v38 ((fun x v => Host.reduceAdd x v reducesTo_S4096x32x32_S4096x32_d2 h_S_) : (⟨S4096x32x32, .f32⟩ : BufTy).Contents (Elt F) → (⟨S_, .f32⟩ : BufTy).Contents (Elt F) → (⟨S4096x32, .f32⟩ : BufTy).Contents (Elt F)),
    StableHlo.unary main_v38 main_v39 (broadcastInDim S4096x32x1 ![0, 1] bcast_S4096x32_S4096x32x1_0_1 : (⟨S4096x32, .f32⟩ : BufTy).Contents (Elt F) → (⟨S4096x32x1, .f32⟩ : BufTy).Contents (Elt F)),
    StableHlo.nullary main_cst_6 (constant S_ .f32 0x322BCC77#32),
    StableHlo.unary main_cst_6 main_v40 (broadcastInDim S4096x32x1 ![] bcast_S_S4096x32x1 : (⟨S_, .f32⟩ : BufTy).Contents (Elt F) → (⟨S4096x32x1, .f32⟩ : BufTy).Contents (Elt F)),
    StableHlo.binary main_v39 main_v40 main_v41 (maximumf : (⟨S4096x32x1, .f32⟩ : BufTy).Contents (Elt F) → (⟨S4096x32x1, .f32⟩ : BufTy).Contents (Elt F) → (⟨S4096x32x1, .f32⟩ : BufTy).Contents (Elt F)),
    StableHlo.unary main_v41 main_v42 (broadcastInDim S4096x32x32 ![0, 1, 2] bcast_S4096x32x1_S4096x32x32_0_1_2 : (⟨S4096x32x1, .f32⟩ : BufTy).Contents (Elt F) → (⟨S4096x32x32, .f32⟩ : BufTy).Contents (Elt F)),
    StableHlo.binary main_v36 main_v42 main_v43 (Host.divf : (⟨S4096x32x32, .f32⟩ : BufTy).Contents (Elt F) → (⟨S4096x32x32, .f32⟩ : BufTy).Contents (Elt F) → (⟨S4096x32x32, .f32⟩ : BufTy).Contents (Elt F)) ]

abbrev s1 : List (HloOp τ sig (Elt F)) :=
  [ StableHlo.unary main_v43 main_v44 (Host.absf : (⟨S4096x32x32, .f32⟩ : BufTy).Contents (Elt F) → (⟨S4096x32x32, .f32⟩ : BufTy).Contents (Elt F)),
    StableHlo.nullary main_cst_7 (constant S_ .f32 0x00000000#32),
    StableHlo.binary main_v44 main_cst_7 main_v45 ((fun x v => Host.reduceAdd x v reducesTo_S4096x32x32_S4096x32_d1 h_S_) : (⟨S4096x32x32, .f32⟩ : BufTy).Contents (Elt F) → (⟨S_, .f32⟩ : BufTy).Contents (Elt F) → (⟨S4096x32, .f32⟩ : BufTy).Contents (Elt F)),
    StableHlo.unary main_v45 main_v46 (broadcastInDim S4096x1x32 ![0, 2] bcast_S4096x32_S4096x1x32_0_2 : (⟨S4096x32, .f32⟩ : BufTy).Contents (Elt F) → (⟨S4096x1x32, .f32⟩ : BufTy).Contents (Elt F)),
    StableHlo.nullary main_cst_8 (constant S_ .f32 0x322BCC77#32),
    StableHlo.unary main_cst_8 main_v47 (broadcastInDim S4096x1x32 ![] bcast_S_S4096x1x32 : (⟨S_, .f32⟩ : BufTy).Contents (Elt F) → (⟨S4096x1x32, .f32⟩ : BufTy).Contents (Elt F)),
    StableHlo.binary main_v46 main_v47 main_v48 (maximumf : (⟨S4096x1x32, .f32⟩ : BufTy).Contents (Elt F) → (⟨S4096x1x32, .f32⟩ : BufTy).Contents (Elt F) → (⟨S4096x1x32, .f32⟩ : BufTy).Contents (Elt F)),
    StableHlo.unary main_v48 main_v49 (broadcastInDim S4096x32x32 ![0, 1, 2] bcast_S4096x1x32_S4096x32x32_0_1_2 : (⟨S4096x1x32, .f32⟩ : BufTy).Contents (Elt F) → (⟨S4096x32x32, .f32⟩ : BufTy).Contents (Elt F)),
    StableHlo.binary main_v43 main_v49 main_v50 (Host.divf : (⟨S4096x32x32, .f32⟩ : BufTy).Contents (Elt F) → (⟨S4096x32x32, .f32⟩ : BufTy).Contents (Elt F) → (⟨S4096x32x32, .f32⟩ : BufTy).Contents (Elt F)),
    StableHlo.unary main_v50 main_v51 (Host.absf : (⟨S4096x32x32, .f32⟩ : BufTy).Contents (Elt F) → (⟨S4096x32x32, .f32⟩ : BufTy).Contents (Elt F)),
    StableHlo.nullary main_cst_9 (constant S_ .f32 0x00000000#32),
    StableHlo.binary main_v51 main_cst_9 main_v52 ((fun x v => Host.reduceAdd x v reducesTo_S4096x32x32_S4096x32_d2 h_S_) : (⟨S4096x32x32, .f32⟩ : BufTy).Contents (Elt F) → (⟨S_, .f32⟩ : BufTy).Contents (Elt F) → (⟨S4096x32, .f32⟩ : BufTy).Contents (Elt F)),
    StableHlo.unary main_v52 main_v53 (broadcastInDim S4096x32x1 ![0, 1] bcast_S4096x32_S4096x32x1_0_1 : (⟨S4096x32, .f32⟩ : BufTy).Contents (Elt F) → (⟨S4096x32x1, .f32⟩ : BufTy).Contents (Elt F)),
    StableHlo.nullary main_cst_10 (constant S_ .f32 0x322BCC77#32),
    StableHlo.unary main_cst_10 main_v54 (broadcastInDim S4096x32x1 ![] bcast_S_S4096x32x1 : (⟨S_, .f32⟩ : BufTy).Contents (Elt F) → (⟨S4096x32x1, .f32⟩ : BufTy).Contents (Elt F)),
    StableHlo.binary main_v53 main_v54 main_v55 (maximumf : (⟨S4096x32x1, .f32⟩ : BufTy).Contents (Elt F) → (⟨S4096x32x1, .f32⟩ : BufTy).Contents (Elt F) → (⟨S4096x32x1, .f32⟩ : BufTy).Contents (Elt F)),
    StableHlo.unary main_v55 main_v56 (broadcastInDim S4096x32x32 ![0, 1, 2] bcast_S4096x32x1_S4096x32x32_0_1_2 : (⟨S4096x32x1, .f32⟩ : BufTy).Contents (Elt F) → (⟨S4096x32x32, .f32⟩ : BufTy).Contents (Elt F)),
    StableHlo.binary main_v50 main_v56 main_v57 (Host.divf : (⟨S4096x32x32, .f32⟩ : BufTy).Contents (Elt F) → (⟨S4096x32x32, .f32⟩ : BufTy).Contents (Elt F) → (⟨S4096x32x32, .f32⟩ : BufTy).Contents (Elt F)) ]

abbrev s2 : List (HloOp τ sig (Elt F)) :=
  [ StableHlo.unary main_v57 main_v58 (Host.absf : (⟨S4096x32x32, .f32⟩ : BufTy).Contents (Elt F) → (⟨S4096x32x32, .f32⟩ : BufTy).Contents (Elt F)),
    StableHlo.nullary main_cst_11 (constant S_ .f32 0x00000000#32),
    StableHlo.binary main_v58 main_cst_11 main_v59 ((fun x v => Host.reduceAdd x v reducesTo_S4096x32x32_S4096x32_d1 h_S_) : (⟨S4096x32x32, .f32⟩ : BufTy).Contents (Elt F) → (⟨S_, .f32⟩ : BufTy).Contents (Elt F) → (⟨S4096x32, .f32⟩ : BufTy).Contents (Elt F)),
    StableHlo.unary main_v59 main_v60 (broadcastInDim S4096x1x32 ![0, 2] bcast_S4096x32_S4096x1x32_0_2 : (⟨S4096x32, .f32⟩ : BufTy).Contents (Elt F) → (⟨S4096x1x32, .f32⟩ : BufTy).Contents (Elt F)),
    StableHlo.nullary main_cst_12 (constant S_ .f32 0x322BCC77#32),
    StableHlo.unary main_cst_12 main_v61 (broadcastInDim S4096x1x32 ![] bcast_S_S4096x1x32 : (⟨S_, .f32⟩ : BufTy).Contents (Elt F) → (⟨S4096x1x32, .f32⟩ : BufTy).Contents (Elt F)),
    StableHlo.binary main_v60 main_v61 main_v62 (maximumf : (⟨S4096x1x32, .f32⟩ : BufTy).Contents (Elt F) → (⟨S4096x1x32, .f32⟩ : BufTy).Contents (Elt F) → (⟨S4096x1x32, .f32⟩ : BufTy).Contents (Elt F)),
    StableHlo.unary main_v62 main_v63 (broadcastInDim S4096x32x32 ![0, 1, 2] bcast_S4096x1x32_S4096x32x32_0_1_2 : (⟨S4096x1x32, .f32⟩ : BufTy).Contents (Elt F) → (⟨S4096x32x32, .f32⟩ : BufTy).Contents (Elt F)),
    StableHlo.binary main_v57 main_v63 main_v64 (Host.divf : (⟨S4096x32x32, .f32⟩ : BufTy).Contents (Elt F) → (⟨S4096x32x32, .f32⟩ : BufTy).Contents (Elt F) → (⟨S4096x32x32, .f32⟩ : BufTy).Contents (Elt F)),
    StableHlo.unary main_v64 main_v65 (Host.absf : (⟨S4096x32x32, .f32⟩ : BufTy).Contents (Elt F) → (⟨S4096x32x32, .f32⟩ : BufTy).Contents (Elt F)),
    StableHlo.nullary main_cst_13 (constant S_ .f32 0x00000000#32),
    StableHlo.binary main_v65 main_cst_13 main_v66 ((fun x v => Host.reduceAdd x v reducesTo_S4096x32x32_S4096x32_d2 h_S_) : (⟨S4096x32x32, .f32⟩ : BufTy).Contents (Elt F) → (⟨S_, .f32⟩ : BufTy).Contents (Elt F) → (⟨S4096x32, .f32⟩ : BufTy).Contents (Elt F)),
    StableHlo.unary main_v66 main_v67 (broadcastInDim S4096x32x1 ![0, 1] bcast_S4096x32_S4096x32x1_0_1 : (⟨S4096x32, .f32⟩ : BufTy).Contents (Elt F) → (⟨S4096x32x1, .f32⟩ : BufTy).Contents (Elt F)),
    StableHlo.nullary main_cst_14 (constant S_ .f32 0x322BCC77#32),
    StableHlo.unary main_cst_14 main_v68 (broadcastInDim S4096x32x1 ![] bcast_S_S4096x32x1 : (⟨S_, .f32⟩ : BufTy).Contents (Elt F) → (⟨S4096x32x1, .f32⟩ : BufTy).Contents (Elt F)),
    StableHlo.binary main_v67 main_v68 main_v69 (maximumf : (⟨S4096x32x1, .f32⟩ : BufTy).Contents (Elt F) → (⟨S4096x32x1, .f32⟩ : BufTy).Contents (Elt F) → (⟨S4096x32x1, .f32⟩ : BufTy).Contents (Elt F)),
    StableHlo.unary main_v69 main_v70 (broadcastInDim S4096x32x32 ![0, 1, 2] bcast_S4096x32x1_S4096x32x32_0_1_2 : (⟨S4096x32x1, .f32⟩ : BufTy).Contents (Elt F) → (⟨S4096x32x32, .f32⟩ : BufTy).Contents (Elt F)),
    StableHlo.binary main_v64 main_v70 main_v71 (Host.divf : (⟨S4096x32x32, .f32⟩ : BufTy).Contents (Elt F) → (⟨S4096x32x32, .f32⟩ : BufTy).Contents (Elt F) → (⟨S4096x32x32, .f32⟩ : BufTy).Contents (Elt F)) ]

abbrev s3 : List (HloOp τ sig (Elt F)) :=
  [ StableHlo.unary main_v71 main_v72 (Host.absf : (⟨S4096x32x32, .f32⟩ : BufTy).Contents (Elt F) → (⟨S4096x32x32, .f32⟩ : BufTy).Contents (Elt F)),
    StableHlo.nullary main_cst_15 (constant S_ .f32 0x00000000#32),
    StableHlo.binary main_v72 main_cst_15 main_v73 ((fun x v => Host.reduceAdd x v reducesTo_S4096x32x32_S4096x32_d1 h_S_) : (⟨S4096x32x32, .f32⟩ : BufTy).Contents (Elt F) → (⟨S_, .f32⟩ : BufTy).Contents (Elt F) → (⟨S4096x32, .f32⟩ : BufTy).Contents (Elt F)),
    StableHlo.unary main_v73 main_v74 (broadcastInDim S4096x1x32 ![0, 2] bcast_S4096x32_S4096x1x32_0_2 : (⟨S4096x32, .f32⟩ : BufTy).Contents (Elt F) → (⟨S4096x1x32, .f32⟩ : BufTy).Contents (Elt F)),
    StableHlo.nullary main_cst_16 (constant S_ .f32 0x322BCC77#32),
    StableHlo.unary main_cst_16 main_v75 (broadcastInDim S4096x1x32 ![] bcast_S_S4096x1x32 : (⟨S_, .f32⟩ : BufTy).Contents (Elt F) → (⟨S4096x1x32, .f32⟩ : BufTy).Contents (Elt F)),
    StableHlo.binary main_v74 main_v75 main_v76 (maximumf : (⟨S4096x1x32, .f32⟩ : BufTy).Contents (Elt F) → (⟨S4096x1x32, .f32⟩ : BufTy).Contents (Elt F) → (⟨S4096x1x32, .f32⟩ : BufTy).Contents (Elt F)),
    StableHlo.unary main_v76 main_v77 (broadcastInDim S4096x32x32 ![0, 1, 2] bcast_S4096x1x32_S4096x32x32_0_1_2 : (⟨S4096x1x32, .f32⟩ : BufTy).Contents (Elt F) → (⟨S4096x32x32, .f32⟩ : BufTy).Contents (Elt F)),
    StableHlo.binary main_v71 main_v77 main_v78 (Host.divf : (⟨S4096x32x32, .f32⟩ : BufTy).Contents (Elt F) → (⟨S4096x32x32, .f32⟩ : BufTy).Contents (Elt F) → (⟨S4096x32x32, .f32⟩ : BufTy).Contents (Elt F)),
    StableHlo.unary main_v78 main_v79 (Host.absf : (⟨S4096x32x32, .f32⟩ : BufTy).Contents (Elt F) → (⟨S4096x32x32, .f32⟩ : BufTy).Contents (Elt F)),
    StableHlo.nullary main_cst_17 (constant S_ .f32 0x00000000#32),
    StableHlo.binary main_v79 main_cst_17 main_v80 ((fun x v => Host.reduceAdd x v reducesTo_S4096x32x32_S4096x32_d2 h_S_) : (⟨S4096x32x32, .f32⟩ : BufTy).Contents (Elt F) → (⟨S_, .f32⟩ : BufTy).Contents (Elt F) → (⟨S4096x32, .f32⟩ : BufTy).Contents (Elt F)),
    StableHlo.unary main_v80 main_v81 (broadcastInDim S4096x32x1 ![0, 1] bcast_S4096x32_S4096x32x1_0_1 : (⟨S4096x32, .f32⟩ : BufTy).Contents (Elt F) → (⟨S4096x32x1, .f32⟩ : BufTy).Contents (Elt F)),
    StableHlo.nullary main_cst_18 (constant S_ .f32 0x322BCC77#32),
    StableHlo.unary main_cst_18 main_v82 (broadcastInDim S4096x32x1 ![] bcast_S_S4096x32x1 : (⟨S_, .f32⟩ : BufTy).Contents (Elt F) → (⟨S4096x32x1, .f32⟩ : BufTy).Contents (Elt F)),
    StableHlo.binary main_v81 main_v82 main_v83 (maximumf : (⟨S4096x32x1, .f32⟩ : BufTy).Contents (Elt F) → (⟨S4096x32x1, .f32⟩ : BufTy).Contents (Elt F) → (⟨S4096x32x1, .f32⟩ : BufTy).Contents (Elt F)),
    StableHlo.unary main_v83 main_v84 (broadcastInDim S4096x32x32 ![0, 1, 2] bcast_S4096x32x1_S4096x32x32_0_1_2 : (⟨S4096x32x1, .f32⟩ : BufTy).Contents (Elt F) → (⟨S4096x32x32, .f32⟩ : BufTy).Contents (Elt F)),
    StableHlo.binary main_v78 main_v84 main_v85 (Host.divf : (⟨S4096x32x32, .f32⟩ : BufTy).Contents (Elt F) → (⟨S4096x32x32, .f32⟩ : BufTy).Contents (Elt F) → (⟨S4096x32x32, .f32⟩ : BufTy).Contents (Elt F)) ]

abbrev s4 : List (HloOp τ sig (Elt F)) :=
  [ StableHlo.unary main_v85 main_v86 (Host.absf : (⟨S4096x32x32, .f32⟩ : BufTy).Contents (Elt F) → (⟨S4096x32x32, .f32⟩ : BufTy).Contents (Elt F)),
    StableHlo.nullary main_cst_19 (constant S_ .f32 0x00000000#32),
    StableHlo.binary main_v86 main_cst_19 main_v87 ((fun x v => Host.reduceAdd x v reducesTo_S4096x32x32_S4096x32_d1 h_S_) : (⟨S4096x32x32, .f32⟩ : BufTy).Contents (Elt F) → (⟨S_, .f32⟩ : BufTy).Contents (Elt F) → (⟨S4096x32, .f32⟩ : BufTy).Contents (Elt F)),
    StableHlo.unary main_v87 main_v88 (broadcastInDim S4096x1x32 ![0, 2] bcast_S4096x32_S4096x1x32_0_2 : (⟨S4096x32, .f32⟩ : BufTy).Contents (Elt F) → (⟨S4096x1x32, .f32⟩ : BufTy).Contents (Elt F)),
    StableHlo.nullary main_cst_20 (constant S_ .f32 0x322BCC77#32),
    StableHlo.unary main_cst_20 main_v89 (broadcastInDim S4096x1x32 ![] bcast_S_S4096x1x32 : (⟨S_, .f32⟩ : BufTy).Contents (Elt F) → (⟨S4096x1x32, .f32⟩ : BufTy).Contents (Elt F)),
    StableHlo.binary main_v88 main_v89 main_v90 (maximumf : (⟨S4096x1x32, .f32⟩ : BufTy).Contents (Elt F) → (⟨S4096x1x32, .f32⟩ : BufTy).Contents (Elt F) → (⟨S4096x1x32, .f32⟩ : BufTy).Contents (Elt F)),
    StableHlo.unary main_v90 main_v91 (broadcastInDim S4096x32x32 ![0, 1, 2] bcast_S4096x1x32_S4096x32x32_0_1_2 : (⟨S4096x1x32, .f32⟩ : BufTy).Contents (Elt F) → (⟨S4096x32x32, .f32⟩ : BufTy).Contents (Elt F)),
    StableHlo.binary main_v85 main_v91 main_v92 (Host.divf : (⟨S4096x32x32, .f32⟩ : BufTy).Contents (Elt F) → (⟨S4096x32x32, .f32⟩ : BufTy).Contents (Elt F) → (⟨S4096x32x32, .f32⟩ : BufTy).Contents (Elt F)),
    StableHlo.unary main_v92 main_v93 (Host.absf : (⟨S4096x32x32, .f32⟩ : BufTy).Contents (Elt F) → (⟨S4096x32x32, .f32⟩ : BufTy).Contents (Elt F)),
    StableHlo.nullary main_cst_21 (constant S_ .f32 0x00000000#32),
    StableHlo.binary main_v93 main_cst_21 main_v94 ((fun x v => Host.reduceAdd x v reducesTo_S4096x32x32_S4096x32_d2 h_S_) : (⟨S4096x32x32, .f32⟩ : BufTy).Contents (Elt F) → (⟨S_, .f32⟩ : BufTy).Contents (Elt F) → (⟨S4096x32, .f32⟩ : BufTy).Contents (Elt F)),
    StableHlo.unary main_v94 main_v95 (broadcastInDim S4096x32x1 ![0, 1] bcast_S4096x32_S4096x32x1_0_1 : (⟨S4096x32, .f32⟩ : BufTy).Contents (Elt F) → (⟨S4096x32x1, .f32⟩ : BufTy).Contents (Elt F)),
    StableHlo.nullary main_cst_22 (constant S_ .f32 0x322BCC77#32),
    StableHlo.unary main_cst_22 main_v96 (broadcastInDim S4096x32x1 ![] bcast_S_S4096x32x1 : (⟨S_, .f32⟩ : BufTy).Contents (Elt F) → (⟨S4096x32x1, .f32⟩ : BufTy).Contents (Elt F)),
    StableHlo.binary main_v95 main_v96 main_v97 (maximumf : (⟨S4096x32x1, .f32⟩ : BufTy).Contents (Elt F) → (⟨S4096x32x1, .f32⟩ : BufTy).Contents (Elt F) → (⟨S4096x32x1, .f32⟩ : BufTy).Contents (Elt F)),
    StableHlo.unary main_v97 main_v98 (broadcastInDim S4096x32x32 ![0, 1, 2] bcast_S4096x32x1_S4096x32x32_0_1_2 : (⟨S4096x32x1, .f32⟩ : BufTy).Contents (Elt F) → (⟨S4096x32x32, .f32⟩ : BufTy).Contents (Elt F)),
    StableHlo.binary main_v92 main_v98 main_v99 (Host.divf : (⟨S4096x32x32, .f32⟩ : BufTy).Contents (Elt F) → (⟨S4096x32x32, .f32⟩ : BufTy).Contents (Elt F) → (⟨S4096x32x32, .f32⟩ : BufTy).Contents (Elt F)) ]

abbrev s5 : List (HloOp τ sig (Elt F)) :=
  [ StableHlo.unary main_v99 main_v100 (Host.absf : (⟨S4096x32x32, .f32⟩ : BufTy).Contents (Elt F) → (⟨S4096x32x32, .f32⟩ : BufTy).Contents (Elt F)),
    StableHlo.nullary main_cst_23 (constant S_ .f32 0x00000000#32),
    StableHlo.binary main_v100 main_cst_23 main_v101 ((fun x v => Host.reduceAdd x v reducesTo_S4096x32x32_S4096x32_d1 h_S_) : (⟨S4096x32x32, .f32⟩ : BufTy).Contents (Elt F) → (⟨S_, .f32⟩ : BufTy).Contents (Elt F) → (⟨S4096x32, .f32⟩ : BufTy).Contents (Elt F)),
    StableHlo.unary main_v101 main_v102 (broadcastInDim S4096x1x32 ![0, 2] bcast_S4096x32_S4096x1x32_0_2 : (⟨S4096x32, .f32⟩ : BufTy).Contents (Elt F) → (⟨S4096x1x32, .f32⟩ : BufTy).Contents (Elt F)),
    StableHlo.nullary main_cst_24 (constant S_ .f32 0x322BCC77#32),
    StableHlo.unary main_cst_24 main_v103 (broadcastInDim S4096x1x32 ![] bcast_S_S4096x1x32 : (⟨S_, .f32⟩ : BufTy).Contents (Elt F) → (⟨S4096x1x32, .f32⟩ : BufTy).Contents (Elt F)),
    StableHlo.binary main_v102 main_v103 main_v104 (maximumf : (⟨S4096x1x32, .f32⟩ : BufTy).Contents (Elt F) → (⟨S4096x1x32, .f32⟩ : BufTy).Contents (Elt F) → (⟨S4096x1x32, .f32⟩ : BufTy).Contents (Elt F)),
    StableHlo.unary main_v104 main_v105 (broadcastInDim S4096x32x32 ![0, 1, 2] bcast_S4096x1x32_S4096x32x32_0_1_2 : (⟨S4096x1x32, .f32⟩ : BufTy).Contents (Elt F) → (⟨S4096x32x32, .f32⟩ : BufTy).Contents (Elt F)),
    StableHlo.binary main_v99 main_v105 main_v106 (Host.divf : (⟨S4096x32x32, .f32⟩ : BufTy).Contents (Elt F) → (⟨S4096x32x32, .f32⟩ : BufTy).Contents (Elt F) → (⟨S4096x32x32, .f32⟩ : BufTy).Contents (Elt F)),
    StableHlo.unary main_v106 main_v107 (Host.absf : (⟨S4096x32x32, .f32⟩ : BufTy).Contents (Elt F) → (⟨S4096x32x32, .f32⟩ : BufTy).Contents (Elt F)),
    StableHlo.nullary main_cst_25 (constant S_ .f32 0x00000000#32),
    StableHlo.binary main_v107 main_cst_25 main_v108 ((fun x v => Host.reduceAdd x v reducesTo_S4096x32x32_S4096x32_d2 h_S_) : (⟨S4096x32x32, .f32⟩ : BufTy).Contents (Elt F) → (⟨S_, .f32⟩ : BufTy).Contents (Elt F) → (⟨S4096x32, .f32⟩ : BufTy).Contents (Elt F)),
    StableHlo.unary main_v108 main_v109 (broadcastInDim S4096x32x1 ![0, 1] bcast_S4096x32_S4096x32x1_0_1 : (⟨S4096x32, .f32⟩ : BufTy).Contents (Elt F) → (⟨S4096x32x1, .f32⟩ : BufTy).Contents (Elt F)),
    StableHlo.nullary main_cst_26 (constant S_ .f32 0x322BCC77#32),
    StableHlo.unary main_cst_26 main_v110 (broadcastInDim S4096x32x1 ![] bcast_S_S4096x32x1 : (⟨S_, .f32⟩ : BufTy).Contents (Elt F) → (⟨S4096x32x1, .f32⟩ : BufTy).Contents (Elt F)),
    StableHlo.binary main_v109 main_v110 main_v111 (maximumf : (⟨S4096x32x1, .f32⟩ : BufTy).Contents (Elt F) → (⟨S4096x32x1, .f32⟩ : BufTy).Contents (Elt F) → (⟨S4096x32x1, .f32⟩ : BufTy).Contents (Elt F)),
    StableHlo.unary main_v111 main_v112 (broadcastInDim S4096x32x32 ![0, 1, 2] bcast_S4096x32x1_S4096x32x32_0_1_2 : (⟨S4096x32x1, .f32⟩ : BufTy).Contents (Elt F) → (⟨S4096x32x32, .f32⟩ : BufTy).Contents (Elt F)),
    StableHlo.binary main_v106 main_v112 main_v113 (Host.divf : (⟨S4096x32x32, .f32⟩ : BufTy).Contents (Elt F) → (⟨S4096x32x32, .f32⟩ : BufTy).Contents (Elt F) → (⟨S4096x32x32, .f32⟩ : BufTy).Contents (Elt F)) ]

abbrev s6 : List (HloOp τ sig (Elt F)) :=
  [ StableHlo.unary main_v113 main_v114 (Host.absf : (⟨S4096x32x32, .f32⟩ : BufTy).Contents (Elt F) → (⟨S4096x32x32, .f32⟩ : BufTy).Contents (Elt F)),
    StableHlo.nullary main_cst_27 (constant S_ .f32 0x00000000#32),
    StableHlo.binary main_v114 main_cst_27 main_v115 ((fun x v => Host.reduceAdd x v reducesTo_S4096x32x32_S4096x32_d1 h_S_) : (⟨S4096x32x32, .f32⟩ : BufTy).Contents (Elt F) → (⟨S_, .f32⟩ : BufTy).Contents (Elt F) → (⟨S4096x32, .f32⟩ : BufTy).Contents (Elt F)),
    StableHlo.unary main_v115 main_v116 (broadcastInDim S4096x1x32 ![0, 2] bcast_S4096x32_S4096x1x32_0_2 : (⟨S4096x32, .f32⟩ : BufTy).Contents (Elt F) → (⟨S4096x1x32, .f32⟩ : BufTy).Contents (Elt F)),
    StableHlo.nullary main_cst_28 (constant S_ .f32 0x322BCC77#32),
    StableHlo.unary main_cst_28 main_v117 (broadcastInDim S4096x1x32 ![] bcast_S_S4096x1x32 : (⟨S_, .f32⟩ : BufTy).Contents (Elt F) → (⟨S4096x1x32, .f32⟩ : BufTy).Contents (Elt F)),
    StableHlo.binary main_v116 main_v117 main_v118 (maximumf : (⟨S4096x1x32, .f32⟩ : BufTy).Contents (Elt F) → (⟨S4096x1x32, .f32⟩ : BufTy).Contents (Elt F) → (⟨S4096x1x32, .f32⟩ : BufTy).Contents (Elt F)),
    StableHlo.unary main_v118 main_v119 (broadcastInDim S4096x32x32 ![0, 1, 2] bcast_S4096x1x32_S4096x32x32_0_1_2 : (⟨S4096x1x32, .f32⟩ : BufTy).Contents (Elt F) → (⟨S4096x32x32, .f32⟩ : BufTy).Contents (Elt F)),
    StableHlo.binary main_v113 main_v119 main_v120 (Host.divf : (⟨S4096x32x32, .f32⟩ : BufTy).Contents (Elt F) → (⟨S4096x32x32, .f32⟩ : BufTy).Contents (Elt F) → (⟨S4096x32x32, .f32⟩ : BufTy).Contents (Elt F)),
    StableHlo.unary main_v120 main_v121 (Host.absf : (⟨S4096x32x32, .f32⟩ : BufTy).Contents (Elt F) → (⟨S4096x32x32, .f32⟩ : BufTy).Contents (Elt F)),
    StableHlo.nullary main_cst_29 (constant S_ .f32 0x00000000#32),
    StableHlo.binary main_v121 main_cst_29 main_v122 ((fun x v => Host.reduceAdd x v reducesTo_S4096x32x32_S4096x32_d2 h_S_) : (⟨S4096x32x32, .f32⟩ : BufTy).Contents (Elt F) → (⟨S_, .f32⟩ : BufTy).Contents (Elt F) → (⟨S4096x32, .f32⟩ : BufTy).Contents (Elt F)),
    StableHlo.unary main_v122 main_v123 (broadcastInDim S4096x32x1 ![0, 1] bcast_S4096x32_S4096x32x1_0_1 : (⟨S4096x32, .f32⟩ : BufTy).Contents (Elt F) → (⟨S4096x32x1, .f32⟩ : BufTy).Contents (Elt F)),
    StableHlo.nullary main_cst_30 (constant S_ .f32 0x322BCC77#32),
    StableHlo.unary main_cst_30 main_v124 (broadcastInDim S4096x32x1 ![] bcast_S_S4096x32x1 : (⟨S_, .f32⟩ : BufTy).Contents (Elt F) → (⟨S4096x32x1, .f32⟩ : BufTy).Contents (Elt F)),
    StableHlo.binary main_v123 main_v124 main_v125 (maximumf : (⟨S4096x32x1, .f32⟩ : BufTy).Contents (Elt F) → (⟨S4096x32x1, .f32⟩ : BufTy).Contents (Elt F) → (⟨S4096x32x1, .f32⟩ : BufTy).Contents (Elt F)),
    StableHlo.unary main_v125 main_v126 (broadcastInDim S4096x32x32 ![0, 1, 2] bcast_S4096x32x1_S4096x32x32_0_1_2 : (⟨S4096x32x1, .f32⟩ : BufTy).Contents (Elt F) → (⟨S4096x32x32, .f32⟩ : BufTy).Contents (Elt F)),
    StableHlo.binary main_v120 main_v126 main_v127 (Host.divf : (⟨S4096x32x32, .f32⟩ : BufTy).Contents (Elt F) → (⟨S4096x32x32, .f32⟩ : BufTy).Contents (Elt F) → (⟨S4096x32x32, .f32⟩ : BufTy).Contents (Elt F)) ]

abbrev s7 : List (HloOp τ sig (Elt F)) :=
  [ StableHlo.unary main_v127 main_v128 (Host.absf : (⟨S4096x32x32, .f32⟩ : BufTy).Contents (Elt F) → (⟨S4096x32x32, .f32⟩ : BufTy).Contents (Elt F)),
    StableHlo.nullary main_cst_31 (constant S_ .f32 0x00000000#32),
    StableHlo.binary main_v128 main_cst_31 main_v129 ((fun x v => Host.reduceAdd x v reducesTo_S4096x32x32_S4096x32_d1 h_S_) : (⟨S4096x32x32, .f32⟩ : BufTy).Contents (Elt F) → (⟨S_, .f32⟩ : BufTy).Contents (Elt F) → (⟨S4096x32, .f32⟩ : BufTy).Contents (Elt F)),
    StableHlo.unary main_v129 main_v130 (broadcastInDim S4096x1x32 ![0, 2] bcast_S4096x32_S4096x1x32_0_2 : (⟨S4096x32, .f32⟩ : BufTy).Contents (Elt F) → (⟨S4096x1x32, .f32⟩ : BufTy).Contents (Elt F)),
    StableHlo.nullary main_cst_32 (constant S_ .f32 0x322BCC77#32),
    StableHlo.unary main_cst_32 main_v131 (broadcastInDim S4096x1x32 ![] bcast_S_S4096x1x32 : (⟨S_, .f32⟩ : BufTy).Contents (Elt F) → (⟨S4096x1x32, .f32⟩ : BufTy).Contents (Elt F)),
    StableHlo.binary main_v130 main_v131 main_v132 (maximumf : (⟨S4096x1x32, .f32⟩ : BufTy).Contents (Elt F) → (⟨S4096x1x32, .f32⟩ : BufTy).Contents (Elt F) → (⟨S4096x1x32, .f32⟩ : BufTy).Contents (Elt F)),
    StableHlo.unary main_v132 main_v133 (broadcastInDim S4096x32x32 ![0, 1, 2] bcast_S4096x1x32_S4096x32x32_0_1_2 : (⟨S4096x1x32, .f32⟩ : BufTy).Contents (Elt F) → (⟨S4096x32x32, .f32⟩ : BufTy).Contents (Elt F)),
    StableHlo.binary main_v127 main_v133 main_v134 (Host.divf : (⟨S4096x32x32, .f32⟩ : BufTy).Contents (Elt F) → (⟨S4096x32x32, .f32⟩ : BufTy).Contents (Elt F) → (⟨S4096x32x32, .f32⟩ : BufTy).Contents (Elt F)),
    StableHlo.unary main_v134 main_v135 (Host.absf : (⟨S4096x32x32, .f32⟩ : BufTy).Contents (Elt F) → (⟨S4096x32x32, .f32⟩ : BufTy).Contents (Elt F)),
    StableHlo.nullary main_cst_33 (constant S_ .f32 0x00000000#32),
    StableHlo.binary main_v135 main_cst_33 main_v136 ((fun x v => Host.reduceAdd x v reducesTo_S4096x32x32_S4096x32_d2 h_S_) : (⟨S4096x32x32, .f32⟩ : BufTy).Contents (Elt F) → (⟨S_, .f32⟩ : BufTy).Contents (Elt F) → (⟨S4096x32, .f32⟩ : BufTy).Contents (Elt F)),
    StableHlo.unary main_v136 main_v137 (broadcastInDim S4096x32x1 ![0, 1] bcast_S4096x32_S4096x32x1_0_1 : (⟨S4096x32, .f32⟩ : BufTy).Contents (Elt F) → (⟨S4096x32x1, .f32⟩ : BufTy).Contents (Elt F)),
    StableHlo.nullary main_cst_34 (constant S_ .f32 0x322BCC77#32),
    StableHlo.unary main_cst_34 main_v138 (broadcastInDim S4096x32x1 ![] bcast_S_S4096x32x1 : (⟨S_, .f32⟩ : BufTy).Contents (Elt F) → (⟨S4096x32x1, .f32⟩ : BufTy).Contents (Elt F)),
    StableHlo.binary main_v137 main_v138 main_v139 (maximumf : (⟨S4096x32x1, .f32⟩ : BufTy).Contents (Elt F) → (⟨S4096x32x1, .f32⟩ : BufTy).Contents (Elt F) → (⟨S4096x32x1, .f32⟩ : BufTy).Contents (Elt F)),
    StableHlo.unary main_v139 main_v140 (broadcastInDim S4096x32x32 ![0, 1, 2] bcast_S4096x32x1_S4096x32x32_0_1_2 : (⟨S4096x32x1, .f32⟩ : BufTy).Contents (Elt F) → (⟨S4096x32x32, .f32⟩ : BufTy).Contents (Elt F)),
    StableHlo.binary main_v134 main_v140 main_v141 (Host.divf : (⟨S4096x32x32, .f32⟩ : BufTy).Contents (Elt F) → (⟨S4096x32x32, .f32⟩ : BufTy).Contents (Elt F) → (⟨S4096x32x32, .f32⟩ : BufTy).Contents (Elt F)) ]

abbrev s8 : List (HloOp τ sig (Elt F)) :=
  [ StableHlo.unary main_v141 main_v142 (Host.absf : (⟨S4096x32x32, .f32⟩ : BufTy).Contents (Elt F) → (⟨S4096x32x32, .f32⟩ : BufTy).Contents (Elt F)),
    StableHlo.nullary main_cst_35 (constant S_ .f32 0x00000000#32),
    StableHlo.binary main_v142 main_cst_35 main_v143 ((fun x v => Host.reduceAdd x v reducesTo_S4096x32x32_S4096x32_d1 h_S_) : (⟨S4096x32x32, .f32⟩ : BufTy).Contents (Elt F) → (⟨S_, .f32⟩ : BufTy).Contents (Elt F) → (⟨S4096x32, .f32⟩ : BufTy).Contents (Elt F)),
    StableHlo.unary main_v143 main_v144 (broadcastInDim S4096x1x32 ![0, 2] bcast_S4096x32_S4096x1x32_0_2 : (⟨S4096x32, .f32⟩ : BufTy).Contents (Elt F) → (⟨S4096x1x32, .f32⟩ : BufTy).Contents (Elt F)),
    StableHlo.nullary main_cst_36 (constant S_ .f32 0x322BCC77#32),
    StableHlo.unary main_cst_36 main_v145 (broadcastInDim S4096x1x32 ![] bcast_S_S4096x1x32 : (⟨S_, .f32⟩ : BufTy).Contents (Elt F) → (⟨S4096x1x32, .f32⟩ : BufTy).Contents (Elt F)),
    StableHlo.binary main_v144 main_v145 main_v146 (maximumf : (⟨S4096x1x32, .f32⟩ : BufTy).Contents (Elt F) → (⟨S4096x1x32, .f32⟩ : BufTy).Contents (Elt F) → (⟨S4096x1x32, .f32⟩ : BufTy).Contents (Elt F)),
    StableHlo.unary main_v146 main_v147 (broadcastInDim S4096x32x32 ![0, 1, 2] bcast_S4096x1x32_S4096x32x32_0_1_2 : (⟨S4096x1x32, .f32⟩ : BufTy).Contents (Elt F) → (⟨S4096x32x32, .f32⟩ : BufTy).Contents (Elt F)),
    StableHlo.binary main_v141 main_v147 main_v148 (Host.divf : (⟨S4096x32x32, .f32⟩ : BufTy).Contents (Elt F) → (⟨S4096x32x32, .f32⟩ : BufTy).Contents (Elt F) → (⟨S4096x32x32, .f32⟩ : BufTy).Contents (Elt F)),
    StableHlo.unary main_v148 main_v149 (Host.absf : (⟨S4096x32x32, .f32⟩ : BufTy).Contents (Elt F) → (⟨S4096x32x32, .f32⟩ : BufTy).Contents (Elt F)),
    StableHlo.nullary main_cst_37 (constant S_ .f32 0x00000000#32),
    StableHlo.binary main_v149 main_cst_37 main_v150 ((fun x v => Host.reduceAdd x v reducesTo_S4096x32x32_S4096x32_d2 h_S_) : (⟨S4096x32x32, .f32⟩ : BufTy).Contents (Elt F) → (⟨S_, .f32⟩ : BufTy).Contents (Elt F) → (⟨S4096x32, .f32⟩ : BufTy).Contents (Elt F)),
    StableHlo.unary main_v150 main_v151 (broadcastInDim S4096x32x1 ![0, 1] bcast_S4096x32_S4096x32x1_0_1 : (⟨S4096x32, .f32⟩ : BufTy).Contents (Elt F) → (⟨S4096x32x1, .f32⟩ : BufTy).Contents (Elt F)),
    StableHlo.nullary main_cst_38 (constant S_ .f32 0x322BCC77#32),
    StableHlo.unary main_cst_38 main_v152 (broadcastInDim S4096x32x1 ![] bcast_S_S4096x32x1 : (⟨S_, .f32⟩ : BufTy).Contents (Elt F) → (⟨S4096x32x1, .f32⟩ : BufTy).Contents (Elt F)),
    StableHlo.binary main_v151 main_v152 main_v153 (maximumf : (⟨S4096x32x1, .f32⟩ : BufTy).Contents (Elt F) → (⟨S4096x32x1, .f32⟩ : BufTy).Contents (Elt F) → (⟨S4096x32x1, .f32⟩ : BufTy).Contents (Elt F)),
    StableHlo.unary main_v153 main_v154 (broadcastInDim S4096x32x32 ![0, 1, 2] bcast_S4096x32x1_S4096x32x32_0_1_2 : (⟨S4096x32x1, .f32⟩ : BufTy).Contents (Elt F) → (⟨S4096x32x32, .f32⟩ : BufTy).Contents (Elt F)),
    StableHlo.binary main_v148 main_v154 main_v155 (Host.divf : (⟨S4096x32x32, .f32⟩ : BufTy).Contents (Elt F) → (⟨S4096x32x32, .f32⟩ : BufTy).Contents (Elt F) → (⟨S4096x32x32, .f32⟩ : BufTy).Contents (Elt F)) ]

abbrev s9 : List (HloOp τ sig (Elt F)) :=
  [ StableHlo.unary main_v155 main_v156 (Host.absf : (⟨S4096x32x32, .f32⟩ : BufTy).Contents (Elt F) → (⟨S4096x32x32, .f32⟩ : BufTy).Contents (Elt F)),
    StableHlo.nullary main_cst_39 (constant S_ .f32 0x00000000#32),
    StableHlo.binary main_v156 main_cst_39 main_v157 ((fun x v => Host.reduceAdd x v reducesTo_S4096x32x32_S4096x32_d1 h_S_) : (⟨S4096x32x32, .f32⟩ : BufTy).Contents (Elt F) → (⟨S_, .f32⟩ : BufTy).Contents (Elt F) → (⟨S4096x32, .f32⟩ : BufTy).Contents (Elt F)),
    StableHlo.unary main_v157 main_v158 (broadcastInDim S4096x1x32 ![0, 2] bcast_S4096x32_S4096x1x32_0_2 : (⟨S4096x32, .f32⟩ : BufTy).Contents (Elt F) → (⟨S4096x1x32, .f32⟩ : BufTy).Contents (Elt F)),
    StableHlo.nullary main_cst_40 (constant S_ .f32 0x322BCC77#32),
    StableHlo.unary main_cst_40 main_v159 (broadcastInDim S4096x1x32 ![] bcast_S_S4096x1x32 : (⟨S_, .f32⟩ : BufTy).Contents (Elt F) → (⟨S4096x1x32, .f32⟩ : BufTy).Contents (Elt F)),
    StableHlo.binary main_v158 main_v159 main_v160 (maximumf : (⟨S4096x1x32, .f32⟩ : BufTy).Contents (Elt F) → (⟨S4096x1x32, .f32⟩ : BufTy).Contents (Elt F) → (⟨S4096x1x32, .f32⟩ : BufTy).Contents (Elt F)),
    StableHlo.unary main_v160 main_v161 (broadcastInDim S4096x32x32 ![0, 1, 2] bcast_S4096x1x32_S4096x32x32_0_1_2 : (⟨S4096x1x32, .f32⟩ : BufTy).Contents (Elt F) → (⟨S4096x32x32, .f32⟩ : BufTy).Contents (Elt F)),
    StableHlo.binary main_v155 main_v161 main_v162 (Host.divf : (⟨S4096x32x32, .f32⟩ : BufTy).Contents (Elt F) → (⟨S4096x32x32, .f32⟩ : BufTy).Contents (Elt F) → (⟨S4096x32x32, .f32⟩ : BufTy).Contents (Elt F)),
    StableHlo.unary main_v162 main_v163 (Host.absf : (⟨S4096x32x32, .f32⟩ : BufTy).Contents (Elt F) → (⟨S4096x32x32, .f32⟩ : BufTy).Contents (Elt F)),
    StableHlo.nullary main_cst_41 (constant S_ .f32 0x00000000#32),
    StableHlo.binary main_v163 main_cst_41 main_v164 ((fun x v => Host.reduceAdd x v reducesTo_S4096x32x32_S4096x32_d2 h_S_) : (⟨S4096x32x32, .f32⟩ : BufTy).Contents (Elt F) → (⟨S_, .f32⟩ : BufTy).Contents (Elt F) → (⟨S4096x32, .f32⟩ : BufTy).Contents (Elt F)),
    StableHlo.unary main_v164 main_v165 (broadcastInDim S4096x32x1 ![0, 1] bcast_S4096x32_S4096x32x1_0_1 : (⟨S4096x32, .f32⟩ : BufTy).Contents (Elt F) → (⟨S4096x32x1, .f32⟩ : BufTy).Contents (Elt F)),
    StableHlo.nullary main_cst_42 (constant S_ .f32 0x322BCC77#32),
    StableHlo.unary main_cst_42 main_v166 (broadcastInDim S4096x32x1 ![] bcast_S_S4096x32x1 : (⟨S_, .f32⟩ : BufTy).Contents (Elt F) → (⟨S4096x32x1, .f32⟩ : BufTy).Contents (Elt F)),
    StableHlo.binary main_v165 main_v166 main_v167 (maximumf : (⟨S4096x32x1, .f32⟩ : BufTy).Contents (Elt F) → (⟨S4096x32x1, .f32⟩ : BufTy).Contents (Elt F) → (⟨S4096x32x1, .f32⟩ : BufTy).Contents (Elt F)),
    StableHlo.unary main_v167 main_v168 (broadcastInDim S4096x32x32 ![0, 1, 2] bcast_S4096x32x1_S4096x32x32_0_1_2 : (⟨S4096x32x1, .f32⟩ : BufTy).Contents (Elt F) → (⟨S4096x32x32, .f32⟩ : BufTy).Contents (Elt F)),
    StableHlo.binary main_v162 main_v168 main_v169 (Host.divf : (⟨S4096x32x32, .f32⟩ : BufTy).Contents (Elt F) → (⟨S4096x32x32, .f32⟩ : BufTy).Contents (Elt F) → (⟨S4096x32x32, .f32⟩ : BufTy).Contents (Elt F)) ]

/-- @main's operations, in order: the stretches one after the other (nested to the right, so that the head of the line is the head of its first stretch). -/
abbrev ops : List (HloOp τ sig (Elt F)) :=
  c0 ++ (c1 ++ (c2 ++ (c3 ++ (c4 ++ (c5 ++ (c6 ++ (s0 ++ (s1 ++ (s2 ++ (s3 ++ (s4 ++ (s5 ++ (s6 ++ (s7 ++ (s8 ++ (s9))))))))))))))))

end Cert.ReferenceIdeal.RefRun

end
-- ==== Proof.RefRunMain.lean ====
/-
  The reference's @main is the straight line of its operations: the four parts it is printed in and the bodies of the
  functions it calls unfolded, what is left on both sides is one chain of host steps once sequencing is reassociated.
  Every operation touches only TensorCore buffers and determines its result, so the run terminates with every buffer at
  the fold of the operations over the launch contents.
-/
import proofs.«133769_j86741159510411_2_alg».proof.Proof.RefRunOps

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- @main is that straight line: a line of lines is the lines in sequence, a call is its callee's body,
    and both sides are one chain of steps once the binds are reassociated. -/
theorem main_eq (c : Dev nD) : main (F := F) c = seq ops := by
  simp only [main, main_part0, main_part1, main_part2, main_part3, fn_leaky_relu.body, fn_where.body, fn_softplus.body,
    ops, seq_append, seq, bind_assoc, pure_bind]

/-! ## Every operation touches TensorCore buffers only

Stretch by stretch, one builder's lemma per operation, in order: the stacked input is two broadcasts, a concatenation
and a reshape; a hidden layer is the product, the bias's two broadcasts, the sum, the slope, and LeakyReLU's seven; the
last layer ends in a reshape; softplus is fourteen; a Sinkhorn step is twice the same nine. -/

theorem c0_sub : (c0 : List (HloOp τ sig (Elt F))).Forall fun op => op.bufs ⊆ tcRefs τ sig :=
  ⟨unary_bufs_sub .., unary_bufs_sub .., binary_bufs_sub .., reshape_bufs_sub ..⟩

theorem c1_sub : (c1 : List (HloOp τ sig (Elt F))).Forall fun op => op.bufs ⊆ tcRefs τ sig :=
  ⟨binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..⟩

theorem c2_sub : (c2 : List (HloOp τ sig (Elt F))).Forall fun op => op.bufs ⊆ tcRefs τ sig :=
  ⟨binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..⟩

theorem c3_sub : (c3 : List (HloOp τ sig (Elt F))).Forall fun op => op.bufs ⊆ tcRefs τ sig :=
  ⟨binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..⟩

theorem c4_sub : (c4 : List (HloOp τ sig (Elt F))).Forall fun op => op.bufs ⊆ tcRefs τ sig :=
  ⟨binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..⟩

theorem c5_sub : (c5 : List (HloOp τ sig (Elt F))).Forall fun op => op.bufs ⊆ tcRefs τ sig :=
  ⟨binary_bufs_sub .., unary_bufs_sub .., unary_bufs_sub .., binary_bufs_sub .., reshape_bufs_sub ..⟩

theorem c6_sub : (c6 : List (HloOp τ sig (Elt F))).Forall fun op => op.bufs ⊆ tcRefs τ sig :=
  ⟨nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub ..⟩

theorem s0_sub : (s0 : List (HloOp τ sig (Elt F))).Forall fun op => op.bufs ⊆ tcRefs τ sig :=
  ⟨unary_bufs_sub .., nullary_bufs_sub .., binary_bufs_sub .., unary_bufs_sub .., nullary_bufs_sub .., unary_bufs_sub ..,
    binary_bufs_sub .., unary_bufs_sub .., binary_bufs_sub ..,
    unary_bufs_sub .., nullary_bufs_sub .., binary_bufs_sub .., unary_bufs_sub .., nullary_bufs_sub .., unary_bufs_sub ..,
    binary_bufs_sub .., unary_bufs_sub .., binary_bufs_sub ..⟩

theorem s1_sub : (s1 : List (HloOp τ sig (Elt F))).Forall fun op => op.bufs ⊆ tcRefs τ sig :=
  ⟨unary_bufs_sub .., nullary_bufs_sub .., binary_bufs_sub .., unary_bufs_sub .., nullary_bufs_sub .., unary_bufs_sub ..,
    binary_bufs_sub .., unary_bufs_sub .., binary_bufs_sub ..,
    unary_bufs_sub .., nullary_bufs_sub .., binary_bufs_sub .., unary_bufs_sub .., nullary_bufs_sub .., unary_bufs_sub ..,
    binary_bufs_sub .., unary_bufs_sub .., binary_bufs_sub ..⟩

theorem s2_sub : (s2 : List (HloOp τ sig (Elt F))).Forall fun op => op.bufs ⊆ tcRefs τ sig :=
  ⟨unary_bufs_sub .., nullary_bufs_sub .., binary_bufs_sub .., unary_bufs_sub .., nullary_bufs_sub .., unary_bufs_sub ..,
    binary_bufs_sub .., unary_bufs_sub .., binary_bufs_sub ..,
    unary_bufs_sub .., nullary_bufs_sub .., binary_bufs_sub .., unary_bufs_sub .., nullary_bufs_sub .., unary_bufs_sub ..,
    binary_bufs_sub .., unary_bufs_sub .., binary_bufs_sub ..⟩

theorem s3_sub : (s3 : List (HloOp τ sig (Elt F))).Forall fun op => op.bufs ⊆ tcRefs τ sig :=
  ⟨unary_bufs_sub .., nullary_bufs_sub .., binary_bufs_sub .., unary_bufs_sub .., nullary_bufs_sub .., unary_bufs_sub ..,
    binary_bufs_sub .., unary_bufs_sub .., binary_bufs_sub ..,
    unary_bufs_sub .., nullary_bufs_sub .., binary_bufs_sub .., unary_bufs_sub .., nullary_bufs_sub .., unary_bufs_sub ..,
    binary_bufs_sub .., unary_bufs_sub .., binary_bufs_sub ..⟩

theorem s4_sub : (s4 : List (HloOp τ sig (Elt F))).Forall fun op => op.bufs ⊆ tcRefs τ sig :=
  ⟨unary_bufs_sub .., nullary_bufs_sub .., binary_bufs_sub .., unary_bufs_sub .., nullary_bufs_sub .., unary_bufs_sub ..,
    binary_bufs_sub .., unary_bufs_sub .., binary_bufs_sub ..,
    unary_bufs_sub .., nullary_bufs_sub .., binary_bufs_sub .., unary_bufs_sub .., nullary_bufs_sub .., unary_bufs_sub ..,
    binary_bufs_sub .., unary_bufs_sub .., binary_bufs_sub ..⟩

theorem s5_sub : (s5 : List (HloOp τ sig (Elt F))).Forall fun op => op.bufs ⊆ tcRefs τ sig :=
  ⟨unary_bufs_sub .., nullary_bufs_sub .., binary_bufs_sub .., unary_bufs_sub .., nullary_bufs_sub .., unary_bufs_sub ..,
    binary_bufs_sub .., unary_bufs_sub .., binary_bufs_sub ..,
    unary_bufs_sub .., nullary_bufs_sub .., binary_bufs_sub .., unary_bufs_sub .., nullary_bufs_sub .., unary_bufs_sub ..,
    binary_bufs_sub .., unary_bufs_sub .., binary_bufs_sub ..⟩

theorem s6_sub : (s6 : List (HloOp τ sig (Elt F))).Forall fun op => op.bufs ⊆ tcRefs τ sig :=
  ⟨unary_bufs_sub .., nullary_bufs_sub .., binary_bufs_sub .., unary_bufs_sub .., nullary_bufs_sub .., unary_bufs_sub ..,
    binary_bufs_sub .., unary_bufs_sub .., binary_bufs_sub ..,
    unary_bufs_sub .., nullary_bufs_sub .., binary_bufs_sub .., unary_bufs_sub .., nullary_bufs_sub .., unary_bufs_sub ..,
    binary_bufs_sub .., unary_bufs_sub .., binary_bufs_sub ..⟩

theorem s7_sub : (s7 : List (HloOp τ sig (Elt F))).Forall fun op => op.bufs ⊆ tcRefs τ sig :=
  ⟨unary_bufs_sub .., nullary_bufs_sub .., binary_bufs_sub .., unary_bufs_sub .., nullary_bufs_sub .., unary_bufs_sub ..,
    binary_bufs_sub .., unary_bufs_sub .., binary_bufs_sub ..,
    unary_bufs_sub .., nullary_bufs_sub .., binary_bufs_sub .., unary_bufs_sub .., nullary_bufs_sub .., unary_bufs_sub ..,
    binary_bufs_sub .., unary_bufs_sub .., binary_bufs_sub ..⟩

theorem s8_sub : (s8 : List (HloOp τ sig (Elt F))).Forall fun op => op.bufs ⊆ tcRefs τ sig :=
  ⟨unary_bufs_sub .., nullary_bufs_sub .., binary_bufs_sub .., unary_bufs_sub .., nullary_bufs_sub .., unary_bufs_sub ..,
    binary_bufs_sub .., unary_bufs_sub .., binary_bufs_sub ..,
    unary_bufs_sub .., nullary_bufs_sub .., binary_bufs_sub .., unary_bufs_sub .., nullary_bufs_sub .., unary_bufs_sub ..,
    binary_bufs_sub .., unary_bufs_sub .., binary_bufs_sub ..⟩

theorem s9_sub : (s9 : List (HloOp τ sig (Elt F))).Forall fun op => op.bufs ⊆ tcRefs τ sig :=
  ⟨unary_bufs_sub .., nullary_bufs_sub .., binary_bufs_sub .., unary_bufs_sub .., nullary_bufs_sub .., unary_bufs_sub ..,
    binary_bufs_sub .., unary_bufs_sub .., binary_bufs_sub ..,
    unary_bufs_sub .., nullary_bufs_sub .., binary_bufs_sub .., unary_bufs_sub .., nullary_bufs_sub .., unary_bufs_sub ..,
    binary_bufs_sub .., unary_bufs_sub .., binary_bufs_sub ..⟩

theorem ops_sub : (ops : List (HloOp τ sig (Elt F))).Forall fun op => op.bufs ⊆ tcRefs τ sig := by
  simp only [ops, List.forall_append, and_assoc]
  exact ⟨c0_sub, c1_sub, c2_sub, c3_sub, c4_sub, c5_sub, c6_sub, s0_sub, s1_sub, s2_sub, s3_sub, s4_sub, s5_sub, s6_sub, s7_sub,
    s8_sub, s9_sub⟩

/-! ## Every operation determines what it writes

None of the builders used allocates: the set of buffers an operation leaves undetermined is empty by definition, read
off at each position of a literal line. -/

macro "ops_fresh" : tactic =>
  `(tactic| (intro _ h; (repeat (cases h with | head => rfl | tail _ h => ?_)); exact nomatch h))

theorem c0_fresh : ∀ op ∈ (c0 : List (HloOp τ sig (Elt F))), op.fresh = ∅ := by ops_fresh
theorem c1_fresh : ∀ op ∈ (c1 : List (HloOp τ sig (Elt F))), op.fresh = ∅ := by ops_fresh
theorem c2_fresh : ∀ op ∈ (c2 : List (HloOp τ sig (Elt F))), op.fresh = ∅ := by ops_fresh
theorem c3_fresh : ∀ op ∈ (c3 : List (HloOp τ sig (Elt F))), op.fresh = ∅ := by ops_fresh
theorem c4_fresh : ∀ op ∈ (c4 : List (HloOp τ sig (Elt F))), op.fresh = ∅ := by ops_fresh
theorem c5_fresh : ∀ op ∈ (c5 : List (HloOp τ sig (Elt F))), op.fresh = ∅ := by ops_fresh
theorem c6_fresh : ∀ op ∈ (c6 : List (HloOp τ sig (Elt F))), op.fresh = ∅ := by ops_fresh
theorem s0_fresh : ∀ op ∈ (s0 : List (HloOp τ sig (Elt F))), op.fresh = ∅ := by ops_fresh
theorem s1_fresh : ∀ op ∈ (s1 : List (HloOp τ sig (Elt F))), op.fresh = ∅ := by ops_fresh
theorem s2_fresh : ∀ op ∈ (s2 : List (HloOp τ sig (Elt F))), op.fresh = ∅ := by ops_fresh
theorem s3_fresh : ∀ op ∈ (s3 : List (HloOp τ sig (Elt F))), op.fresh = ∅ := by ops_fresh
theorem s4_fresh : ∀ op ∈ (s4 : List (HloOp τ sig (Elt F))), op.fresh = ∅ := by ops_fresh
theorem s5_fresh : ∀ op ∈ (s5 : List (HloOp τ sig (Elt F))), op.fresh = ∅ := by ops_fresh
theorem s6_fresh : ∀ op ∈ (s6 : List (HloOp τ sig (Elt F))), op.fresh = ∅ := by ops_fresh
theorem s7_fresh : ∀ op ∈ (s7 : List (HloOp τ sig (Elt F))), op.fresh = ∅ := by ops_fresh
theorem s8_fresh : ∀ op ∈ (s8 : List (HloOp τ sig (Elt F))), op.fresh = ∅ := by ops_fresh
theorem s9_fresh : ∀ op ∈ (s9 : List (HloOp τ sig (Elt F))), op.fresh = ∅ := by ops_fresh

theorem ops_fresh_all : ∀ op ∈ (ops : List (HloOp τ sig (Elt F))), op.fresh = ∅ := by
  simp only [ops, List.forall_mem_append, and_assoc]
  exact ⟨c0_fresh, c1_fresh, c2_fresh, c3_fresh, c4_fresh, c5_fresh, c6_fresh, s0_fresh, s1_fresh, s2_fresh, s3_fresh, s4_fresh,
    s5_fresh, s6_fresh, s7_fresh, s8_fresh, s9_fresh⟩

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh_all)

end Cert.ReferenceIdeal.RefRun

end
-- ==== Proof.RefFns.lean ====
/-
  The reference's host operations grouped into whole-array functions, each the composition of the printed operations of
  one stretch of @main, spelt exactly as they are printed: the stacked input, one hidden layer (a dot_general over
  the shared axis, the bias broadcast along the rows, LeakyReLU as compare / multiply / select), the last affine layer,
  softplus on the [4096, 32, 32] view, and the two halves of a Sinkhorn step (the sum of absolute values over axis 1,
  resp. axis 2, kept as a unit axis, floored at ε, broadcast back and divided into the array).
-/
import proofs.«133769_j86741159510411_2_alg».proof.ReferenceIdeal

noncomputable section

namespace Cert.ReferenceIdeal.RefFns

open Cert.ReferenceIdeal Idealize.ShloMosaic

variable {F : FTy → Type} [FloatOps F] [Facts]
open Facts₀ Facts

/-- `p` and `q` stacked on a new last axis and flattened to rows of 2048. -/
def xH (p q : FVec F S4096x32x32 .f32) : FVec F S4096x2048 .f32 :=
  shapeCast S4096x2048
    (concatenate S4096x32x32x2 3
      [⟨S4096x32x32x1, broadcastInDim S4096x32x32x1 ![0, 1, 2] bcast_S4096x32x32_S4096x32x32x1_0_1_2 p⟩,
       ⟨S4096x32x32x1, broadcastInDim S4096x32x32x1 ![0, 1, 2] bcast_S4096x32x32_S4096x32x32x1_0_1_2 q⟩]
      concatenates_S4096x32x32x1_S4096x32x32x1_S4096x32x32x2_d3)
    shapeCasts_S4096x32x32x2_S4096x2048

/-- LeakyReLU on a [4096, 2048] array, as @leaky_relu and its @_where print it. -/
def leakyH (x : FVec F S4096x2048 .f32) : FVec F S4096x2048 .f32 :=
  select (cmpf .oge x (broadcastInDim S4096x2048 ![] bcast_S_S4096x2048 (constant S_ .f32 0x00000000#32)))
    x (mulf (broadcastInDim S4096x2048 ![] bcast_S_S4096x2048 (id (constant S_ .f32 0x3C23D70A#32))) x)

/-- The affine part of a hidden layer. -/
def affH (h : FVec F S4096x2048 .f32) (W : FVec F S2048x2048 .f32) (b : FVec F S2048 .f32) : FVec F S4096x2048 .f32 :=
  addf (Host.dotGeneral dot_S4096x2048_S2048x2048_S4096x2048_1_0_0_1_n_n none h W)
    (broadcastInDim S4096x2048 ![0, 1] bcast_S1x2048_S4096x2048_0_1 (broadcastInDim S1x2048 ![1] bcast_S2048_S1x2048_1 b))

/-- One hidden layer. -/
def hiddenH (h : FVec F S4096x2048 .f32) (W : FVec F S2048x2048 .f32) (b : FVec F S2048 .f32) : FVec F S4096x2048 .f32 :=
  leakyH (affH h W b)

/-- The last affine layer, into 1024 columns. -/
def lastH (h : FVec F S4096x2048 .f32) (W : FVec F S2048x1024 .f32) (b : FVec F S1024 .f32) : FVec F S4096x1024 .f32 :=
  addf (Host.dotGeneral dot_S4096x2048_S2048x1024_S4096x1024_1_0_0_1_n_n none h W)
    (broadcastInDim S4096x1024 ![0, 1] bcast_S1x1024_S4096x1024_0_1 (broadcastInDim S1x1024 ![1] bcast_S1024_S1x1024_1 b))

/-- The [4096, 1024] result viewed as [4096, 32, 32]. -/
def viewH (z : FVec F S4096x1024 .f32) : FVec F S4096x32x32 .f32 := shapeCast S4096x32x32 z shapeCasts_S4096x1024_S4096x32x32

/-- Softplus, as @softplus prints it (the comparison of a value with itself guards a case the extended reals lack). -/
def softplusH (z : FVec F S4096x32x32 .f32) : FVec F S4096x32x32 .f32 :=
  select (cmpf .une (subf z (broadcastInDim S4096x32x32 ![] bcast_S_S4096x32x32 (constant S_ .f32 0x00000000#32)))
                    (subf z (broadcastInDim S4096x32x32 ![] bcast_S_S4096x32x32 (constant S_ .f32 0x00000000#32))))
    (addf z (broadcastInDim S4096x32x32 ![] bcast_S_S4096x32x32 (constant S_ .f32 0x00000000#32)))
    (addf (maximumf z (broadcastInDim S4096x32x32 ![] bcast_S_S4096x32x32 (constant S_ .f32 0x00000000#32)))
      (Host.log1p (Host.exp (Host.negf (Host.absf
        (subf z (broadcastInDim S4096x32x32 ![] bcast_S_S4096x32x32 (constant S_ .f32 0x00000000#32))))))))

/-- Half a Sinkhorn step: divide by the floored sum of absolute values over axis 1. -/
def colH (r : FVec F S4096x32x32 .f32) : FVec F S4096x32x32 .f32 :=
  Host.divf r (broadcastInDim S4096x32x32 ![0, 1, 2] bcast_S4096x1x32_S4096x32x32_0_1_2
    (maximumf (broadcastInDim S4096x1x32 ![0, 2] bcast_S4096x32_S4096x1x32_0_2
        (Host.reduceAdd (Host.absf r) (constant S_ .f32 0x00000000#32) reducesTo_S4096x32x32_S4096x32_d1 h_S_))
      (broadcastInDim S4096x1x32 ![] bcast_S_S4096x1x32 (constant S_ .f32 0x322BCC77#32))))

/-- The other half: divide by the floored sum of absolute values over axis 2. -/
def rowH (r : FVec F S4096x32x32 .f32) : FVec F S4096x32x32 .f32 :=
  Host.divf r (broadcastInDim S4096x32x32 ![0, 1, 2] bcast_S4096x32x1_S4096x32x32_0_1_2
    (maximumf (broadcastInDim S4096x32x1 ![0, 1] bcast_S4096x32_S4096x32x1_0_1
        (Host.reduceAdd (Host.absf r) (constant S_ .f32 0x00000000#32) reducesTo_S4096x32x32_S4096x32_d2 h_S_))
      (broadcastInDim S4096x32x1 ![] bcast_S_S4096x32x1 (constant S_ .f32 0x322BCC77#32))))

/-- One Sinkhorn step. -/
def stepH (r : FVec F S4096x32x32 .f32) : FVec F S4096x32x32 .f32 := rowH (colH r)

/-- The whole reference as one function of the twelve argument arrays. -/
def total (p q : FVec F S4096x32x32 .f32) (W1 : FVec F S2048x2048 .f32) (b1 : FVec F S2048 .f32)
    (W2 : FVec F S2048x2048 .f32) (b2 : FVec F S2048 .f32) (W3 : FVec F S2048x2048 .f32) (b3 : FVec F S2048 .f32)
    (W4 : FVec F S2048x2048 .f32) (b4 : FVec F S2048 .f32) (W5 : FVec F S2048x1024 .f32) (b5 : FVec F S1024 .f32) :
    FVec F S4096x32x32 .f32 :=
  stepH^[10] (softplusH (viewH (lastH (hiddenH (hiddenH (hiddenH (hiddenH (xH p q) W1 b1) W2 b2) W3 b3) W4 b4) W5 b5)))

end Cert.ReferenceIdeal.RefFns

end
-- ==== Proof.LibHostRead.lean ====
/-
  Reading the contents of a buffer after a long straight line of host operations.

  `StableHlo.after ops V` is what the buffers hold once the operations `ops` have run in order from
  contents `V`. When the line is in single-assignment form — operation number `k` writes exactly the
  reference `W[k]`, and nothing an operation reads or writes is written again later — the FINAL contents
  satisfy each operation's own equation: the result buffer of operation `k` holds the operation's function
  of the final contents of its operands. These are the lemmas `after_nullary_fix`, `after_unary_fix`,
  `after_binary_fix`, `after_ternary_fix`, `after_reshape_fix` below, one per builder.

  Their side conditions are made to be cheap on a literal list of a couple of hundred operations:
  * `Aligned ops W`, proved ONCE per line: the operations and the list of the references they write, paired
    in order (on literal lists it unfolds to a conjunction of equations each closed by `rfl`);
  * `ops[k]? = some (unary x y f hx hy)` for the literal position `k`, closed by `rfl`;
  * that the operands and the result are not among the references written after position `k`,
    `x ∉ W.drop (k + 1)`, and that an operand is not the result, `x ≠ y`: decided over references.
  Nothing is unfolded along the line: the cost of one reading does not grow with the operations before it.
-/
import Idealize.ShloMosaic.Lib.StableHlo
import Idealize.ShloMosaic.Lib.StableHlo.Run

noncomputable section

namespace LibHostRead

open Idealize.ShloMosaic Idealize.ShloMosaic.StableHlo

variable {τ : Topo} {sig : RefSig} {Val : EltTy → Type}

/-- Two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operations `ops` write exactly the references `W`, one each, paired in order. -/
def Aligned : List (HloOp τ sig Val) → List (Ref sig .tc) → Prop
  | [], [] => True
  | op :: ops, y :: W => op.writes = {Proc.devRef (τ := τ) .tc y} ∧ Aligned ops W
  | [], _ :: _ => False
  | _ :: _, [] => False

theorem Aligned.drop : ∀ {ops : List (HloOp τ sig Val)} {W : List (Ref sig .tc)}, Aligned ops W →
    ∀ n : Nat, Aligned (ops.drop n) (W.drop n)
  | _, _, h, 0 => h
  | [], [], _, _ + 1 => trivial
  | _ :: _, _ :: _, h, n + 1 => Aligned.drop h.2 n
  | [], _ :: _, h, _ + 1 => h.elim
  | _ :: _, [], h, _ + 1 => h.elim

/-- Every operation of an aligned line writes one reference, and that reference is in the list. -/
theorem Aligned.writes_of_mem : ∀ {ops : List (HloOp τ sig Val)} {W : List (Ref sig .tc)}, Aligned ops W →
    ∀ op ∈ ops, ∃ y ∈ W, op.writes = {Proc.devRef (τ := τ) .tc y}
  | [], [], _, _, hop => (List.not_mem_nil hop).elim
  | o :: _, y :: _, h, op, hop => by
    rcases List.mem_cons.mp hop with rfl | hop
    · exact ⟨y, List.mem_cons_self, h.1⟩
    · obtain ⟨z, hz, e⟩ := Aligned.writes_of_mem h.2 op hop
      exact ⟨z, List.mem_cons_of_mem _ hz, e⟩
  | [], _ :: _, h, _, _ => h.elim
  | _ :: _, [], h, _, _ => h.elim

/-- A reference not among those written after position `k` is written by no operation after position `k`. -/
theorem Aligned.not_written_after {ops : List (HloOp τ sig Val)} {W : List (Ref sig .tc)} (hA : Aligned ops W) (k : Nat)
    {r : Ref sig .tc} (hr : r ∉ W.drop (k + 1)) : ∀ op ∈ ops.drop (k + 1), Proc.devRef (τ := τ) .tc r ∉ op.writes := by
  intro op hop hmem
  obtain ⟨y, hy, e⟩ := (hA.drop (k + 1)).writes_of_mem op hop
  rw [e, Finset.mem_singleton] at hmem
  exact hr (Proc.devRef_injective _ hmem ▸ hy)

/-- The contents of a buffer after the line, when nothing after position `k` writes it: what operation `k` leaves
    there, run from the contents the operations before it leave. -/
theorem after_eq_result_of_not_written {ops : List (HloOp τ sig Val)} {k : Nat} {op : HloOp τ sig Val}
    (hk : ops[k]? = some op) (V : Valuation τ sig Val) {b : DevRef τ sig}
    (hpost : ∀ o ∈ ops.drop (k + 1), b ∉ o.writes) :
    after ops V b = op.result (after (ops.take k) V) b := by
  obtain ⟨hlt, rfl⟩ := List.getElem?_eq_some_iff.mp hk
  have hsplit : ops = ops.take k ++ ops[k] :: ops.drop (k + 1) := by
    rw [← List.drop_eq_getElem_cons hlt, List.take_append_drop]
  conv_lhs => rw [hsplit]
  rw [after_append, after_cons, after_of_forall_not_mem _ _ hpost]

section Fix

variable {ops : List (HloOp τ sig Val)} {W : List (Ref sig .tc)} (hA : Aligned ops W) (k : Nat)
include hA

/-- A constant's buffer holds the constant at the end. -/
theorem after_nullary_fix {y : Ref sig .tc} {v : y.ty.Contents Val} {hy}
    (hk : ops[k]? = some (nullary y v hy)) (hy' : y ∉ W.drop (k + 1)) (V : Valuation τ sig Val) :
    after ops V (Proc.devRef .tc y) = v := by
  rw [after_eq_result_of_not_written hk V (hA.not_written_after k hy'), nullary_result]

/-- A one-operand operation's result buffer holds, at the end, its function of the operand's final contents. -/
theorem after_unary_fix {x y : Ref sig .tc} {f : x.ty.Contents Val → y.ty.Contents Val} {hx hy}
    (hk : ops[k]? = some (unary x y f hx hy)) (hxy : x ≠ y) (hx' : x ∉ W.drop (k + 1)) (hy' : y ∉ W.drop (k + 1))
    (V : Valuation τ sig Val) :
    after ops V (Proc.devRef .tc y) = f (after ops V (Proc.devRef .tc x)) := by
  rw [after_eq_result_of_not_written hk V (hA.not_written_after k hy'), unary_result,
    after_eq_result_of_not_written hk V (hA.not_written_after k hx'), unary_result_ne _ _ _ _ _ _ hxy]

/-- A two-operand operation's. -/
theorem after_binary_fix {a b y : Ref sig .tc} {f : a.ty.Contents Val → b.ty.Contents Val → y.ty.Contents Val} {ha hb hy}
    (hk : ops[k]? = some (binary a b y f ha hb hy)) (hay : a ≠ y) (hby : b ≠ y)
    (ha' : a ∉ W.drop (k + 1)) (hb' : b ∉ W.drop (k + 1)) (hy' : y ∉ W.drop (k + 1)) (V : Valuation τ sig Val) :
    after ops V (Proc.devRef .tc y) = f (after ops V (Proc.devRef .tc a)) (after ops V (Proc.devRef .tc b)) := by
  rw [after_eq_result_of_not_written hk V (hA.not_written_after k hy'), binary_result,
    after_eq_result_of_not_written hk V (hA.not_written_after k ha'), binary_result_ne _ _ _ _ _ _ _ _ hay,
    after_eq_result_of_not_written hk V (hA.not_written_after k hb'), binary_result_ne _ _ _ _ _ _ _ _ hby]

/-- A three-operand operation's. -/
theorem after_ternary_fix {c a b y : Ref sig .tc}
    {f : c.ty.Contents Val → a.ty.Contents Val → b.ty.Contents Val → y.ty.Contents Val} {hc ha hb hy}
    (hk : ops[k]? = some (ternary c a b y f hc ha hb hy)) (hcy : c ≠ y) (hay : a ≠ y) (hby : b ≠ y)
    (hc' : c ∉ W.drop (k + 1)) (ha' : a ∉ W.drop (k + 1)) (hb' : b ∉ W.drop (k + 1)) (hy' : y ∉ W.drop (k + 1))
    (V : Valuation τ sig Val) :
    after ops V (Proc.devRef .tc y)
      = f (after ops V (Proc.devRef .tc c)) (after ops V (Proc.devRef .tc a)) (after ops V (Proc.devRef .tc b)) := by
  rw [after_eq_result_of_not_written hk V (hA.not_written_after k hy'), ternary_result,
    after_eq_result_of_not_written hk V (hA.not_written_after k hc'), ternary_result_ne _ _ _ _ _ _ _ _ _ _ hcy,
    after_eq_result_of_not_written hk V (hA.not_written_after k ha'), ternary_result_ne _ _ _ _ _ _ _ _ _ _ hay,
    after_eq_result_of_not_written hk V (hA.not_written_after k hb'), ternary_result_ne _ _ _ _ _ _ _ _ _ _ hby]

/-- A reshape's result buffer holds, at the end, the operand's final contents in row-major order at the result's shape. -/
theorem after_reshape_fix {x y : Ref sig .tc} {he : x.ty.elt = y.ty.elt} {hn : x.ty.shape.ShapeCasts y.ty.shape} {hx hy}
    (hk : ops[k]? = some (reshape x y he hn hx hy)) (hxy : x ≠ y) (hx' : x ∉ W.drop (k + 1)) (hy' : y ∉ W.drop (k + 1))
    (V : Valuation τ sig Val) :
    after ops V (Proc.devRef .tc y) = fun i => he ▸ shapeCast y.ty.shape (after ops V (Proc.devRef .tc x)) hn i := by
  rw [after_eq_result_of_not_written hk V (hA.not_written_after k hy'), reshape_result,
    after_eq_result_of_not_written hk V (hA.not_written_after k hx'), reshape_result_ne _ _ _ _ _ _ _ hxy]

end Fix

/-- A reference the line never writes keeps its contents (for the line's arguments). -/
theorem after_of_not_written {ops : List (HloOp τ sig Val)} {W : List (Ref sig .tc)} (hA : Aligned ops W)
    {r : Ref sig .tc} (hr : r ∉ W) (V : Valuation τ sig Val) :
    after ops V (Proc.devRef .tc r) = V (Proc.devRef .tc r) :=
  after_of_forall_not_mem ops V fun op hop hmem => by
    obtain ⟨y, hy, e⟩ := hA.writes_of_mem op hop
    rw [e, Finset.mem_singleton] at hmem
    exact hr (Proc.devRef_injective _ hmem ▸ hy)

end LibHostRead

end
-- ==== Proof.RefRunRead.lean ====
/-
  What each stretch of the reference's operations leaves in the buffer it ends on, as a function of the contents it
  starts from: the fold unrolled, each operation's result read at its own buffer and passed over at every other, the
  typed references' casts the identity at literal references; all of it by computation, the whole-array functions being
  the printed operations composed. Every stretch leaves the twelve arguments as they were.
-/
import proofs.«133769_j86741159510411_2_alg».proof.Proof.RefRunOps
import proofs.«133769_j86741159510411_2_alg».proof.Proof.RefFns
import proofs.«133769_j86741159510411_2_alg».proof.Proof.LibHostRead

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-! ## The value each stretch ends on -/

theorem c0_out (V : Valuation τ sig (Elt F)) :
    after c0 V (Proc.devRef .tc main_v3) = RefFns.xH (V (Proc.devRef .tc main_arg0)) (V (Proc.devRef .tc main_arg1)) := by
  simp only [after_cons, after_nil]
  rfl
theorem c1_out (V : Valuation τ sig (Elt F)) :
    after c1 V (Proc.devRef .tc main_v8) = RefFns.hiddenH (V (Proc.devRef .tc main_v3)) (V (Proc.devRef .tc main_arg2)) (V (Proc.devRef .tc main_arg3)) := by
  simp only [after_cons, after_nil]
  rfl
theorem c2_out (V : Valuation τ sig (Elt F)) :
    after c2 V (Proc.devRef .tc main_v13) = RefFns.hiddenH (V (Proc.devRef .tc main_v8)) (V (Proc.devRef .tc main_arg4)) (V (Proc.devRef .tc main_arg5)) := by
  simp only [after_cons, after_nil]
  rfl
theorem c3_out (V : Valuation τ sig (Elt F)) :
    after c3 V (Proc.devRef .tc main_v18) = RefFns.hiddenH (V (Proc.devRef .tc main_v13)) (V (Proc.devRef .tc main_arg6)) (V (Proc.devRef .tc main_arg7)) := by
  simp only [after_cons, after_nil]
  rfl
theorem c4_out (V : Valuation τ sig (Elt F)) :
    after c4 V (Proc.devRef .tc main_v23) = RefFns.hiddenH (V (Proc.devRef .tc main_v18)) (V (Proc.devRef .tc main_arg8)) (V (Proc.devRef .tc main_arg9)) := by
  simp only [after_cons, after_nil]
  rfl
theorem c5_out (V : Valuation τ sig (Elt F)) :
    after c5 V (Proc.devRef .tc main_v28) = RefFns.viewH (RefFns.lastH (V (Proc.devRef .tc main_v23)) (V (Proc.devRef .tc main_arg10)) (V (Proc.devRef .tc main_arg11))) := by
  simp only [after_cons, after_nil]
  rfl
theorem c6_out (V : Valuation τ sig (Elt F)) :
    after c6 V (Proc.devRef .tc main_v29) = RefFns.softplusH (V (Proc.devRef .tc main_v28)) := by
  simp only [after_cons, after_nil]
  rfl
theorem s0_out (V : Valuation τ sig (Elt F)) :
    after s0 V (Proc.devRef .tc main_v43) = RefFns.stepH (V (Proc.devRef .tc main_v29)) := by
  simp only [after_cons, after_nil]
  rfl
theorem s1_out (V : Valuation τ sig (Elt F)) :
    after s1 V (Proc.devRef .tc main_v57) = RefFns.stepH (V (Proc.devRef .tc main_v43)) := by
  simp only [after_cons, after_nil]
  rfl
theorem s2_out (V : Valuation τ sig (Elt F)) :
    after s2 V (Proc.devRef .tc main_v71) = RefFns.stepH (V (Proc.devRef .tc main_v57)) := by
  simp only [after_cons, after_nil]
  rfl
theorem s3_out (V : Valuation τ sig (Elt F)) :
    after s3 V (Proc.devRef .tc main_v85) = RefFns.stepH (V (Proc.devRef .tc main_v71)) := by
  simp only [after_cons, after_nil]
  rfl
theorem s4_out (V : Valuation τ sig (Elt F)) :
    after s4 V (Proc.devRef .tc main_v99) = RefFns.stepH (V (Proc.devRef .tc main_v85)) := by
  simp only [after_cons, after_nil]
  rfl
theorem s5_out (V : Valuation τ sig (Elt F)) :
    after s5 V (Proc.devRef .tc main_v113) = RefFns.stepH (V (Proc.devRef .tc main_v99)) := by
  simp only [after_cons, after_nil]
  rfl
theorem s6_out (V : Valuation τ sig (Elt F)) :
    after s6 V (Proc.devRef .tc main_v127) = RefFns.stepH (V (Proc.devRef .tc main_v113)) := by
  simp only [after_cons, after_nil]
  rfl
theorem s7_out (V : Valuation τ sig (Elt F)) :
    after s7 V (Proc.devRef .tc main_v141) = RefFns.stepH (V (Proc.devRef .tc main_v127)) := by
  simp only [after_cons, after_nil]
  rfl
theorem s8_out (V : Valuation τ sig (Elt F)) :
    after s8 V (Proc.devRef .tc main_v155) = RefFns.stepH (V (Proc.devRef .tc main_v141)) := by
  simp only [after_cons, after_nil]
  rfl
theorem s9_out (V : Valuation τ sig (Elt F)) :
    after s9 V (Proc.devRef .tc main_v169) = RefFns.stepH (V (Proc.devRef .tc main_v155)) := by
  simp only [after_cons, after_nil]
  rfl

/-! ## The arguments are kept -/

/-- A line of operations that leaves each of the twelve arguments as it was, whatever the contents it starts from. -/
structure Keeps (l : List (HloOp τ sig (Elt F))) : Prop where
  k0 : ∀ V : Valuation τ sig (Elt F), after l V (Proc.devRef .tc main_arg0) = V (Proc.devRef .tc main_arg0)
  k1 : ∀ V : Valuation τ sig (Elt F), after l V (Proc.devRef .tc main_arg1) = V (Proc.devRef .tc main_arg1)
  k2 : ∀ V : Valuation τ sig (Elt F), after l V (Proc.devRef .tc main_arg2) = V (Proc.devRef .tc main_arg2)
  k3 : ∀ V : Valuation τ sig (Elt F), after l V (Proc.devRef .tc main_arg3) = V (Proc.devRef .tc main_arg3)
  k4 : ∀ V : Valuation τ sig (Elt F), after l V (Proc.devRef .tc main_arg4) = V (Proc.devRef .tc main_arg4)
  k5 : ∀ V : Valuation τ sig (Elt F), after l V (Proc.devRef .tc main_arg5) = V (Proc.devRef .tc main_arg5)
  k6 : ∀ V : Valuation τ sig (Elt F), after l V (Proc.devRef .tc main_arg6) = V (Proc.devRef .tc main_arg6)
  k7 : ∀ V : Valuation τ sig (Elt F), after l V (Proc.devRef .tc main_arg7) = V (Proc.devRef .tc main_arg7)
  k8 : ∀ V : Valuation τ sig (Elt F), after l V (Proc.devRef .tc main_arg8) = V (Proc.devRef .tc main_arg8)
  k9 : ∀ V : Valuation τ sig (Elt F), after l V (Proc.devRef .tc main_arg9) = V (Proc.devRef .tc main_arg9)
  k10 : ∀ V : Valuation τ sig (Elt F), after l V (Proc.devRef .tc main_arg10) = V (Proc.devRef .tc main_arg10)
  k11 : ∀ V : Valuation τ sig (Elt F), after l V (Proc.devRef .tc main_arg11) = V (Proc.devRef .tc main_arg11)

/-- Two such lines one after the other are such a line. -/
theorem Keeps.append {l₁ l₂ : List (HloOp τ sig (Elt F))} (h₁ : Keeps l₁) (h₂ : Keeps l₂) : Keeps (l₁ ++ l₂) :=
  ⟨fun V => by rw [LibHostRead.after_append, h₂.k0, h₁.k0],
   fun V => by rw [LibHostRead.after_append, h₂.k1, h₁.k1],
   fun V => by rw [LibHostRead.after_append, h₂.k2, h₁.k2],
   fun V => by rw [LibHostRead.after_append, h₂.k3, h₁.k3],
   fun V => by rw [LibHostRead.after_append, h₂.k4, h₁.k4],
   fun V => by rw [LibHostRead.after_append, h₂.k5, h₁.k5],
   fun V => by rw [LibHostRead.after_append, h₂.k6, h₁.k6],
   fun V => by rw [LibHostRead.after_append, h₂.k7, h₁.k7],
   fun V => by rw [LibHostRead.after_append, h₂.k8, h₁.k8],
   fun V => by rw [LibHostRead.after_append, h₂.k9, h₁.k9],
   fun V => by rw [LibHostRead.after_append, h₂.k10, h₁.k10],
   fun V => by rw [LibHostRead.after_append, h₂.k11, h₁.k11]⟩

theorem c0_keeps : Keeps (c0 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩
theorem c1_keeps : Keeps (c1 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩
theorem c2_keeps : Keeps (c2 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩
theorem c3_keeps : Keeps (c3 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩
theorem c4_keeps : Keeps (c4 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩
theorem c5_keeps : Keeps (c5 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩
theorem c6_keeps : Keeps (c6 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩
theorem s0_keeps : Keeps (s0 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩
theorem s1_keeps : Keeps (s1 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩
theorem s2_keeps : Keeps (s2 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩
theorem s3_keeps : Keeps (s3 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩
theorem s4_keeps : Keeps (s4 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩
theorem s5_keeps : Keeps (s5 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩
theorem s6_keeps : Keeps (s6 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩
theorem s7_keeps : Keeps (s7 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩
theorem s8_keeps : Keeps (s8 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩
theorem s9_keeps : Keeps (s9 : List (HloOp τ sig (Elt F))) :=
  ⟨fun _ => rfl, fun _ => rfl, fun _ => rfl, fun _ => rfl, fun _ => rfl, fun _ => rfl, fun _ => rfl, fun _ => rfl, fun _ => rfl, fun _ => rfl, fun _ => rfl, fun _ => rfl⟩

/-- The whole line keeps them. -/
theorem ops_keeps : Keeps (ops : List (HloOp τ sig (Elt F))) :=
  c0_keeps.append (c1_keeps.append (c2_keeps.append (c3_keeps.append (c4_keeps.append (c5_keeps.append (c6_keeps.append
    (s0_keeps.append (s1_keeps.append (s2_keeps.append (s3_keeps.append (s4_keeps.append (s5_keeps.append (s6_keeps.append
      (s7_keeps.append (s8_keeps.append s9_keeps)))))))))))))))

/-! ## The whole line -/

/-- The result buffer after the whole line: each stretch read at the buffer it ends on, from the contents the stretches
    before it leave; the arguments a stretch reads are the launch's, every earlier stretch keeping them. -/
theorem ops_out (V : Valuation τ sig (Elt F)) :
    after ops V (Proc.devRef .tc main_v169)
      = RefFns.total (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  simp only [ops, LibHostRead.after_append]
  rw [s9_out, s8_out, s7_out, s6_out, s5_out, s4_out, s3_out, s2_out, s1_out, s0_out, c6_out, c5_out, c4_out, c3_out, c2_out,
    c1_out, c0_out]
  simp only [c4_keeps.k10, c4_keeps.k11, c3_keeps.k10, c3_keeps.k11, c3_keeps.k8, c3_keeps.k9,
    c2_keeps.k10, c2_keeps.k11, c2_keeps.k8, c2_keeps.k9, c2_keeps.k6, c2_keeps.k7,
    c1_keeps.k10, c1_keeps.k11, c1_keeps.k8, c1_keeps.k9, c1_keeps.k6, c1_keeps.k7, c1_keeps.k4, c1_keeps.k5,
    c0_keeps.k10, c0_keeps.k11, c0_keeps.k8, c0_keeps.k9, c0_keeps.k6, c0_keeps.k7, c0_keeps.k4, c0_keeps.k5,
    c0_keeps.k2, c0_keeps.k3]
  rfl

end Cert.ReferenceIdeal.RefRun

end
-- ==== Proof.RefRun.lean ====
/-
  The reference's run read back as one function of its arguments: every weakly fair execution of @main terminates, the
  result buffer holds the composition of the whole-array functions (the stacked input through four hidden layers, the
  last affine layer viewed as square matrices, softplus, ten Sinkhorn steps) applied to the twelve argument arrays,
  and the arguments are as they were. The run gives every buffer as the fold of the operations over the launch
  contents; the fold at the result buffer is that composition, and at an argument the argument.
-/
import proofs.«133769_j86741159510411_2_alg».proof.Proof.RefRunMain
import proofs.«133769_j86741159510411_2_alg».proof.Proof.RefRunRead
import Idealize.ShloMosaic.PureOps.Ideal

noncomputable section

namespace Cert.ReferenceIdeal.RefRun

open Cert.ReferenceIdeal Idealize.ShloMosaic Idealize.ShloMosaic.TcCoe Idealize.SL.Sem Idealize.ShloMosaic.StableHlo
open Facts₀ Facts

theorem run_total (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v169)
          = RefFns.total (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10)) (m ((c.tc : Thread nD τ).loc main_arg11))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11) :=
  (θ_run defs _ _).mono (fun _ h c =>
      ⟨(h c main_v169).trans (ops_out (launchContents m c)),
       (h c main_arg0).trans (ops_keeps.k0 (launchContents m c)),
       (h c main_arg1).trans (ops_keeps.k1 (launchContents m c)),
       (h c main_arg2).trans (ops_keeps.k2 (launchContents m c)),
       (h c main_arg3).trans (ops_keeps.k3 (launchContents m c)),
       (h c main_arg4).trans (ops_keeps.k4 (launchContents m c)),
       (h c main_arg5).trans (ops_keeps.k5 (launchContents m c)),
       (h c main_arg6).trans (ops_keeps.k6 (launchContents m c)),
       (h c main_arg7).trans (ops_keeps.k7 (launchContents m c)),
       (h c main_arg8).trans (ops_keeps.k8 (launchContents m c)),
       (h c main_arg9).trans (ops_keeps.k9 (launchContents m c)),
       (h c main_arg10).trans (ops_keeps.k10 (launchContents m c)),
       (h c main_arg11).trans (ops_keeps.k11 (launchContents m c))⟩)
    (run_main m ρ)

end Cert.ReferenceIdeal.RefRun

end
-- ==== Proof.RefIdx.lean ====
/-
  The reference's whole-array functions read at one index, over the extended reals.

  Each function of RefFns.lean is a composition of pointwise operations, broadcasts, one contraction or one
  reduction. Read at an index, a pointwise operation is the extended reals' operation on the entries, a broadcast
  reads its operand at the coordinates it keeps, a rows-by-columns product is the sum over the shared axis, and a
  reduction from the zero word is the sum over the reduced axis. So a hidden layer at (B, j) is the row-level
  hidden layer of row B at j, the last layer likewise, the [4096, 32, 32] view reads flat position 32 i + j,
  softplus is the row-level softplus of the entry (the comparison of a value with itself for "not equal" is
  false, so the select takes its second branch), and each half of a Sinkhorn step at (B, i, j) is the
  column, resp. row, normalisation of the matrix of batch row B. Ten steps follow by induction on the number of
  steps, and the whole function is the row-level function of the stacked input's row B.
-/
import proofs.«133769_j86741159510411_2_alg».proof.Proof.Spec
import proofs.«133769_j86741159510411_2_alg».proof.Proof.RefFns
import Idealize.ShloMosaic.Lib.ValueIdx
import Idealize.ShloMosaic.Lib.Pipeline.Value
import Idealize.ShloMosaic.Lib.IdealHost
import Idealize.ShloMosaic.Lib.KernelVsHost
import Idealize.ShloMosaic.PureOps.Ideal.Laws
import proofs.«133769_j86741159510411_2_alg».proof.Proof.LibPlainMatmul

noncomputable section

namespace Cert.ReferenceIdeal.RefIdx

open Cert.ReferenceIdeal Cert.ReferenceIdeal.RefFns Idealize.ShloMosaic Idealize.ShloMosaic.ValueIdx
open scoped BigOperators
open Cert.LibPlainMatmul (plainDims plain_lhs_row plain_rhs_col)

variable [Facts]
open Facts₀ Facts

/-- A scalar constant broadcast from the empty shape reads its word everywhere. -/
theorem bcastConst_apply {T : Shape} (h : S_.BroadcastsInDim T ![]) (w : BitVec 32) (j : T.Idx) :
    broadcastInDim T ![] h (constant (F := Ideal) S_ .f32 w) j = Ideal.ofBits .f32 w := by
  rw [broadcastInDim_scalar_apply]; rfl

theorem leakyH_apply (x : FVec Ideal S4096x2048 .f32) (B : Fin 4096) (j : Fin 2048) :
    leakyH (F := Ideal) x (ix2 B j) = Cert.Spec.leaky (x (ix2 B j)) := by
  unfold leakyH Cert.Spec.leaky Cert.Spec.zeroW Cert.Spec.slopeW
  rw [select_apply, cmpf_apply, mulf_apply, bcastConst_apply]
  show Scalar.select (Ideal.cmp .oge (x (ix2 B j)) _) _ (broadcastInDim S4096x2048 ![] bcast_S_S4096x2048 (constant (F := Ideal) S_ .f32 0x3C23D70A#32) (ix2 B j) * _) = _
  rw [bcastConst_apply]

/-- A plain rows-by-columns host product read at (p, q): the sum over the shared axis. -/
theorem dotGeneral_plain {m k n : Nat} (wf : DotDims.WF (⟨2, ![m, k]⟩ : Shape) ⟨2, ![k, n]⟩ ⟨2, ![m, n]⟩ [1] [0] [0] [1] [] [])
    {φ₁ φ₂ : FTy} (l : FVec Ideal ⟨2, ![m, k]⟩ φ₁) (r : FVec Ideal ⟨2, ![k, n]⟩ φ₂) (p : Fin m) (q : Fin n) :
    FloatOps.dotGeneral (plainDims wf) none .single l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

/-- A vector [n] made a one-row matrix and broadcast down m rows reads, at (r, t), the vector at t. -/
theorem biasRows_apply {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : FVec Ideal ⟨1, ![n]⟩ .f32) (r : Fin m) (t : Fin n) :
    broadcastInDim ⟨2, ![m, n]⟩ ![0, 1] h2 (broadcastInDim ⟨2, ![1, n]⟩ ![1] h1 b) (ix2 r t) = b (ix1 t) := by
  rw [broadcastInDim_oneRow_apply]
  refine broadcastInDim_apply ![1] h1 b (ix2 (0 : Fin 1) t) (ix1 t) fun a => ?_
  match a with
  | ⟨0, _⟩ =>
    show t.val = if n = 1 then 0 else t.val
    split
    · have := t.isLt; omega
    · rfl

theorem affH_apply (h : FVec Ideal S4096x2048 .f32) (W : FVec Ideal S2048x2048 .f32) (b : FVec Ideal S2048 .f32)
    (B : Fin 4096) (j : Fin 2048) :
    affH (F := Ideal) h W b (ix2 B j)
      = Cert.Spec.affine (fun t j => W (ix2 t j)) (fun j => b (ix1 j)) (fun k => h (ix2 B k)) j := by
  unfold affH Cert.Spec.affine
  rw [addf_apply, biasRows_apply]
  refine congrArg (· + b (ix1 j)) ?_
  exact dotGeneral_plain dot_S4096x2048_S2048x2048_S4096x2048_1_0_0_1_n_n_wf h W B j

theorem hiddenH_apply (h : FVec Ideal S4096x2048 .f32) (W : FVec Ideal S2048x2048 .f32) (b : FVec Ideal S2048 .f32)
    (B : Fin 4096) (j : Fin 2048) :
    hiddenH (F := Ideal) h W b (ix2 B j)
      = Cert.Spec.hidden (fun t j => W (ix2 t j)) (fun j => b (ix1 j)) (fun k => h (ix2 B k)) j := by
  unfold hiddenH Cert.Spec.hidden
  rw [leakyH_apply, affH_apply]

theorem lastH_apply (h : FVec Ideal S4096x2048 .f32) (W : FVec Ideal S2048x1024 .f32) (b : FVec Ideal S1024 .f32)
    (B : Fin 4096) (j : Fin 1024) :
    lastH (F := Ideal) h W b (ix2 B j)
      = Cert.Spec.affine (fun t j => W (ix2 t j)) (fun j => b (ix1 j)) (fun k => h (ix2 B k)) j := by
  unfold lastH Cert.Spec.affine
  rw [addf_apply, biasRows_apply]
  refine congrArg (· + b (ix1 j)) ?_
  exact dotGeneral_plain dot_S4096x2048_S2048x1024_S4096x1024_1_0_0_1_n_n_wf h W B j

/-- The [4096, 1024] array viewed as [4096, 32, 32]: entry (B, i, j) is the flat entry 32 i + j of row B. -/
theorem viewH_apply (z : FVec Ideal S4096x1024 .f32) (B : Fin 4096) (i j : Fin 32) :
    viewH (F := Ideal) z (ix3 B i j) = z (ix2 B (Cert.Spec.flat i j)) := by
  unfold viewH
  refine shapeCast_apply z shapeCasts_S4096x1024_S4096x32x32 _ _ ?_
  rw [Shape.rowMajor_val_three, Shape.rowMajor_val_two]
  show B.val * 1024 + (32 * i.val + j.val) = (B.val * 32 + i.val) * 32 + j.val
  omega

/-- A value compared with itself for "not equal" gives the bit 0. -/
theorem cmp_une_self (v : EReal) : Ideal.cmp .une v v = 0#1 := by
  unfold Ideal.cmp
  simp

theorem softplusH_apply (z : FVec Ideal S4096x32x32 .f32) (idx : S4096x32x32.Idx) :
    softplusH (F := Ideal) z idx = Cert.Spec.softplus (z idx) := by
  unfold softplusH Cert.Spec.softplus Cert.Spec.abs' Cert.Spec.zeroW
  rw [select_apply, cmpf_apply]
  show Scalar.select (Ideal.cmp .une _ _) _ _ = _
  rw [cmp_une_self, select_zero, addf_apply, maximumf_apply, bcastConst_apply]
  refine congrArg (max (z idx) (Ideal.ofBits .f32 0x00000000#32) + ·) ?_
  show Ideal.log1p (Ideal.exp (-(max (subf z _ idx) (-(subf z _ idx))))) = _
  rw [subf_apply, bcastConst_apply]

section Keepdims
variable {α : Type}

/-- An [a, c] array given a unit middle axis reads, at (p, z, s), the operand at (p, s). -/
theorem bcast_ac_a1c_apply {a c : ℕ} (h : (⟨2, ![a, c]⟩ : Shape).BroadcastsInDim ⟨3, ![a, 1, c]⟩ ![0, 2])
    (x : (⟨2, ![a, c]⟩ : Shape).Idx → α) (p : Fin a) (z : Fin 1) (s : Fin c) :
    broadcastInDim ⟨3, ![a, 1, c]⟩ ![0, 2] h x (ix3 p z s) = x (ix2 p s) := by
  refine broadcastInDim_apply ![0, 2] h x (ix3 p z s) (ix2 p s) fun ax => ?_
  match ax with
  | ⟨0, _⟩ =>
    show p.val = if a = 1 then 0 else p.val
    split
    · have := p.isLt; omega
    · rfl
  | ⟨1, _⟩ =>
    show s.val = if c = 1 then 0 else s.val
    split
    · have := s.isLt; omega
    · rfl

/-- An [a, b] array given a unit last axis reads, at (p, q, z), the operand at (p, q). -/
theorem bcast_ab_ab1_apply {a b : ℕ} (h : (⟨2, ![a, b]⟩ : Shape).BroadcastsInDim ⟨3, ![a, b, 1]⟩ ![0, 1])
    (x : (⟨2, ![a, b]⟩ : Shape).Idx → α) (p : Fin a) (q : Fin b) (z : Fin 1) :
    broadcastInDim ⟨3, ![a, b, 1]⟩ ![0, 1] h x (ix3 p q z) = x (ix2 p q) := by
  refine broadcastInDim_apply ![0, 1] h x (ix3 p q z) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- An [a, 1, c] array spread along its middle axis reads, at (p, q, s), the operand at (p, 0, s). -/
theorem bcast_a1c_abc_apply {a b c : ℕ} (h : (⟨3, ![a, 1, c]⟩ : Shape).BroadcastsInDim ⟨3, ![a, b, c]⟩ ![0, 1, 2])
    (x : (⟨3, ![a, 1, c]⟩ : Shape).Idx → α) (p : Fin a) (q : Fin b) (s : Fin c) :
    broadcastInDim ⟨3, ![a, b, c]⟩ ![0, 1, 2] h x (ix3 p q s) = x (ix3 p (0 : Fin 1) s) := by
  refine broadcastInDim_apply ![0, 1, 2] h x (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- An [a, b, 1] array spread along its last axis reads, at (p, q, s), the operand at (p, q, 0). -/
theorem bcast_ab1_abc_apply {a b c : ℕ} (h : (⟨3, ![a, b, 1]⟩ : Shape).BroadcastsInDim ⟨3, ![a, b, c]⟩ ![0, 1, 2])
    (x : (⟨3, ![a, b, 1]⟩ : Shape).Idx → α) (p : Fin a) (q : Fin b) (s : Fin c) :
    broadcastInDim ⟨3, ![a, b, c]⟩ ![0, 1, 2] h x (ix3 p q s) = x (ix3 p q (0 : Fin 1)) := by
  refine broadcastInDim_apply ![0, 1, 2] h x (ix3 p q s) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Keepdims

/-- The host's sum over axis 1 of a [4096, 32, 32] array from the zero word, at (B, j): the sum down column j. -/
theorem reduce1_apply (x : FVec Ideal S4096x32x32 .f32) (B : Fin 4096) (j : Fin 32) :
    Host.reduceAdd (F := Ideal) x (constant (F := Ideal) S_ .f32 0x00000000#32) reducesTo_S4096x32x32_S4096x32_d1 h_S_ (ix2 B j)
      = ∑ k : Fin 32, x (ix3 B k j) := by
  have hR : S4096x32x32.Reduces [1] S4096x32 := by decide
  rw [hostReduceAdd_apply, Ideal.hostReduceAdd_single reducesTo_S4096x32x32_S4096x32_d1 hR]
  show Ideal.ofBits .f32 0x00000000#32 + _ = _
  rw [Ideal.ofBits_zero_f32, zero_add]
  refine Finset.sum_congr rfl fun k _ => congrArg x ?_
  funext a
  refine Fin.ext ?_
  match a with
  | ⟨0, _⟩ => rfl
  | ⟨1, _⟩ => rfl
  | ⟨2, _⟩ => rfl

/-- The host's sum over axis 2, at (B, i): the sum along row i. -/
theorem reduce2_apply (x : FVec Ideal S4096x32x32 .f32) (B : Fin 4096) (i : Fin 32) :
    Host.reduceAdd (F := Ideal) x (constant (F := Ideal) S_ .f32 0x00000000#32) reducesTo_S4096x32x32_S4096x32_d2 h_S_ (ix2 B i)
      = ∑ k : Fin 32, x (ix3 B i k) := by
  have hR : S4096x32x32.Reduces [2] S4096x32 := by decide
  rw [hostReduceAdd_apply, Ideal.hostReduceAdd_single reducesTo_S4096x32x32_S4096x32_d2 hR]
  show Ideal.ofBits .f32 0x00000000#32 + _ = _
  rw [Ideal.ofBits_zero_f32, zero_add]
  refine Finset.sum_congr rfl fun k _ => congrArg x ?_
  funext a
  refine Fin.ext ?_
  match a with
  | ⟨0, _⟩ => rfl
  | ⟨1, _⟩ => rfl
  | ⟨2, _⟩ => rfl

theorem colH_apply (r : FVec Ideal S4096x32x32 .f32) (B : Fin 4096) (i j : Fin 32) :
    colH (F := Ideal) r (ix3 B i j) = Cert.Spec.colNorm (fun i j => r (ix3 B i j)) i j := by
  unfold colH Cert.Spec.colNorm Cert.Spec.abs' Cert.Spec.epsW
  show Ideal.div (r (ix3 B i j)) _ = _
  refine congrArg (Ideal.div (r (ix3 B i j))) ?_
  rw [bcast_a1c_abc_apply, maximumf_apply, bcast_ac_a1c_apply, bcastConst_apply, reduce1_apply]
  rfl

theorem rowH_apply (r : FVec Ideal S4096x32x32 .f32) (B : Fin 4096) (i j : Fin 32) :
    rowH (F := Ideal) r (ix3 B i j) = Cert.Spec.rowNorm (fun i j => r (ix3 B i j)) i j := by
  unfold rowH Cert.Spec.rowNorm Cert.Spec.abs' Cert.Spec.epsW
  show Ideal.div (r (ix3 B i j)) _ = _
  refine congrArg (Ideal.div (r (ix3 B i j))) ?_
  rw [bcast_ab1_abc_apply, maximumf_apply, bcast_ab_ab1_apply, bcastConst_apply, reduce2_apply]
  rfl

theorem stepH_apply (r : FVec Ideal S4096x32x32 .f32) (B : Fin 4096) (i j : Fin 32) :
    stepH (F := Ideal) r (ix3 B i j) = Cert.Spec.sinkStep (fun i j => r (ix3 B i j)) i j := by
  unfold stepH Cert.Spec.sinkStep
  rw [rowH_apply]
  refine congrFun (congrFun (congrArg Cert.Spec.rowNorm ?_) i) j
  funext i' j'
  exact colH_apply r B i' j'

theorem stepH_iterate_apply (n : Nat) (r : FVec Ideal S4096x32x32 .f32) (B : Fin 4096) (i j : Fin 32) :
    ((stepH (F := Ideal))^[n] r) (ix3 B i j) = (Cert.Spec.sinkStep^[n] (fun i j => r (ix3 B i j))) i j := by
  induction n generalizing i j with
  | zero => rfl
  | succ n ih =>
    rw [Function.iterate_succ_apply', Function.iterate_succ_apply', stepH_apply]
    refine congrFun (congrFun (congrArg Cert.Spec.sinkStep ?_) i) j
    funext i' j'
    exact ih i' j'

theorem total_apply (p q : FVec Ideal S4096x32x32 .f32) (W1 : FVec Ideal S2048x2048 .f32) (b1 : FVec Ideal S2048 .f32) (W2 : FVec Ideal S2048x2048 .f32) (b2 : FVec Ideal S2048 .f32) (W3 : FVec Ideal S2048x2048 .f32) (b3 : FVec Ideal S2048 .f32) (W4 : FVec Ideal S2048x2048 .f32) (b4 : FVec Ideal S2048 .f32) (W5 : FVec Ideal S2048x1024 .f32) (b5 : FVec Ideal S1024 .f32) (B : Fin 4096) (i j : Fin 32) :
      RefFns.total (F := Ideal) p q W1 b1 W2 b2 W3 b3 W4 b4 W5 b5 (ix3 B i j)
        = Cert.Spec.G (Cert.Spec.paramsOf W1 b1 W2 b2 W3 b3 W4 b4 W5 b5) (fun B k => RefFns.xH (F := Ideal) p q (ix2 B k)) B i j := by
  unfold RefFns.total Cert.Spec.G Cert.Spec.sink
  rw [stepH_iterate_apply]
  refine congrFun (congrFun (congrArg (Cert.Spec.sinkStep^[10]) ?_) i) j
  funext i' j'
  rw [softplusH_apply, viewH_apply, lastH_apply]
  unfold Cert.Spec.mlpRow Cert.Spec.preRow Cert.Spec.hid4
  refine congrArg Cert.Spec.softplus ?_
  refine congrFun (congrArg (Cert.Spec.affine _ _) ?_) _
  funext k4
  rw [hiddenH_apply]
  refine congrFun (congrArg (Cert.Spec.hidden _ _) ?_) _
  funext k3
  rw [hiddenH_apply]
  refine congrFun (congrArg (Cert.Spec.hidden _ _) ?_) _
  funext k2
  rw [hiddenH_apply]
  refine congrFun (congrArg (Cert.Spec.hidden _ _) ?_) _
  funext k1
  rw [hiddenH_apply]
  rfl

end Cert.ReferenceIdeal.RefIdx

end
-- ==== Proof.Bridge.lean ====
/-
  The two sides meet. The reference's whole-array function of the twelve arguments, read at `(B, i, j)`, is the
  specification's `G` over the stacked input as the reference builds it; the kernel builds the same stacked input by
  the same operations followed by a change of float format, which is the identity on the extended reals. So the
  reference's result array is the array the kernel's run ends with.
-/
import proofs.«133769_j86741159510411_2_alg».proof.Proof.KVal
import proofs.«133769_j86741159510411_2_alg».proof.Proof.RefIdx
import proofs.«133769_j86741159510411_2_alg».proof.Proof.Gen.ReferenceIdeal

set_option maxRecDepth 16384

noncomputable section

namespace Cert.Bridge

open Idealize.ShloMosaic Idealize.ShloMosaic.ValueIdx

/-- The stacked input is one array on both sides. -/
theorem x_eq (p q : FVec Ideal Cert.ReferenceIdeal.S4096x32x32 .f32) :
    (fun (B : Fin 4096) (k : Fin 2048) => Cert.ReferenceIdeal.RefFns.xH (F := Ideal) p q (ix2 B k))
      = fun B k => Cert.KernelIdeal.Val.xK p q (ix2 B k) := rfl

/-- The reference's result array is the specification's function of the arguments, the one the kernel's run ends with. -/
theorem ref_total_eq (p q : FVec Ideal Cert.ReferenceIdeal.S4096x32x32 .f32) (W1 : FVec Ideal Cert.ReferenceIdeal.S2048x2048 .f32) (b1 : FVec Ideal Cert.ReferenceIdeal.S2048 .f32)
    (W2 : FVec Ideal Cert.ReferenceIdeal.S2048x2048 .f32) (b2 : FVec Ideal Cert.ReferenceIdeal.S2048 .f32) (W3 : FVec Ideal Cert.ReferenceIdeal.S2048x2048 .f32) (b3 : FVec Ideal Cert.ReferenceIdeal.S2048 .f32)
    (W4 : FVec Ideal Cert.ReferenceIdeal.S2048x2048 .f32) (b4 : FVec Ideal Cert.ReferenceIdeal.S2048 .f32) (W5 : FVec Ideal Cert.ReferenceIdeal.S2048x1024 .f32) (b5 : FVec Ideal Cert.ReferenceIdeal.S1024 .f32) :
    Cert.ReferenceIdeal.RefFns.total (F := Ideal) p q W1 b1 W2 b2 W3 b3 W4 b4 W5 b5
      = Cert.KernelIdeal.Val.gAll (Cert.Spec.paramsOf W1 b1 W2 b2 W3 b3 W4 b4 W5 b5) (Cert.KernelIdeal.Val.xK p q) := by
  funext idx
  obtain ⟨B, i, j, rfl⟩ : ∃ (B : Fin 4096) (i j : Fin 32), idx = ix3 B i j := ⟨idx 0, idx 1, idx 2, eq_ix3 idx⟩
  rw [Cert.ReferenceIdeal.RefIdx.total_apply, x_eq]
  rfl

end Cert.Bridge

end
-- ==== Proof.lean ====
/-
  The certificate of the matching network: a five-layer perceptron (LeakyReLU between layers, softplus at the end) on
  the stacked inputs, then ten Sinkhorn normalisation steps on each 32 × 32 matrix, as a two-region pipelined kernel
  against the same computation written as host operations.

  On the extended reals a change of float format is the identity and every operation is exact, so both programs compute
  one function of the twelve arguments: `Cert.Spec.G` (Proof/Spec.lean). The kernel side: the run ends with the result
  buffer at what the second region's write-backs leave (Proof/KRun.lean); each region's blocks are restrictions of one
  whole-array function because a row of the perceptron reads only its own input row and a matrix's Sinkhorn steps read
  only that matrix, and the blocks tile the arrays (Proof/KArr.lean, over the bodies read at an index in Proof/KMlp.lean
  and Proof/KSink.lean); chained through the reshape this is `G` (Proof/KVal.lean). The reference side: its run ends
  with the result at the composition of its operations grouped into whole-array functions (Proof/RefRun.lean over
  Proof/RefFns.lean), which read at an index are `G` again (Proof/RefIdx.lean); the two stacked inputs are one array
  (Proof/Bridge.lean). The matrix products meet as sums over the shared axis, the lane reductions and the host
  reductions as sums over the reduced axis; no law beyond that is needed, so the precondition is never opened.
  The idealization rewrote nothing, so `preserves` asks nothing.
-/
import proofs.«133769_j86741159510411_2_alg».proof.Defs
import proofs.«133769_j86741159510411_2_alg».proof.Proof.Gen.Kernel
import proofs.«133769_j86741159510411_2_alg».proof.Proof.Gen.Kernel.Skeleton
import proofs.«133769_j86741159510411_2_alg».proof.Proof.Gen.Kernel.Launch
import proofs.«133769_j86741159510411_2_alg».proof.Proof.Gen.Kernel.Points
import proofs.«133769_j86741159510411_2_alg».proof.Proof.Gen.Kernel.Frame
import proofs.«133769_j86741159510411_2_alg».proof.Proof.Gen.KernelIdeal
import proofs.«133769_j86741159510411_2_alg».proof.Proof.Gen.KernelIdeal.Skeleton
import proofs.«133769_j86741159510411_2_alg».proof.Proof.Gen.KernelIdeal.Launch
import proofs.«133769_j86741159510411_2_alg».proof.Proof.Gen.KernelIdeal.Points
import proofs.«133769_j86741159510411_2_alg».proof.Proof.Gen.KernelIdeal.Frame
import proofs.«133769_j86741159510411_2_alg».proof.Proof.Gen.ReferenceIdeal
import proofs.«133769_j86741159510411_2_alg».proof.Proof.Gen.Pre_finite_inputs
import proofs.«133769_j86741159510411_2_alg».proof.Proof.KRun
import proofs.«133769_j86741159510411_2_alg».proof.Proof.KVal
import proofs.«133769_j86741159510411_2_alg».proof.Proof.KSink
import proofs.«133769_j86741159510411_2_alg».proof.Proof.KMlp
import proofs.«133769_j86741159510411_2_alg».proof.Proof.RefRun
import proofs.«133769_j86741159510411_2_alg».proof.Proof.Bridge
import Idealize.ShloMosaic.Adequacy
import Idealize.ShloMosaic.Init

noncomputable section

namespace Cert.Proof

open Idealize.ShloMosaic Idealize.SL.Sem

/-- The Sinkhorn body at an index: ten steps on that index's matrix. -/
theorem body1 : Cert.KernelIdeal.Arr.Body1 := fun x0 b i j => Cert.KernelIdeal.Body.out1_1_apply x0 b i j

/-- The perceptron body at an index: the five layers on that index's row. -/
theorem body0 : Cert.KernelIdeal.Arr.Body0 := fun x0 x1 x2 x3 x4 x5 x6 x7 x8 x9 x10 r j =>
  Cert.KernelIdeal.Body.out0_11_apply x0 x1 x2 x3 x4 x5 x6 x7 x8 x9 x10 r j

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run_total m ρ)

/-- Both runs end with the result at the specification's function of the (agreeing) arguments. -/
theorem algebraic : Cert.algebraic_KernelIdeal_ReferenceIdeal := by
  intro m ρ m' ρ' _ hagree
  refine ⟨fun c => Cert.KernelIdeal.Val.gAll (Cert.Spec.paramsOf (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
      (Cert.KernelIdeal.Val.xK (m ((c.tc : Thread Cert.KernelIdeal.nD Cert.KernelIdeal.τ).loc Cert.KernelIdeal.main_arg0)) (m ((c.tc : Thread Cert.KernelIdeal.nD Cert.KernelIdeal.τ).loc Cert.KernelIdeal.main_arg1))), ?_, ?_⟩
  · exact (θ_run Cert.KernelIdeal.defs _ _).mono
      (fun r h c => ⟨(h c).1.trans (Cert.KernelIdeal.Val.result_eq m ρ body0 body1 c), (h c).2⟩)
      (Cert.KernelIdeal.Run.run_result m ρ)
  · refine (θ_run Cert.ReferenceIdeal.defs _ _).mono (fun r h c => ⟨(h c).1.trans ?_, (h c).2⟩)
      (Cert.ReferenceIdeal.RefRun.run_total m' ρ')
    obtain ⟨a0, a1, a2, a3, a4, a5, a6, a7, a8, a9, a10, a11⟩ := hagree c
    rw [a0, a1, a2, a3, a4, a5, a6, a7, a8, a9, a10, a11]
    exact Cert.Bridge.ref_total_eq _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
